-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128 : Shape := ⟨2, ![128, 128]⟩
abbrev S512x128x1 : Shape := ⟨3, ![512, 128, 1]⟩
abbrev S1x64 : Shape := ⟨2, ![1, 64]⟩
abbrev S8192x640 : Shape := ⟨2, ![8192, 640]⟩
abbrev S1x640 : Shape := ⟨2, ![1, 640]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S512x128x1 : S_.BroadcastsInDim S512x128x1 (![] : Fin 0 → Fin S512x128x1.rank)
  reducesTo_S512x128x1_S_d0_1_2 : S512x128x1.ReducesTo [0, 1, 2] S_
  bcast_S_S1x64 : S_.BroadcastsInDim S1x64 (![] : Fin 0 → Fin S1x64.rank)
  reducesTo_S1x64_S_d0_1 : S1x64.ReducesTo [0, 1] S_
  bcast_S_S8192x640 : S_.BroadcastsInDim S8192x640 (![] : Fin 0 → Fin S8192x640.rank)
  reducesTo_S8192x640_S_d0_1 : S8192x640.ReducesTo [0, 1] S_
  bcast_S_S1x640 : S_.BroadcastsInDim S1x640 (![] : Fin 0 → Fin S1x640.rank)
  reducesTo_S1x640_S_d0_1 : S1x640.ReducesTo [0, 1] S_

variable [Facts]

def fn_part1 {F : FTy → Type} [FloatOps F] (main_arg4 : FVec F S8192x640 .f32) (main_arg5 : FVec F S1x640 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S8192x640 .f32 := Host.absf main_arg4
  let main_cst_6 : FVec F S_ .f32 := constant S_ .f32 0x7F800000#32
  let main_v20 : FVec F S8192x640 .f32 := broadcastInDim S8192x640 ![] bcast_S_S8192x640 main_cst_6
  let main_v21 : IVec S8192x640 1 := cmpf .olt main_v19 main_v20
  let main_c_7 : IVec S_ 1 := constantI S_ 1 1#1
  let main_v22 : IVec S_ 1 := (fun x v => Host.reduce IntOp.andi x v reducesTo_S8192x640_S_d0_1 h_S_) main_v21 main_c_7
  let main_v23 : IVec S_ 1 := andi main_v18 main_v22
  let main_v24 : FVec F S1x640 .f32 := Host.absf main_arg5
  let main_cst_8 : FVec F S_ .f32 := constant S_ .f32 0x7F800000#32
  let main_v25 : FVec F S1x640 .f32 := broadcastInDim S1x640 ![] bcast_S_S1x640 main_cst_8
  let main_v26 : IVec S1x640 1 := cmpf .olt main_v24 main_v25
  let main_c_9 : IVec S_ 1 := constantI S_ 1 1#1
  let main_v27 : IVec S_ 1 := (fun x v => Host.reduce IntOp.andi x v reducesTo_S1x640_S_d0_1 h_S_) main_v26 main_c_9
  let main_v28 : IVec S_ 1 := andi main_v23 main_v27
  main_v28

def fn {F : FTy → Type} [FloatOps F] (main_arg0 : FVec F S128x128 .f32) (main_arg1 : FVec F S512x128x1 .f32) (main_arg2 : FVec F S1x64 .f32) (main_arg3 : FVec F S1x64 .f32) (main_arg4 : FVec F S8192x640 .f32) (main_arg5 : FVec F S1x640 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S512x128x1 .f32 := Host.absf main_arg1
  let main_cst_0 : FVec F S_ .f32 := constant S_ .f32 0x7F800000#32
  let main_v5 : FVec F S512x128x1 .f32 := broadcastInDim S512x128x1 ![] bcast_S_S512x128x1 main_cst_0
  let main_v6 : IVec S512x128x1 1 := cmpf .olt main_v4 main_v5
  let main_c_1 : IVec S_ 1 := constantI S_ 1 1#1
  let main_v7 : IVec S_ 1 := (fun x v => Host.reduce IntOp.andi x v reducesTo_S512x128x1_S_d0_1_2 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_v13 main_v16
-- ==== Kernel.lean ====
abbrev S128x128 : Shape := ⟨2, ![128, 128]⟩
abbrev S512x128x1 : Shape := ⟨3, ![512, 128, 1]⟩
abbrev S1x64 : Shape := ⟨2, ![1, 64]⟩
abbrev S8192x640 : Shape := ⟨2, ![8192, 640]⟩
abbrev S1x640 : Shape := ⟨2, ![1, 640]⟩
abbrev S1x1x1x64 : Shape := ⟨4, ![1, 1, 1, 64]⟩
abbrev S1x1x128x64 : Shape := ⟨4, ![1, 1, 128, 64]⟩
abbrev S1x8192 : Shape := ⟨2, ![1, 8192]⟩
abbrev S512x128 : Shape := ⟨2, ![512, 128]⟩
abbrev S512x640 : Shape := ⟨2, ![512, 640]⟩
abbrev S1x1024 : Shape := ⟨2, ![1, 1024]⟩
abbrev S1024x640 : Shape := ⟨2, ![1024, 640]⟩
abbrev S128x1024 : Shape := ⟨2, ![128, 1024]⟩
abbrev S512x1024 : Shape := ⟨2, ![512, 1024]⟩

abbrev nBuf : Space → Nat
  | .hbm => 15
  | .vmem => 17
  | .smem => 0
  | _ => 0

abbrev bufTy : (tb : Table) → Fin (tcTables nBuf tb) → BufTy
  | .hbm, ⟨0, _⟩ => ⟨S128x128, .f32⟩
  | .hbm, ⟨1, _⟩ => ⟨S512x128x1, .f32⟩
  | .hbm, ⟨2, _⟩ => ⟨S1x64, .f32⟩
  | .hbm, ⟨3, _⟩ => ⟨S1x64, .f32⟩
  | .hbm, ⟨4, _⟩ => ⟨S8192x640, .f32⟩
  | .hbm, ⟨5, _⟩ => ⟨S1x640, .f32⟩
  | .hbm, ⟨6, _⟩ => ⟨S128x128, .f32⟩
  | .hbm, ⟨7, _⟩ => ⟨S1x1x1x64, .f32⟩
  | .hbm, ⟨8, _⟩ => ⟨S1x1x128x64, .f32⟩
  | .hbm, ⟨9, _⟩ => ⟨S1x8192, .f32⟩
  | .hbm, ⟨10, _⟩ => ⟨S1x1x1x64, .f32⟩
  | .hbm, ⟨11, _⟩ => ⟨S1x1x128x64, .f32⟩
  | .hbm, ⟨12, _⟩ => ⟨S1x8192, .f32⟩
  | .hbm, ⟨13, _⟩ => ⟨S512x128, .f32⟩
  | .hbm, ⟨14, _⟩ => ⟨S512x640, .f32⟩
  | .local _ .vmem, ⟨0, _⟩ => ⟨S512x128, .f32⟩
  | .local _ .vmem, ⟨1, _⟩ => ⟨S128x128, .f32⟩
  | .local _ .vmem, ⟨2, _⟩ => ⟨S1x640, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x640, .f32⟩
  | .local _ .vmem, ⟨8, _⟩ => ⟨S1024x640, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x640, .f32⟩
  | .local _ .vmem, ⟨14, _⟩ => ⟨S1024x640, .f32⟩
  | .local _ .vmem, ⟨15, _⟩ => ⟨S512x640, .f32⟩
  | .local _ .vmem, ⟨16, _⟩ => ⟨S512x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_v0 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  transposes_S128x128_S128x128_1_0 : S128x128.Transposes [1, 0] S128x128
  shapeCasts_S1x64_S1x1x1x64 : S1x64.ShapeCasts S1x1x1x64
  bcast_S1x1x1x64_S1x1x128x64_0_1_2_3 : S1x1x1x64.BroadcastsInDim S1x1x128x64 (![0, 1, 2, 3] : Fin 4 → Fin S1x1x128x64.rank)
  shapeCasts_S1x1x128x64_S1x8192 : S1x1x128x64.ShapeCasts S1x8192
  shapeCasts_S512x128x1_S512x128 : S512x128x1.ShapeCasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S512x640 : S1x640.Broadcasts S512x640
  inb_S512x640_S512x640_0_0 : ∀ a, (![0, 0] : Fin 2 → Nat) a + S512x640.size a ≤ S512x640.size a
  h_S512x640 : 0 < S512x640.numel
  iota_S128x1024_d0_w32 : S128x1024.Iotas .tc 32 [0]
  iota_S128x1024_d1_w32 : S128x1024.Iotas .tc 32 [1]
  natLt_1_32 : 1 < 32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  broadcasts_S1x1024_S512x1024 : S1x1024.Broadcasts S512x1024
  inb_S1024x640_S1024x640_0_0 : ∀ a, (![0, 0] : Fin 2 → Nat) a + S1024x640.size a ≤ S1024x640.size a
  h_S1024x640 : 0 < S1024x640.numel
  shapeCasts_S512x640_S512x640 : S512x640.ShapeCasts S512x640
  dot_S512x128_S128x128_S512x128_1_0_0_1_n_n_wf : DotDims.WF S512x128 S128x128 S512x128 [1] [0] [0] [1] [] []
  dot_S512x128_S128x1024_S512x1024_1_0_0_1_n_n_wf : DotDims.WF S512x128 S128x1024 S512x1024 [1] [0] [0] [1] [] []
  dot_S512x1024_S1024x640_S512x640_1_0_0_1_n_n_wf : DotDims.WF S512x1024 S1024x640 S512x640 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x640.size a
  hwx0_2 : ∀ i : grid0.Coords, EltTy.bits .f32 = 32 ∨ (Rect.block (s := S1x640) S1x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x640.size a ≤ S8192x640.size a
  hwx0_5 : ∀ i : grid0.Coords, EltTy.bits .f32 = 32 ∨ (Rect.block (s := S8192x640) S1024x640.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x8192.size a
  hwx0_6 : ∀ i : grid0.Coords, EltTy.bits .f32 = 32 ∨ (Rect.block (s := S1x8192) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x8192.size a
  hwx0_7 : ∀ i : grid0.Coords, EltTy.bits .f32 = 32 ∨ (Rect.block (s := S1x8192) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x640.size a ≤ S8192x640.size a
  hwx0_8 : ∀ i : grid0.Coords, EltTy.bits .f32 = 32 ∨ (Rect.block (s := S8192x640) S1024x640.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x640.size a ≤ S512x640.size a
  hwx0_9 : ∀ i : grid0.Coords, EltTy.bits .f32 = 32 ∨ (Rect.block (s := S512x640) S512x640.size (cc0_transform_9 i) (hinb0_9 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S512x1024_S1024x640_S512x640_1_0_0_1_n_n : DotDims S512x1024 S1024x640 S512x640 where
  lhsContracting := [1]
  rhsContracting := [0]
  lhsNonContracting := [0]
  rhsNonContracting := [1]
  lhsBatch := []
  rhsBatch := []
  wf := dot_S512x1024_S1024x640_S512x640_1_0_0_1_n_n_wf

abbrev win0_0 : Pipeline.Window sig grid0 :=
  Pipeline.Window.ofSpec (Memref.whole main_call0_v7) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024x640.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v6) S1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S1024x640.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0) S512x640.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S128x128 : Shape := ⟨2, ![128, 128]⟩
abbrev S512x128x1 : Shape := ⟨3, ![512, 128, 1]⟩
abbrev S1x64 : Shape := ⟨2, ![1, 64]⟩
abbrev S8192x640 : Shape := ⟨2, ![8192, 640]⟩
abbrev S1x640 : Shape := ⟨2, ![1, 640]⟩
abbrev S128x128x1 : Shape := ⟨3, ![128, 128, 1]⟩
abbrev S64 : Shape := ⟨1, ![64]⟩
abbrev S1x1x64 : Shape := ⟨3, ![1, 1, 64]⟩
abbrev S128x128x64 : Shape := ⟨3, ![128, 128, 64]⟩
abbrev S128x8192 : Shape := ⟨2, ![128, 8192]⟩
abbrev S1x1x1x64 : Shape := ⟨4, ![1, 1, 1, 64]⟩
abbrev S1x1x128x64 : Shape := ⟨4, ![1, 1, 128, 64]⟩
abbrev S1x8192 : Shape := ⟨2, ![1, 8192]⟩
abbrev S_ : Shape := ⟨0, ![]⟩
abbrev S512x128 : Shape := ⟨2, ![512, 128]⟩
abbrev S512x640 : Shape := ⟨2, ![512, 640]⟩
abbrev S512x8192 : Shape := ⟨2, ![512, 8192]⟩

abbrev nBuf : Space → Nat
  | .hbm => 28
  | .vmem => 6
  | .smem => 0
  | _ => 0

abbrev bufTy : (tb : Table) → Fin (tcTables nBuf tb) → BufTy
  | .hbm, ⟨0, _⟩ => ⟨S128x128, .f32⟩
  | .hbm, ⟨1, _⟩ => ⟨S512x128x1, .f32⟩
  | .hbm, ⟨2, _⟩ => ⟨S1x64, .f32⟩
  | .hbm, ⟨3, _⟩ => ⟨S1x64, .f32⟩
  | .hbm, ⟨4, _⟩ => ⟨S8192x640, .f32⟩
  | .hbm, ⟨5, _⟩ => ⟨S1x640, .f32⟩
  | .hbm, ⟨6, _⟩ => ⟨S128x128, .f32⟩
  | .hbm, ⟨7, _⟩ => ⟨S128x128x1, .f32⟩
  | .hbm, ⟨8, _⟩ => ⟨S64, .f32⟩
  | .hbm, ⟨9, _⟩ => ⟨S1x1x64, .f32⟩
  | .hbm, ⟨10, _⟩ => ⟨S128x128x64, .f32⟩
  | .hbm, ⟨11, _⟩ => ⟨S128x128x64, .f32⟩
  | .hbm, ⟨12, _⟩ => ⟨S128x128x64, .f32⟩
  | .hbm, ⟨13, _⟩ => ⟨S128x8192, .f32⟩
  | .hbm, ⟨14, _⟩ => ⟨S1x1x1x64, .f32⟩
  | .hbm, ⟨15, _⟩ => ⟨S1x1x128x64, .f32⟩
  | .hbm, ⟨16, _⟩ => ⟨S1x8192, .f32⟩
  | .hbm, ⟨17, _⟩ => ⟨S_, .i32⟩
  | .hbm, ⟨18, _⟩ => ⟨S_, .f32⟩
  | .hbm, ⟨19, _⟩ => ⟨S8192x640, .f32⟩
  | .hbm, ⟨20, _⟩ => ⟨S_, .i32⟩
  | .hbm, ⟨21, _⟩ => ⟨S_, .f32⟩
  | .hbm, ⟨22, _⟩ => ⟨S1x640, .f32⟩
  | .hbm, ⟨23, _⟩ => ⟨S512x128, .f32⟩
  | .hbm, ⟨24, _⟩ => ⟨S_, .i32⟩
  | .hbm, ⟨25, _⟩ => ⟨S_, .f32⟩
  | .hbm, ⟨26, _⟩ => ⟨S512x128, .f32⟩
  | .hbm, ⟨27, _⟩ => ⟨S512x640, .f32⟩
  | .local _ .vmem, ⟨0, _⟩ => ⟨S512x128, .f32⟩
  | .local _ .vmem, ⟨1, _⟩ => ⟨S128x8192, .f32⟩
  | .local _ .vmem, ⟨2, _⟩ => ⟨S1x8192, .f32⟩
  | .local _ .vmem, ⟨3, _⟩ => ⟨S8192x640, .f32⟩
  | .local _ .vmem, ⟨4, _⟩ => ⟨S1x640, .f32⟩
  | .local _ .vmem, ⟨5, _⟩ => ⟨S512x640, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_c : Ref sig .tc := ⟨.hbm, 17, rfl⟩
abbrev main_call0_call0_v0 : Ref sig .tc := ⟨.hbm, 18, rfl⟩
abbrev main_call0_v11 : Ref sig .tc := ⟨.hbm, 19, rfl⟩
abbrev main_call0_c_0 : Ref sig .tc := ⟨.hbm, 20, rfl⟩
abbrev main_call0_call1_v0 : Ref sig .tc := ⟨.hbm, 21, rfl⟩
abbrev main_call0_v12 : Ref sig .tc := ⟨.hbm, 22, rfl⟩
abbrev main_call0_v13 : Ref sig .tc := ⟨.hbm, 23, rfl⟩
abbrev main_call0_c_1 : Ref sig .tc := ⟨.hbm, 24, rfl⟩
abbrev main_call0_call2_v0 : Ref sig .tc := ⟨.hbm, 25, rfl⟩
abbrev main_call0_v14 : Ref sig .tc := ⟨.hbm, 26, rfl⟩
abbrev main_v0 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  transposes_S128x128_S128x128_1_0 : S128x128.Transposes [1, 0] S128x128
  bcast_S128x128_S128x128x1_0_1 : S128x128.BroadcastsInDim S128x128x1 (![0, 1] : Fin 2 → Fin S128x128x1.rank)
  shapeCasts_S1x64_S64 : S1x64.ShapeCasts S64
  bcast_S64_S1x1x64_2 : S64.BroadcastsInDim S1x1x64 (![2] : Fin 1 → Fin S1x1x64.rank)
  bcast_S128x128x1_S128x128x64_0_1_2 : S128x128x1.BroadcastsInDim S128x128x64 (![0, 1, 2] : Fin 3 → Fin S128x128x64.rank)
  bcast_S1x1x64_S128x128x64_0_1_2 : S1x1x64.BroadcastsInDim S128x128x64 (![0, 1, 2] : Fin 3 → Fin S128x128x64.rank)
  shapeCasts_S128x128x64_S128x8192 : S128x128x64.ShapeCasts S128x8192
  shapeCasts_S1x64_S1x1x1x64 : S1x64.ShapeCasts S1x1x1x64
  bcast_S1x1x1x64_S1x1x128x64_0_1_2_3 : S1x1x1x64.BroadcastsInDim S1x1x128x64 (![0, 1, 2, 3] : Fin 4 → Fin S1x1x128x64.rank)
  shapeCasts_S1x1x128x64_S1x8192 : S1x1x128x64.ShapeCasts S1x8192
  pads_S8192x640_S8192x640_000_000 : S8192x640.Pads (![0, 0] : Fin 2 → Nat) ![0, 0] ![0, 0] S8192x640
  h_S_ : 0 < S_.numel
  pads_S1x640_S1x640_000_000 : S1x640.Pads (![0, 0] : Fin 2 → Nat) ![0, 0] ![0, 0] S1x640
  shapeCasts_S512x128x1_S512x128 : S512x128x1.ShapeCasts S512x128
  pads_S512x128_S512x128_000_000 : S512x128.Pads (![0, 0] : Fin 2 → Nat) ![0, 0] ![0, 0] S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S1x8192_S1x8192_0_0 : ∀ a, (![0, 0] : Fin 2 → Nat) a + S1x8192.size a ≤ S1x8192.size a
  h_S1x8192 : 0 < S1x8192.numel
  broadcasts_S1x8192_S512x8192 : S1x8192.Broadcasts S512x8192
  inb_S8192x640_S8192x640_0_0 : ∀ a, (![0, 0] : Fin 2 → Nat) a + S8192x640.size a ≤ S8192x640.size a
  h_S8192x640 : 0 < S8192x640.numel
  shapeCasts_S8192x640_S8192x640 : S8192x640.ShapeCasts S8192x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S512x640 : S1x640.Broadcasts S512x640
  inb_S512x640_S512x640_0_0 : ∀ a, (![0, 0] : Fin 2 → Nat) a + S512x640.size a ≤ S512x640.size a
  h_S512x640 : 0 < S512x640.numel
  dot_S512x128_S128x8192_S512x8192_1_0_0_1_n_n_wf : DotDims.WF S512x128 S128x8192 S512x8192 [1] [0] [0] [1] [] []
  dot_S512x8192_S8192x640_S512x640_1_0_0_1_n_n_wf : DotDims.WF S512x8192 S8192x640 S512x640 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x8192.size a
  hwx0_1 : ∀ i : grid0.Coords, EltTy.bits .f32 = 32 ∨ (Rect.block (s := S128x8192) S128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x640.size a ≤ S8192x640.size a
  hwx0_3 : ∀ i : grid0.Coords, EltTy.bits .f32 = 32 ∨ (Rect.block (s := S8192x640) S8192x640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x640.size a ≤ S1x640.size a
  hwx0_4 : ∀ i : grid0.Coords, EltTy.bits .f32 = 32 ∨ (Rect.block (s := S1x640) S1x640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x640.size a ≤ S512x640.size a
  hwx0_5 : ∀ i : grid0.Coords, EltTy.bits .f32 = 32 ∨ (Rect.block (s := S512x640) S512x640.size (cc0_transform_5 i) (hinb0_5 i)).WholeWords (EltTy.packing .f32)

variable [Facts₀]

def dot_S512x128_S128x8192_S512x8192_1_0_0_1_n_n : DotDims S512x128 S128x8192 S512x8192 where
  lhsContracting := [1]
  rhsContracting := [0]
  lhsNonContracting := [0]
  rhsNonContracting := [1]
  lhsBatch := []
  rhsBatch := []
  wf := dot_S512x128_S128x8192_S512x8192_1_0_0_1_n_n_wf
def dot_S512x8192_S8192x640_S512x640_1_0_0_1_n_n : DotDims S512x8192 S8192x640 S512x640 where
  lhsContracting := [1]
  rhsContracting := [0]
  lhsNonContracting := [0]
  rhsNonContracting := [1]
  lhsBatch := []
  rhsBatch := []
  wf := dot_S512x8192_S8192x640_S512x640_1_0_0_1_n_n_wf

abbrev win0_0 : Pipeline.Window sig grid0 :=
  Pipeline.Window.ofSpec (Memref.whole main_call0_v14) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v7) S128x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v10) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v11) S8192x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v12) S1x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x640.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.KB.Runs.lean ====
/-
  The kernel's frame (the program as printed, at any float instance), first part: what every case of the body's run is stated over.

  The program is eight host operations (a transpose of the adjacency, the first layer's weight and bias rows each
  repeated 128 times into a row of 8192, the node inputs with their trailing unit axis dropped) followed by one
  region on a grid of four points.  At point `k` the region hands the body the whole input matrix, the whole
  transposed adjacency, the output bias row, and for each of two streams the slice `[(2k+t)·1024, (2k+t+1)·1024)`
  of the repeated weight row, of the repeated bias row and of the rows of the second layer's weight; the 512 × 640
  output block and a 512 × 128 scratch stay in place from point to point.  Here: the buffers' contents when the
  region is entered, each window's block at a point, that an input window's buffer holds its block at every point,
  the body's one branch condition (it is taken at the first point only), and the region invariant with the
  scratch named as a buffer.
-/
import proofs.«135998_g2000004315035959_pallasbulk_646_6_alg».proof.Proof.Gen.Kernel.Launch
import proofs.«135998_g2000004315035959_pallasbulk_646_6_alg».proof.Proof.Gen.Kernel.Skeleton
import proofs.«135998_g2000004315035959_pallasbulk_646_6_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The buffers' contents when the region is entered: the launch contents run through the eight host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each of the eight operations writes a buffer of its own, so the six argument arrays reach the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block whenever the body runs — fetched at that point, or left from the point
    before with the block index unmoved — for any proof data that leaves the inputs' buffers as it found them. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinate: "this is the first point". -/
abbrev cond0 (i : grid0.Coords) : Prop := (Scalar.cmpi .ne (Scalar.extui (Scalar.cmpi .eq (BitVec.ofNat 32 (i 0).val) 0#32)) 0#32) = 1#1
/-- It holds at point 0 and at no other of the four. -/
theorem hcond0 : ∀ t : Fin cfg0.N, cond0 (grid0.coords t) ↔ t.val = 0 :=
  (by decide +kernel : ∀ t : Fin grid0.N, cond0 (grid0.coords t) ↔ t.val = 0)

/-- No window is ever idle. -/
theorem liveAt : ∀ (w : Fin cfg0.W) (t : Fin cfg0.N), cfg0.idle w (grid0.coords t) = false := by decide +kernel

/-! ## The staging memrefs at a point, and the scratch -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x640 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x640 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x640 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x640 .f32 := win0_9.stage (cfg0.slots t 9)
abbrev hs9 (t : Fin cfg0.N) : (ms9 t).IsWhole := hstage0_9 ((cfg0.slots t 9).cast nbuf0_9)
/-- The scratch: a whole buffer of the kernel's own, passed beside the windows. -/
abbrev scM : Memref sig .tc .vmem S512x128 .f32 := Memref.whole cc0_scratch0
abbrev VS : View sig .tc .vmem S512x128 .f32 := scM.view
abbrev VO : View sig .tc .vmem S512x640 .f32 := (Memref.whole cc0_stg9_0 : Memref sig .tc .vmem S512x640 .f32).view

/-- The class invariant with the scratch named: the scratch at some contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Fr

end
-- ==== Proof.KB.RunA.lean ====
/-
  The body's run at the FIRST grid point: the branch is taken, so the body first stores the product of the input
  matrix with the transposed adjacency into the scratch and the bias row, repeated over the 512 rows, into the
  output block, and then adds the two streams' contributions to that block.  The run is symbolic: on whole buffers
  — the nine inputs at given contents, the output block and the scratch at anything — the body runs to its end
  leaving the inputs as they were and the output block and the scratch with the pieces its stores wrote.  The
  pieces are found by the run itself; what they amount to is read off them in the next module.
-/
import proofs.«135998_g2000004315035959_pallasbulk_646_6_alg».proof.Proof.KB.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first point's run: the pieces written into the output block (last first) and into the scratch, with the proof
    that the body runs to the continuation holding them. -/
noncomputable def kernelRun_A (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : cond0 i)
    (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) :
    Σ' (L9 : List (View.Piece (Elt F) S512x640 .f32)), { LS : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS)) -∗ K ⟨⟩))
          ⊢ wp frame (wpE (defs₀ (F := F)) Variants.none c none) E (cc0_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_body_eq_skeleton]; unfold cc0_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; iexact HS

end Cert.Kernel.Fr

end
-- ==== Proof.KB.RunB.lean ====
/-
  The body's run at a LATER grid point (the second, third or fourth): the branch is not taken, so the body only
  reads the scratch — which holds what the first point stored there — and adds the two streams' contributions to
  the output block, which holds what the point before left.  Symbolic as the first point's run: the nine inputs,
  the scratch and the output block at given contents; the inputs and the scratch come back as they were and the
  output block with the one piece the body's last store wrote.
-/
import proofs.«135998_g2000004315035959_pallasbulk_646_6_alg».proof.Proof.KB.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A later point's run: the piece written into the output block, with the proof that the body runs to the
    continuation holding it, the scratch unchanged. -/
noncomputable def kernelRun_B (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : ¬cond0 i)
    (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) (xo : Vec F S512x640 .f32) (xs : Vec F S512x128 .f32) :
    { L9 : List (View.Piece (Elt F) S512x640 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xs) -∗ K ⟨⟩))
          ⊢ wp frame (wpE (defs₀ (F := F)) Variants.none c none) E (cc0_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_body_eq_skeleton]; unfold cc0_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg10.eq_unread hf9; obtain rfl := harg11.eq_unread hfs
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; isplitr; · ipureintro; exact harg11.read_unread _
    iexact HS

end Cert.Kernel.Fr

end
-- ==== Proof.KB.Data.lean ====
/-
  The kernel's frame (the program as printed, at any float instance), third part: what the buffers hold after each grid point.

  From the two runs: what the first point leaves in the output block and in the scratch, and what a later point
  leaves in the output block given what it found there and in the scratch — each the run's pieces read back, the
  pieces covering the buffer.  Then the accumulation over the four points: after point 0 the first run's contents;
  after point n + 1 the later run's contents over what point n left, the scratch unchanged.  The region invariant
  follows the scratch: anything before the first point, the first point's product ever after.  The proof data
  names each input window's buffer at its block and the output window's at the accumulation.  Three arrays — the
  repeated weight row, the repeated bias row and the second layer's weight — are each read through two windows
  (one per stream), so each of those windows holds its array at one half of the full share.
-/
import proofs.«135998_g2000004315035959_pallasbulk_646_6_alg».proof.Proof.KB.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves -/

theorem coverA9 (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : cond0 i) (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) (y : S512x640.Idx) :
    ∃ pc ∈ (kernelRun_A c i arg1 harg1 arg2 harg2 arg3 harg3 arg4 harg4 arg5 harg5 arg6 harg6 arg7 harg7 arg8 harg8 arg9 harg9 arg10 harg10 arg11 harg11 hc0 x0 x1 x2 x3 x4 x5 x6 x7 x8).1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 hc0 x0 x1 x2 x3 x4 x5 x6 x7 x8).1 S512x640.size (by sl_kernel_rfl) y

/-- What the first point leaves in the output block: its pieces read back. -/
def outA (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : cond0 i) (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) : Vec F S512x640 .f32 :=
  VO.read (Elt F) (VO.writes (Elt F) VO.junk (kernelRun_A c i arg1 harg1 arg2 harg2 arg3 harg3 arg4 harg4 arg5 harg5 arg6 harg6 arg7 harg7 arg8 harg8 arg9 harg9 arg10 harg10 arg11 harg11 hc0 x0 x1 x2 x3 x4 x5 x6 x7 x8).1)

theorem coverAS (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : cond0 i) (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) (y : S512x128.Idx) :
    ∃ pc ∈ (kernelRun_A c i arg1 harg1 arg2 harg2 arg3 harg3 arg4 harg4 arg5 harg5 arg6 harg6 arg7 harg7 arg8 harg8 arg9 harg9 arg10 harg10 arg11 harg11 hc0 x0 x1 x2 x3 x4 x5 x6 x7 x8).2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 hc0 x0 x1 x2 x3 x4 x5 x6 x7 x8).2.1 S512x128.size (by sl_kernel_rfl) y

/-- What the first point leaves in the scratch: its piece read back. -/
def scrA (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : cond0 i) (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) : Vec F S512x128 .f32 :=
  VS.read (Elt F) (VS.writes (Elt F) VS.junk (kernelRun_A c i arg1 harg1 arg2 harg2 arg3 harg3 arg4 harg4 arg5 harg5 arg6 harg6 arg7 harg7 arg8 harg8 arg9 harg9 arg10 harg10 arg11 harg11 hc0 x0 x1 x2 x3 x4 x5 x6 x7 x8).2.1)

theorem coverB9 (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : ¬cond0 i) (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) (xo : Vec F S512x640 .f32) (xs : Vec F S512x128 .f32) (y : S512x640.Idx) :
    ∃ pc ∈ (kernelRun_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo xs).1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo xs).1 S512x640.size (by sl_kernel_rfl) y

/-- What a later point leaves in the output block, over what it found there (`xo`) and in the scratch (`xs`). -/
def outB (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : ¬cond0 i) (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) (xo : Vec F S512x640 .f32) (xs : Vec F S512x128 .f32) : Vec F S512x640 .f32 :=
  VO.read (Elt F) (VO.writes (Elt F) VO.junk (kernelRun_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo xs).1)

/-! ## The accumulation over the grid -/

/-- The output block and the scratch after the body at position `n`. -/
def outsAt (c : Dev nD) : (n : ℕ) → n < cfg0.N → Vec F S512x640 .f32 × Vec F S512x128 .f32
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) scM (Memref.isWhole_whole _) ((hcond0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
              scrA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) scM (Memref.isWhole_whole _) ((hcond0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn => (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scM (Memref.isWhole_whole _) (fun h => Nat.succ_ne_zero n ((hcond0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
                    (outsAt c n (Nat.lt_of_succ_lt hn)).1 (outsAt c n (Nat.lt_of_succ_lt hn)).2,
                  (outsAt c n (Nat.lt_of_succ_lt hn)).2)

theorem outsAt_first (c : Dev nD) (t : Fin cfg0.N) (h0 : t.val = 0) :
    outsAt m c t.val t.isLt = (outA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr h0) (iblk m c 0 t) (iblk m c 1 t) (iblk m c 2 t) (iblk m c 3 t) (iblk m c 4 t) (iblk m c 5 t) (iblk m c 6 t) (iblk m c 7 t) (iblk m c 8 t),
      scrA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => rfl
  | succ n => exact absurd h0 (Nat.succ_ne_zero n)

theorem outsAt_later (c : Dev nD) (t : Fin cfg0.N) (h0 : ¬t.val = 0) :
    outsAt m c t.val t.isLt = (outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun h => h0 ((hcond0 t).mp h)) (iblk m c 0 t) (iblk m c 1 t) (iblk m c 2 t) (iblk m c 3 t) (iblk m c 4 t) (iblk m c 5 t) (iblk m c 6 t) (iblk m c 7 t) (iblk m c 8 t)
        (outsAt m c (t.val - 1) (Nat.lt_of_le_of_lt (Nat.sub_le _ _) t.isLt)).1 (outsAt m c (t.val - 1) (Nat.lt_of_le_of_lt (Nat.sub_le _ _) t.isLt)).2,
      (outsAt m c (t.val - 1) (Nat.lt_of_le_of_lt (Nat.sub_le _ _) t.isLt)).2) := by
  obtain ⟨n, hn⟩ := t
  cases n with
  | zero => exact absurd rfl h0
  | succ n => rfl

/-! ## The region invariant -/

/-- Before position `n`: the scratch at anything before the first point; afterwards at what the point before left in
    it.  (The body draws no random bits, so the invariant does not mention the generator register.) -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_zero (c : Dev nD) (n : ℕ) (h : n ≤ cfg0.N) (hz : n = 0) : PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The proof data -/

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
  Φ t := PhiS m c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.left
    | ⟨5, _⟩ => fullShare.left
    | ⟨6, _⟩ => fullShare.right
    | ⟨7, _⟩ => fullShare.right
    | ⟨8, _⟩ => fullShare.right
    | ⟨9, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = (outsAt m c t.val t.isLt).1 := by dsimp only [dats]

theorem before0 (c : Dev nD) (t : Fin cfg0.N) (d) : (dats m 0 c).before 0 t d = iblk m c 0 t :=
  before_in_0 m (dats m 0 c) (A_eq m c 0) (after0 m c) t d
theorem before1 (c : Dev nD) (t : Fin cfg0.N) (d) : (dats m 0 c).before 1 t d = iblk m c 1 t :=
  before_in_1 m (dats m 0 c) (A_eq m c 1) (after1 m c) t d
theorem before2 (c : Dev nD) (t : Fin cfg0.N) (d) : (dats m 0 c).before 2 t d = iblk m c 2 t :=
  before_in_2 m (dats m 0 c) (A_eq m c 2) (after2 m c) t d
theorem before3 (c : Dev nD) (t : Fin cfg0.N) (d) : (dats m 0 c).before 3 t d = iblk m c 3 t :=
  before_in_3 m (dats m 0 c) (A_eq m c 3) (after3 m c) t d
theorem before4 (c : Dev nD) (t : Fin cfg0.N) (d) : (dats m 0 c).before 4 t d = iblk m c 4 t :=
  before_in_4 m (dats m 0 c) (A_eq m c 4) (after4 m c) t d
theorem before5 (c : Dev nD) (t : Fin cfg0.N) (d) : (dats m 0 c).before 5 t d = iblk m c 5 t :=
  before_in_5 m (dats m 0 c) (A_eq m c 5) (after5 m c) t d
theorem before6 (c : Dev nD) (t : Fin cfg0.N) (d) : (dats m 0 c).before 6 t d = iblk m c 6 t :=
  before_in_6 m (dats m 0 c) (A_eq m c 6) (after6 m c) t d
theorem before7 (c : Dev nD) (t : Fin cfg0.N) (d) : (dats m 0 c).before 7 t d = iblk m c 7 t :=
  before_in_7 m (dats m 0 c) (A_eq m c 7) (after7 m c) t d
theorem before8 (c : Dev nD) (t : Fin cfg0.N) (d) : (dats m 0 c).before 8 t d = iblk m c 8 t :=
  before_in_8 m (dats m 0 c) (A_eq m c 8) (after8 m c) t d

/-- The output block is written back after the last point only. -/
theorem noFlush9 (t : Fin cfg0.N) (ht : t.val ≠ 0) :
    (cfg0.win 9).flush ⟨t.val - 1, Nat.lt_of_le_of_lt (Nat.sub_le _ _) t.isLt⟩ = false := by
  have hN : t.val < 4 := lt_of_lt_of_eq t.isLt N_0
  cases h : (cfg0.win 9).flush ⟨t.val - 1, Nat.lt_of_le_of_lt (Nat.sub_le _ _) t.isLt⟩ with
  | false => rfl
  | true => exact absurd ((flush0_9 _).mp h) (by dsimp only; omega)

/-- At the first point the output block's buffer holds anything. -/
theorem before9_first (c : Dev nD) (t : Fin cfg0.N) (hz : t.val = 0) (d) : (dats m 0 c).before 9 t d = d :=
  (dats m 0 c).before_out_reset 9 rfl t (.inl hz) d

/-- At a later point it holds what the point before left. -/
theorem before9_later (c : Dev nD) (t : Fin cfg0.N) (hz : t.val ≠ 0) (d) :
    (dats m 0 c).before 9 t d = (outsAt m c (t.val - 1) (Nat.lt_of_le_of_lt (Nat.sub_le _ _) t.isLt)).1 :=
  ((dats m 0 c).before_out_kept 9 rfl t hz (noFlush9 t hz) (fun _ => rfl) (fun _ _ => rfl) d).trans (after9 m c _)

end Cert.Kernel.Fr

end
-- ==== Proof.KB.Body.lean ====
/-
  The kernel's frame (the program as printed, at any float instance), fourth part: the body obligation.  At every grid point, from the region invariant
  and every window's buffer at what it then holds — an input's at its block, the output block's at anything at the
  first point and at what the point before left afterwards — the body runs to the invariant of the next point and
  every buffer at what the proof data names: the first point by the first run, the others by the later run.
-/
import proofs.«135998_g2000004315035959_pallasbulk_646_6_alg».proof.Proof.KB.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl]
  rw [show (dats m 0 c).Φ t.succ = PhiS m c (t.val + 1) t.isLt from rfl, PhiS_succ]
  rw [after0, after1, after2, after3, after4, after5, after6, after7, after8, after9]
  by_cases hz : t.val = 0
  · rw [outsAt_first m c t hz]
    unfold outA scrA; (try dsimp only)
    rw [PhiS_castSucc m c t, PhiS_zero m c _ _ hz]
    simp only [before9_first m c t hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr hz) (iblk m c 0 t) (iblk m c 1 t) (iblk m c 2 t) (iblk m c 3 t) (iblk m c 4 t) (iblk m c 5 t) (iblk m c 6 t) (iblk m c 7 t) (iblk m c 8 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, ⟨%e9, H9⟩, ⟨%es, HS⟩⟩
    isplitl [HS]
    · unfold owns; iexists _; isplitr
      swap; · iexact HS
      ipureintro; exact View.read_writes_of_cover _ _ _ _ _ (coverAS c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr hz) (iblk m c 0 t) (iblk m c 1 t) (iblk m c 2 t) (iblk m c 3 t) (iblk m c 4 t) (iblk m c 5 t) (iblk m c 6 t) (iblk m c 7 t) (iblk m c 8 t))
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverA9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr hz) (iblk m c 0 t) (iblk m c 1 t) (iblk m c 2 t) (iblk m c 3 t) (iblk m c 4 t) (iblk m c 5 t) (iblk m c 6 t) (iblk m c 7 t) (iblk m c 8 t))
  · rw [outsAt_later m c t hz]
    unfold outB; (try dsimp only)
    rw [PhiS_castSucc m c t, PhiS_pos m c _ _ hz]
    simp only [before9_later m c t hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun h => hz ((hcond0 t).mp h)) (iblk m c 0 t) (iblk m c 1 t) (iblk m c 2 t) (iblk m c 3 t) (iblk m c 4 t) (iblk m c 5 t) (iblk m c 6 t) (iblk m c 7 t) (iblk m c 8 t)
      (outsAt m c (t.val - 1) (Nat.lt_of_le_of_lt (Nat.sub_le _ _) t.isLt)).1 (outsAt m c (t.val - 1) (Nat.lt_of_le_of_lt (Nat.sub_le _ _) t.isLt)).2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, ⟨%e9, H9⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverB9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun h => hz ((hcond0 t).mp h)) (iblk m c 0 t) (iblk m c 1 t) (iblk m c 2 t) (iblk m c 3 t) (iblk m c 4 t) (iblk m c 5 t) (iblk m c 6 t) (iblk m c 7 t) (iblk m c 8 t) _ _)

/-- The body obligation, at every point. -/
theorem body_obligation (c : Dev nD) : BodyObligation (dats (F := F) m 0 c) (defs₀ (F := F)) Variants.none () Set.univ := fun t => by
  rw [bigSep_W0, bigSep_W0]
  exact sound_body m c t

/-- The scratch is the one scoped buffer that is no staging buffer. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scoped_eq]
  try exact Idealize.SL.BI.Entails.refl _

/-- After the last point the invariant gives the scratch back at some contents. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  have hne : (Fin.last cfg0.N).val ≠ 0 := by rw [Fin.val_last]; have : cfg0.N = 4 := N_0; omega
  rw [show (dats m 0 c).Φ (Fin.last cfg0.N) = PhiS m c (Fin.last cfg0.N).val (Nat.le_of_lt_succ (Fin.last cfg0.N).isLt) from rfl,
    PhiS_pos m c _ _ hne, scoped_eq]
  iintro HS
  iexists _; iexact HS

end Cert.Kernel.Fr

end
-- ==== Proof.KB.Launch.lean ====
/-
  The kernel's frame (the program as printed, at any float instance), last part: the launch, and what the run leaves.

  Three arrays are each handed to the region through two windows.  At the launch each of them, held whole, is split
  into two halves, one per window; every other array is handed over whole.  With that, the body obligation and the
  host operations before the region, the library's launch theorem for windows that share arrays gives the run:
  every weakly fair execution terminates, every array of the region ends at what the library computes from the
  proof data, and every other unscoped buffer ends as the region found it.  Read at the argument arrays this is
  the frame; read at the result array — one block, the whole array, written back after the last point — it is the
  accumulation's last value.
-/
import proofs.«135998_g2000004315035959_pallasbulk_646_6_alg».proof.Proof.KB.Body
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (BodyObligationLoose)

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The region's arrays, each a whole buffer, at the shares the proof data names. -/
theorem arrays_shares (c : Dev nD) (G : (w : Fin cfg0.W) → Buf (Elt F) ((cfg0.win w).arr.view.loc (c.tc : Thread nD τ))) :
    (dats m 0 c).arrays G = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

/-- The seven buffers behind the ten windows' arrays, each whole, make the proof data's arrays: the repeated weight
    row, the repeated bias row and the second layer's weight are each split into a left and a right half, for the
    first and the second stream's window. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrays_shares]
  unfold Pipeline.arrBufs
  rw [bigSep_W0, bigSep_eq_bigSepL_of_eq [main_call0_v7, main_call0_v0, main_arg5, main_call0_v3, main_call0_v6, main_arg4, main_v0] (by decide) (by decide)]
  simp only [bigSepL_cons_cons, bigSepL_singleton]
  show (iprop((((c.tc : Thread nD τ).loc main_call0_v7) ↦{fullShare} V m c main_call0_v7) ∗ (((c.tc : Thread nD τ).loc main_call0_v0) ↦{fullShare} V m c main_call0_v0) ∗ (((c.tc : Thread nD τ).loc main_arg5) ↦{fullShare} V m c main_arg5) ∗ (((c.tc : Thread nD τ).loc main_call0_v3) ↦{fullShare} V m c main_call0_v3) ∗ (((c.tc : Thread nD τ).loc main_call0_v6) ↦{fullShare} V m c main_call0_v6) ∗ (((c.tc : Thread nD τ).loc main_arg4) ↦{fullShare} V m c main_arg4) ∗ (((c.tc : Thread nD τ).loc main_v0) ↦{fullShare} V m c main_v0)) : sProp 𝕄) ⊢ iprop((((c.tc : Thread nD τ).loc main_call0_v7) ↦{fullShare} V m c main_call0_v7) ∗ (((c.tc : Thread nD τ).loc main_call0_v0) ↦{fullShare} V m c main_call0_v0) ∗ (((c.tc : Thread nD τ).loc main_arg5) ↦{fullShare} V m c main_arg5) ∗ (((c.tc : Thread nD τ).loc main_call0_v3) ↦{fullShare.left} V m c main_call0_v3) ∗ (((c.tc : Thread nD τ).loc main_call0_v6) ↦{fullShare.left} V m c main_call0_v6) ∗ (((c.tc : Thread nD τ).loc main_arg4) ↦{fullShare.left} V m c main_arg4) ∗ (((c.tc : Thread nD τ).loc main_call0_v3) ↦{fullShare.right} V m c main_call0_v3) ∗ (((c.tc : Thread nD τ).loc main_call0_v6) ↦{fullShare.right} V m c main_call0_v6) ∗ (((c.tc : Thread nD τ).loc main_arg4) ↦{fullShare.right} V m c main_arg4) ∗ (((c.tc : Thread nD τ).loc main_v0) ↦{fullShare} V m c main_v0))
  iintro ⟨H7, H0, H5, H3, H6, H4, Hv⟩
  ihave S3 := (pointsTo_share (PosShare.mem_left_op_right fullShare)).1 $$ H3
  icases S3 with ⟨H3l, H3r⟩
  ihave S6 := (pointsTo_share (PosShare.mem_left_op_right fullShare)).1 $$ H6
  icases S6 with ⟨H6l, H6r⟩
  ihave S4 := (pointsTo_share (PosShare.mem_left_op_right fullShare)).1 $$ H4
  icases S4 with ⟨H4l, H4r⟩
  isplitl [H7]; · iexact H7
  isplitl [H0]; · iexact H0
  isplitl [H5]; · iexact H5
  isplitl [H3l]; · iexact H3l
  isplitl [H6l]; · iexact H6l
  isplitl [H4l]; · iexact H4l
  isplitl [H3r]; · iexact H3r
  isplitl [H6r]; · iexact H6r
  isplitl [H4r]; · iexact H4r
  iexact Hv

set_option backward.isDefEq.respectTransparency.types false in
/-- The run: every array of the region at what the library computes from the proof data, every other unscoped buffer
    as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by iintro ⟨-, H⟩; iapply (hin m c); iexact H)
    (hout := fun c => by iintro H; isplitr; · iempintro
                         iapply (hout m c); iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- THE FRAME: the program runs and its six argument arrays end unchanged — four of them bypass the region, the
    second layer's weight and the output bias are inputs of it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).1 2).trans (((dats m 0 c).arrAt_in 2 rfl _).trans ((A_eq m c 2).trans (V_main_arg5 m c)))⟩) (run_main m ρ)

/-! ## The result array -/

/-- The output window's block index is (0, 0) at every point: the block is the whole array. -/
theorem idx9 : ∀ t : Fin cfg0.N, win0_9.index t (0 : Fin 2) = 0 ∧ win0_9.index t (1 : Fin 2) = 0 :=
  (by decide +kernel : ∀ t : Fin grid0.N, _)

theorem flush_iff (t : Fin cfg0.N) : (cfg0.win 9).flush t = true ↔ t.val = 3 := by
  have hN : t.val < 4 := lt_of_lt_of_eq t.isLt N_0
  rw [flush0_9 t]; omega

/-- What the last point leaves in the output block. -/
def outFinal (c : Dev nD) : Vec F S512x640 .f32 := (outsAt m c t0_3.val t0_3.isLt).1

theorem flushed9_eq (c : Dev nD) (t : Fin cfg0.N) (hf : (cfg0.win 9).flush t = true) :
    (dats m 0 c).flushed 9 t = ((cfg0.win 9).blk t).view.read (Elt F) (outFinal m c) := by
  have h3 : t = t0_3 := Fin.ext ((flush_iff t).mp hf)
  subst h3
  show (cfg0.win 9).cut (grid0.coords t0_3) ((dats m 0 c).after 9 t0_3) = _
  rw [after9]
  funext j
  show (outsAt m c t0_3.val t0_3.isLt).1 j = outFinal m c (((cfg0.win 9).blk t0_3).view.emb j)
  have he : ((cfg0.win 9).blk t0_3).view.emb j = j := by
    funext a; apply Fin.ext
    match a with
    | ⟨0, _⟩ => show win0_9.index t0_3 (0 : Fin 2) * 512 + 1 * (j 0).val = (j 0).val; rw [(idx9 t0_3).1]; omega
    | ⟨1, _⟩ => show win0_9.index t0_3 (1 : Fin 2) * 640 + 1 * (j 1).val = (j 1).val; rw [(idx9 t0_3).2]; omega
  rw [he]; rfl

theorem mem_blk9 (t : Fin cfg0.N) (i : S512x640.Idx) :
    i ∈ ((cfg0.win 9).blk t).view.set ↔ ∀ a : Fin 2, win0_9.index t a * S512x640.size a ≤ (i a).val ∧ (i a).val < win0_9.index t a * S512x640.size a + S512x640.size a := by
  show i ∈ ((View.whole main_v0).slice (win0_9.rect t)).set ↔ _
  rw [View.set_slice_whole, Rect.mem_set_unit]
  exact Iff.rfl

theorem cover9 (i : S512x640.Idx) : ∃ t : Fin cfg0.N, (cfg0.win 9).flush t = true ∧ i ∈ ((cfg0.win 9).blk t).view.set := by
  refine ⟨t0_3, (flush_iff t0_3).mpr rfl, (mem_blk9 t0_3 i).mpr fun a => ?_⟩
  match a with
  | ⟨0, _⟩ => show win0_9.index t0_3 (0 : Fin 2) * 512 ≤ (i 0).val ∧ (i 0).val < win0_9.index t0_3 (0 : Fin 2) * 512 + 512; rw [(idx9 t0_3).1]; have hi : (i 0).val < 512 := (i 0).isLt; omega
  | ⟨1, _⟩ => show win0_9.index t0_3 (1 : Fin 2) * 640 ≤ (i 1).val ∧ (i 1).val < win0_9.index t0_3 (1 : Fin 2) * 640 + 640; rw [(idx9 t0_3).2]; have hi : (i 1).val < 640 := (i 1).isLt; omega

/-- The result array after the run is what the last point left in the output block. -/
theorem final9 (c : Dev nD) : (dats m 0 c).arrAt 9 cfg0.N = outFinal m c :=
  (dats m 0 c).arrAt_eq_of_cover 9 (outFinal m c) (fun t hf => flushed9_eq m c t hf) cover9

/-- The run, read: the result array at the accumulation's last value, the argument arrays unchanged. -/
theorem run : θ_run defs (onTc (τ := τ) (main (F := F))) ⟨m, fun _ => 0, ρ⟩ (fun r => ∀ c : Dev nD,
      r.2.mem ((c.tc : Thread nD τ).loc main_v0) = outFinal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 9).trans (final9 m c), ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).1 2).trans (((dats m 0 c).arrAt_in 2 rfl _).trans ((A_eq m c 2).trans (V_main_arg5 m c)))⟩) (run_main m ρ)

end Cert.Kernel.Fr

end
-- ==== Proof.KI.Runs.lean ====
/-
  The idealized kernel's frame, first part: what every case of the body's run is stated over.

  The program is eight host operations (a transpose of the adjacency, the first layer's weight and bias rows each
  repeated 128 times into a row of 8192, the node inputs with their trailing unit axis dropped) followed by one
  region on a grid of four points.  At point `k` the region hands the body the whole input matrix, the whole
  transposed adjacency, the output bias row, and for each of two streams the slice `[(2k+t)·1024, (2k+t+1)·1024)`
  of the repeated weight row, of the repeated bias row and of the rows of the second layer's weight; the 512 × 640
  output block and a 512 × 128 scratch stay in place from point to point.  Here: the buffers' contents when the
  region is entered, each window's block at a point, that an input window's buffer holds its block at every point,
  the body's one branch condition (it is taken at the first point only), and the region invariant with the
  scratch named as a buffer.
-/
import proofs.«135998_g2000004315035959_pallasbulk_646_6_alg».proof.Proof.Gen.KernelIdeal.Launch
import proofs.«135998_g2000004315035959_pallasbulk_646_6_alg».proof.Proof.Gen.KernelIdeal.Skeleton
import proofs.«135998_g2000004315035959_pallasbulk_646_6_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The buffers' contents when the region is entered: the launch contents run through the eight host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each of the eight operations writes a buffer of its own, so the six argument arrays reach the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block whenever the body runs — fetched at that point, or left from the point
    before with the block index unmoved — for any proof data that leaves the inputs' buffers as it found them. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinate: "this is the first point". -/
abbrev cond0 (i : grid0.Coords) : Prop := (Scalar.cmpi .ne (Scalar.extui (Scalar.cmpi .eq (BitVec.ofNat 32 (i 0).val) 0#32)) 0#32) = 1#1
/-- It holds at point 0 and at no other of the four. -/
theorem hcond0 : ∀ t : Fin cfg0.N, cond0 (grid0.coords t) ↔ t.val = 0 :=
  (by decide +kernel : ∀ t : Fin grid0.N, cond0 (grid0.coords t) ↔ t.val = 0)

/-- No window is ever idle. -/
theorem liveAt : ∀ (w : Fin cfg0.W) (t : Fin cfg0.N), cfg0.idle w (grid0.coords t) = false := by decide +kernel

/-! ## The staging memrefs at a point, and the scratch -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x640 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x640 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x640 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x640 .f32 := win0_9.stage (cfg0.slots t 9)
abbrev hs9 (t : Fin cfg0.N) : (ms9 t).IsWhole := hstage0_9 ((cfg0.slots t 9).cast nbuf0_9)
/-- The scratch: a whole buffer of the kernel's own, passed beside the windows. -/
abbrev scM : Memref sig .tc .vmem S512x128 .f32 := Memref.whole cc0_scratch0
abbrev VS : View sig .tc .vmem S512x128 .f32 := scM.view
abbrev VO : View sig .tc .vmem S512x640 .f32 := (Memref.whole cc0_stg9_0 : Memref sig .tc .vmem S512x640 .f32).view

/-- The class invariant with the scratch named: the scratch at some contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Fr

end
-- ==== Proof.KI.RunA.lean ====
/-
  The body's run at the FIRST grid point: the branch is taken, so the body first stores the product of the input
  matrix with the transposed adjacency into the scratch and the bias row, repeated over the 512 rows, into the
  output block, and then adds the two streams' contributions to that block.  The run is symbolic: on whole buffers
  — the nine inputs at given contents, the output block and the scratch at anything — the body runs to its end
  leaving the inputs as they were and the output block and the scratch with the pieces its stores wrote.  The
  pieces are found by the run itself; what they amount to is read off them in the next module.
-/
import proofs.«135998_g2000004315035959_pallasbulk_646_6_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first point's run: the pieces written into the output block (last first) and into the scratch, with the proof
    that the body runs to the continuation holding them. -/
noncomputable def kernelRun_A (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : cond0 i)
    (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) :
    Σ' (L9 : List (View.Piece (Elt F) S512x640 .f32)), { LS : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS)) -∗ K ⟨⟩))
          ⊢ wp frame (wpE (defs₀ (F := F)) Variants.none c none) E (cc0_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_body_eq_skeleton]; unfold cc0_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; iexact HS

end Cert.KernelIdeal.Fr

end
-- ==== Proof.KI.RunB.lean ====
/-
  The body's run at a LATER grid point (the second, third or fourth): the branch is not taken, so the body only
  reads the scratch — which holds what the first point stored there — and adds the two streams' contributions to
  the output block, which holds what the point before left.  Symbolic as the first point's run: the nine inputs,
  the scratch and the output block at given contents; the inputs and the scratch come back as they were and the
  output block with the one piece the body's last store wrote.
-/
import proofs.«135998_g2000004315035959_pallasbulk_646_6_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A later point's run: the piece written into the output block, with the proof that the body runs to the
    continuation holding it, the scratch unchanged. -/
noncomputable def kernelRun_B (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : ¬cond0 i)
    (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) (xo : Vec F S512x640 .f32) (xs : Vec F S512x128 .f32) :
    { L9 : List (View.Piece (Elt F) S512x640 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xs) -∗ K ⟨⟩))
          ⊢ wp frame (wpE (defs₀ (F := F)) Variants.none c none) E (cc0_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_body_eq_skeleton]; unfold cc0_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg10.eq_unread hf9; obtain rfl := harg11.eq_unread hfs
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; isplitr; · ipureintro; exact harg11.read_unread _
    iexact HS

end Cert.KernelIdeal.Fr

end
-- ==== Proof.KI.Data.lean ====
/-
  The idealized kernel's frame, third part: what the buffers hold after each grid point.

  From the two runs: what the first point leaves in the output block and in the scratch, and what a later point
  leaves in the output block given what it found there and in the scratch — each the run's pieces read back, the
  pieces covering the buffer.  Then the accumulation over the four points: after point 0 the first run's contents;
  after point n + 1 the later run's contents over what point n left, the scratch unchanged.  The region invariant
  follows the scratch: anything before the first point, the first point's product ever after.  The proof data
  names each input window's buffer at its block and the output window's at the accumulation.  Three arrays — the
  repeated weight row, the repeated bias row and the second layer's weight — are each read through two windows
  (one per stream), so each of those windows holds its array at one half of the full share.
-/
import proofs.«135998_g2000004315035959_pallasbulk_646_6_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves -/

theorem coverA9 (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : cond0 i) (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) (y : S512x640.Idx) :
    ∃ pc ∈ (kernelRun_A c i arg1 harg1 arg2 harg2 arg3 harg3 arg4 harg4 arg5 harg5 arg6 harg6 arg7 harg7 arg8 harg8 arg9 harg9 arg10 harg10 arg11 harg11 hc0 x0 x1 x2 x3 x4 x5 x6 x7 x8).1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 hc0 x0 x1 x2 x3 x4 x5 x6 x7 x8).1 S512x640.size (by sl_kernel_rfl) y

/-- What the first point leaves in the output block: its pieces read back. -/
def outA (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : cond0 i) (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) : Vec F S512x640 .f32 :=
  VO.read (Elt F) (VO.writes (Elt F) VO.junk (kernelRun_A c i arg1 harg1 arg2 harg2 arg3 harg3 arg4 harg4 arg5 harg5 arg6 harg6 arg7 harg7 arg8 harg8 arg9 harg9 arg10 harg10 arg11 harg11 hc0 x0 x1 x2 x3 x4 x5 x6 x7 x8).1)

theorem coverAS (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : cond0 i) (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) (y : S512x128.Idx) :
    ∃ pc ∈ (kernelRun_A c i arg1 harg1 arg2 harg2 arg3 harg3 arg4 harg4 arg5 harg5 arg6 harg6 arg7 harg7 arg8 harg8 arg9 harg9 arg10 harg10 arg11 harg11 hc0 x0 x1 x2 x3 x4 x5 x6 x7 x8).2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 hc0 x0 x1 x2 x3 x4 x5 x6 x7 x8).2.1 S512x128.size (by sl_kernel_rfl) y

/-- What the first point leaves in the scratch: its piece read back. -/
def scrA (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : cond0 i) (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) : Vec F S512x128 .f32 :=
  VS.read (Elt F) (VS.writes (Elt F) VS.junk (kernelRun_A c i arg1 harg1 arg2 harg2 arg3 harg3 arg4 harg4 arg5 harg5 arg6 harg6 arg7 harg7 arg8 harg8 arg9 harg9 arg10 harg10 arg11 harg11 hc0 x0 x1 x2 x3 x4 x5 x6 x7 x8).2.1)

theorem coverB9 (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : ¬cond0 i) (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) (xo : Vec F S512x640 .f32) (xs : Vec F S512x128 .f32) (y : S512x640.Idx) :
    ∃ pc ∈ (kernelRun_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo xs).1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo xs).1 S512x640.size (by sl_kernel_rfl) y

/-- What a later point leaves in the output block, over what it found there (`xo`) and in the scratch (`xs`). -/
def outB (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : ¬cond0 i) (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) (xo : Vec F S512x640 .f32) (xs : Vec F S512x128 .f32) : Vec F S512x640 .f32 :=
  VO.read (Elt F) (VO.writes (Elt F) VO.junk (kernelRun_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo xs).1)

/-! ## The accumulation over the grid -/

/-- The output block and the scratch after the body at position `n`. -/
def outsAt (c : Dev nD) : (n : ℕ) → n < cfg0.N → Vec F S512x640 .f32 × Vec F S512x128 .f32
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) scM (Memref.isWhole_whole _) ((hcond0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩),
              scrA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) scM (Memref.isWhole_whole _) ((hcond0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn => (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scM (Memref.isWhole_whole _) (fun h => Nat.succ_ne_zero n ((hcond0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
                    (outsAt c n (Nat.lt_of_succ_lt hn)).1 (outsAt c n (Nat.lt_of_succ_lt hn)).2,
                  (outsAt c n (Nat.lt_of_succ_lt hn)).2)

theorem outsAt_first (c : Dev nD) (t : Fin cfg0.N) (h0 : t.val = 0) :
    outsAt m c t.val t.isLt = (outA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr h0) (iblk m c 0 t) (iblk m c 1 t) (iblk m c 2 t) (iblk m c 3 t) (iblk m c 4 t) (iblk m c 5 t) (iblk m c 6 t) (iblk m c 7 t) (iblk m c 8 t),
      scrA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => rfl
  | succ n => exact absurd h0 (Nat.succ_ne_zero n)

theorem outsAt_later (c : Dev nD) (t : Fin cfg0.N) (h0 : ¬t.val = 0) :
    outsAt m c t.val t.isLt = (outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun h => h0 ((hcond0 t).mp h)) (iblk m c 0 t) (iblk m c 1 t) (iblk m c 2 t) (iblk m c 3 t) (iblk m c 4 t) (iblk m c 5 t) (iblk m c 6 t) (iblk m c 7 t) (iblk m c 8 t)
        (outsAt m c (t.val - 1) (Nat.lt_of_le_of_lt (Nat.sub_le _ _) t.isLt)).1 (outsAt m c (t.val - 1) (Nat.lt_of_le_of_lt (Nat.sub_le _ _) t.isLt)).2,
      (outsAt m c (t.val - 1) (Nat.lt_of_le_of_lt (Nat.sub_le _ _) t.isLt)).2) := by
  obtain ⟨n, hn⟩ := t
  cases n with
  | zero => exact absurd rfl h0
  | succ n => rfl

/-! ## The region invariant -/

/-- Before position `n`: the scratch at anything before the first point; afterwards at what the point before left in
    it.  (The body draws no random bits, so the invariant does not mention the generator register.) -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_zero (c : Dev nD) (n : ℕ) (h : n ≤ cfg0.N) (hz : n = 0) : PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The proof data -/

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
  Φ t := PhiS m c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.left
    | ⟨5, _⟩ => fullShare.left
    | ⟨6, _⟩ => fullShare.right
    | ⟨7, _⟩ => fullShare.right
    | ⟨8, _⟩ => fullShare.right
    | ⟨9, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = (outsAt m c t.val t.isLt).1 := by dsimp only [dats]

theorem before0 (c : Dev nD) (t : Fin cfg0.N) (d) : (dats m 0 c).before 0 t d = iblk m c 0 t :=
  before_in_0 m (dats m 0 c) (A_eq m c 0) (after0 m c) t d
theorem before1 (c : Dev nD) (t : Fin cfg0.N) (d) : (dats m 0 c).before 1 t d = iblk m c 1 t :=
  before_in_1 m (dats m 0 c) (A_eq m c 1) (after1 m c) t d
theorem before2 (c : Dev nD) (t : Fin cfg0.N) (d) : (dats m 0 c).before 2 t d = iblk m c 2 t :=
  before_in_2 m (dats m 0 c) (A_eq m c 2) (after2 m c) t d
theorem before3 (c : Dev nD) (t : Fin cfg0.N) (d) : (dats m 0 c).before 3 t d = iblk m c 3 t :=
  before_in_3 m (dats m 0 c) (A_eq m c 3) (after3 m c) t d
theorem before4 (c : Dev nD) (t : Fin cfg0.N) (d) : (dats m 0 c).before 4 t d = iblk m c 4 t :=
  before_in_4 m (dats m 0 c) (A_eq m c 4) (after4 m c) t d
theorem before5 (c : Dev nD) (t : Fin cfg0.N) (d) : (dats m 0 c).before 5 t d = iblk m c 5 t :=
  before_in_5 m (dats m 0 c) (A_eq m c 5) (after5 m c) t d
theorem before6 (c : Dev nD) (t : Fin cfg0.N) (d) : (dats m 0 c).before 6 t d = iblk m c 6 t :=
  before_in_6 m (dats m 0 c) (A_eq m c 6) (after6 m c) t d
theorem before7 (c : Dev nD) (t : Fin cfg0.N) (d) : (dats m 0 c).before 7 t d = iblk m c 7 t :=
  before_in_7 m (dats m 0 c) (A_eq m c 7) (after7 m c) t d
theorem before8 (c : Dev nD) (t : Fin cfg0.N) (d) : (dats m 0 c).before 8 t d = iblk m c 8 t :=
  before_in_8 m (dats m 0 c) (A_eq m c 8) (after8 m c) t d

/-- The output block is written back after the last point only. -/
theorem noFlush9 (t : Fin cfg0.N) (ht : t.val ≠ 0) :
    (cfg0.win 9).flush ⟨t.val - 1, Nat.lt_of_le_of_lt (Nat.sub_le _ _) t.isLt⟩ = false := by
  have hN : t.val < 4 := lt_of_lt_of_eq t.isLt N_0
  cases h : (cfg0.win 9).flush ⟨t.val - 1, Nat.lt_of_le_of_lt (Nat.sub_le _ _) t.isLt⟩ with
  | false => rfl
  | true => exact absurd ((flush0_9 _).mp h) (by dsimp only; omega)

/-- At the first point the output block's buffer holds anything. -/
theorem before9_first (c : Dev nD) (t : Fin cfg0.N) (hz : t.val = 0) (d) : (dats m 0 c).before 9 t d = d :=
  (dats m 0 c).before_out_reset 9 rfl t (.inl hz) d

/-- At a later point it holds what the point before left. -/
theorem before9_later (c : Dev nD) (t : Fin cfg0.N) (hz : t.val ≠ 0) (d) :
    (dats m 0 c).before 9 t d = (outsAt m c (t.val - 1) (Nat.lt_of_le_of_lt (Nat.sub_le _ _) t.isLt)).1 :=
  ((dats m 0 c).before_out_kept 9 rfl t hz (noFlush9 t hz) (fun _ => rfl) (fun _ _ => rfl) d).trans (after9 m c _)

end Cert.KernelIdeal.Fr

end
-- ==== Proof.KI.Body.lean ====
/-
  The idealized kernel's frame, fourth part: the body obligation.  At every grid point, from the region invariant
  and every window's buffer at what it then holds — an input's at its block, the output block's at anything at the
  first point and at what the point before left afterwards — the body runs to the invariant of the next point and
  every buffer at what the proof data names: the first point by the first run, the others by the later run.
-/
import proofs.«135998_g2000004315035959_pallasbulk_646_6_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl]
  rw [show (dats m 0 c).Φ t.succ = PhiS m c (t.val + 1) t.isLt from rfl, PhiS_succ]
  rw [after0, after1, after2, after3, after4, after5, after6, after7, after8, after9]
  by_cases hz : t.val = 0
  · rw [outsAt_first m c t hz]
    unfold outA scrA; (try dsimp only)
    rw [PhiS_castSucc m c t, PhiS_zero m c _ _ hz]
    simp only [before9_first m c t hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr hz) (iblk m c 0 t) (iblk m c 1 t) (iblk m c 2 t) (iblk m c 3 t) (iblk m c 4 t) (iblk m c 5 t) (iblk m c 6 t) (iblk m c 7 t) (iblk m c 8 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, ⟨%e9, H9⟩, ⟨%es, HS⟩⟩
    isplitl [HS]
    · unfold owns; iexists _; isplitr
      swap; · iexact HS
      ipureintro; exact View.read_writes_of_cover _ _ _ _ _ (coverAS c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr hz) (iblk m c 0 t) (iblk m c 1 t) (iblk m c 2 t) (iblk m c 3 t) (iblk m c 4 t) (iblk m c 5 t) (iblk m c 6 t) (iblk m c 7 t) (iblk m c 8 t))
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverA9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr hz) (iblk m c 0 t) (iblk m c 1 t) (iblk m c 2 t) (iblk m c 3 t) (iblk m c 4 t) (iblk m c 5 t) (iblk m c 6 t) (iblk m c 7 t) (iblk m c 8 t))
  · rw [outsAt_later m c t hz]
    unfold outB; (try dsimp only)
    rw [PhiS_castSucc m c t, PhiS_pos m c _ _ hz]
    simp only [before9_later m c t hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun h => hz ((hcond0 t).mp h)) (iblk m c 0 t) (iblk m c 1 t) (iblk m c 2 t) (iblk m c 3 t) (iblk m c 4 t) (iblk m c 5 t) (iblk m c 6 t) (iblk m c 7 t) (iblk m c 8 t)
      (outsAt m c (t.val - 1) (Nat.lt_of_le_of_lt (Nat.sub_le _ _) t.isLt)).1 (outsAt m c (t.val - 1) (Nat.lt_of_le_of_lt (Nat.sub_le _ _) t.isLt)).2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, ⟨%e9, H9⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverB9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun h => hz ((hcond0 t).mp h)) (iblk m c 0 t) (iblk m c 1 t) (iblk m c 2 t) (iblk m c 3 t) (iblk m c 4 t) (iblk m c 5 t) (iblk m c 6 t) (iblk m c 7 t) (iblk m c 8 t) _ _)

/-- The body obligation, at every point. -/
theorem body_obligation (c : Dev nD) : BodyObligation (dats (F := F) m 0 c) (defs₀ (F := F)) Variants.none () Set.univ := fun t => by
  rw [bigSep_W0, bigSep_W0]
  exact sound_body m c t

/-- The scratch is the one scoped buffer that is no staging buffer. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scoped_eq]
  try exact Idealize.SL.BI.Entails.refl _

/-- After the last point the invariant gives the scratch back at some contents. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  have hne : (Fin.last cfg0.N).val ≠ 0 := by rw [Fin.val_last]; have : cfg0.N = 4 := N_0; omega
  rw [show (dats m 0 c).Φ (Fin.last cfg0.N) = PhiS m c (Fin.last cfg0.N).val (Nat.le_of_lt_succ (Fin.last cfg0.N).isLt) from rfl,
    PhiS_pos m c _ _ hne, scoped_eq]
  iintro HS
  iexists _; iexact HS

end Cert.KernelIdeal.Fr

end
-- ==== Proof.KI.Launch.lean ====
/-
  The idealized kernel's frame, last part: the launch, and what the run leaves.

  Three arrays are each handed to the region through two windows.  At the launch each of them, held whole, is split
  into two halves, one per window; every other array is handed over whole.  With that, the body obligation and the
  host operations before the region, the library's launch theorem for windows that share arrays gives the run:
  every weakly fair execution terminates, every array of the region ends at what the library computes from the
  proof data, and every other unscoped buffer ends as the region found it.  Read at the argument arrays this is
  the frame; read at the result array — one block, the whole array, written back after the last point — it is the
  accumulation's last value.
-/
import proofs.«135998_g2000004315035959_pallasbulk_646_6_alg».proof.Proof.KI.Body
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (BodyObligationLoose)

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The region's arrays, each a whole buffer, at the shares the proof data names. -/
theorem arrays_shares (c : Dev nD) (G : (w : Fin cfg0.W) → Buf (Elt F) ((cfg0.win w).arr.view.loc (c.tc : Thread nD τ))) :
    (dats m 0 c).arrays G = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

/-- The seven buffers behind the ten windows' arrays, each whole, make the proof data's arrays: the repeated weight
    row, the repeated bias row and the second layer's weight are each split into a left and a right half, for the
    first and the second stream's window. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrays_shares]
  unfold Pipeline.arrBufs
  rw [bigSep_W0, bigSep_eq_bigSepL_of_eq [main_call0_v7, main_call0_v0, main_arg5, main_call0_v3, main_call0_v6, main_arg4, main_v0] (by decide) (by decide)]
  simp only [bigSepL_cons_cons, bigSepL_singleton]
  show (iprop((((c.tc : Thread nD τ).loc main_call0_v7) ↦{fullShare} V m c main_call0_v7) ∗ (((c.tc : Thread nD τ).loc main_call0_v0) ↦{fullShare} V m c main_call0_v0) ∗ (((c.tc : Thread nD τ).loc main_arg5) ↦{fullShare} V m c main_arg5) ∗ (((c.tc : Thread nD τ).loc main_call0_v3) ↦{fullShare} V m c main_call0_v3) ∗ (((c.tc : Thread nD τ).loc main_call0_v6) ↦{fullShare} V m c main_call0_v6) ∗ (((c.tc : Thread nD τ).loc main_arg4) ↦{fullShare} V m c main_arg4) ∗ (((c.tc : Thread nD τ).loc main_v0) ↦{fullShare} V m c main_v0)) : sProp 𝕄) ⊢ iprop((((c.tc : Thread nD τ).loc main_call0_v7) ↦{fullShare} V m c main_call0_v7) ∗ (((c.tc : Thread nD τ).loc main_call0_v0) ↦{fullShare} V m c main_call0_v0) ∗ (((c.tc : Thread nD τ).loc main_arg5) ↦{fullShare} V m c main_arg5) ∗ (((c.tc : Thread nD τ).loc main_call0_v3) ↦{fullShare.left} V m c main_call0_v3) ∗ (((c.tc : Thread nD τ).loc main_call0_v6) ↦{fullShare.left} V m c main_call0_v6) ∗ (((c.tc : Thread nD τ).loc main_arg4) ↦{fullShare.left} V m c main_arg4) ∗ (((c.tc : Thread nD τ).loc main_call0_v3) ↦{fullShare.right} V m c main_call0_v3) ∗ (((c.tc : Thread nD τ).loc main_call0_v6) ↦{fullShare.right} V m c main_call0_v6) ∗ (((c.tc : Thread nD τ).loc main_arg4) ↦{fullShare.right} V m c main_arg4) ∗ (((c.tc : Thread nD τ).loc main_v0) ↦{fullShare} V m c main_v0))
  iintro ⟨H7, H0, H5, H3, H6, H4, Hv⟩
  ihave S3 := (pointsTo_share (PosShare.mem_left_op_right fullShare)).1 $$ H3
  icases S3 with ⟨H3l, H3r⟩
  ihave S6 := (pointsTo_share (PosShare.mem_left_op_right fullShare)).1 $$ H6
  icases S6 with ⟨H6l, H6r⟩
  ihave S4 := (pointsTo_share (PosShare.mem_left_op_right fullShare)).1 $$ H4
  icases S4 with ⟨H4l, H4r⟩
  isplitl [H7]; · iexact H7
  isplitl [H0]; · iexact H0
  isplitl [H5]; · iexact H5
  isplitl [H3l]; · iexact H3l
  isplitl [H6l]; · iexact H6l
  isplitl [H4l]; · iexact H4l
  isplitl [H3r]; · iexact H3r
  isplitl [H6r]; · iexact H6r
  isplitl [H4r]; · iexact H4r
  iexact Hv

set_option backward.isDefEq.respectTransparency.types false in
/-- The run: every array of the region at what the library computes from the proof data, every other unscoped buffer
    as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by iintro ⟨-, H⟩; iapply (hin m c); iexact H)
    (hout := fun c => by iintro H; isplitr; · iempintro
                         iapply (hout m c); iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- THE FRAME: the program runs and its six argument arrays end unchanged — four of them bypass the region, the
    second layer's weight and the output bias are inputs of it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).1 2).trans (((dats m 0 c).arrAt_in 2 rfl _).trans ((A_eq m c 2).trans (V_main_arg5 m c)))⟩) (run_main m ρ)

/-! ## The result array -/

/-- The output window's block index is (0, 0) at every point: the block is the whole array. -/
theorem idx9 : ∀ t : Fin cfg0.N, win0_9.index t (0 : Fin 2) = 0 ∧ win0_9.index t (1 : Fin 2) = 0 :=
  (by decide +kernel : ∀ t : Fin grid0.N, _)

theorem flush_iff (t : Fin cfg0.N) : (cfg0.win 9).flush t = true ↔ t.val = 3 := by
  have hN : t.val < 4 := lt_of_lt_of_eq t.isLt N_0
  rw [flush0_9 t]; omega

/-- What the last point leaves in the output block. -/
def outFinal (c : Dev nD) : Vec F S512x640 .f32 := (outsAt m c t0_3.val t0_3.isLt).1

theorem flushed9_eq (c : Dev nD) (t : Fin cfg0.N) (hf : (cfg0.win 9).flush t = true) :
    (dats m 0 c).flushed 9 t = ((cfg0.win 9).blk t).view.read (Elt F) (outFinal m c) := by
  have h3 : t = t0_3 := Fin.ext ((flush_iff t).mp hf)
  subst h3
  show (cfg0.win 9).cut (grid0.coords t0_3) ((dats m 0 c).after 9 t0_3) = _
  rw [after9]
  funext j
  show (outsAt m c t0_3.val t0_3.isLt).1 j = outFinal m c (((cfg0.win 9).blk t0_3).view.emb j)
  have he : ((cfg0.win 9).blk t0_3).view.emb j = j := by
    funext a; apply Fin.ext
    match a with
    | ⟨0, _⟩ => show win0_9.index t0_3 (0 : Fin 2) * 512 + 1 * (j 0).val = (j 0).val; rw [(idx9 t0_3).1]; omega
    | ⟨1, _⟩ => show win0_9.index t0_3 (1 : Fin 2) * 640 + 1 * (j 1).val = (j 1).val; rw [(idx9 t0_3).2]; omega
  rw [he]; rfl

theorem mem_blk9 (t : Fin cfg0.N) (i : S512x640.Idx) :
    i ∈ ((cfg0.win 9).blk t).view.set ↔ ∀ a : Fin 2, win0_9.index t a * S512x640.size a ≤ (i a).val ∧ (i a).val < win0_9.index t a * S512x640.size a + S512x640.size a := by
  show i ∈ ((View.whole main_v0).slice (win0_9.rect t)).set ↔ _
  rw [View.set_slice_whole, Rect.mem_set_unit]
  exact Iff.rfl

theorem cover9 (i : S512x640.Idx) : ∃ t : Fin cfg0.N, (cfg0.win 9).flush t = true ∧ i ∈ ((cfg0.win 9).blk t).view.set := by
  refine ⟨t0_3, (flush_iff t0_3).mpr rfl, (mem_blk9 t0_3 i).mpr fun a => ?_⟩
  match a with
  | ⟨0, _⟩ => show win0_9.index t0_3 (0 : Fin 2) * 512 ≤ (i 0).val ∧ (i 0).val < win0_9.index t0_3 (0 : Fin 2) * 512 + 512; rw [(idx9 t0_3).1]; have hi : (i 0).val < 512 := (i 0).isLt; omega
  | ⟨1, _⟩ => show win0_9.index t0_3 (1 : Fin 2) * 640 ≤ (i 1).val ∧ (i 1).val < win0_9.index t0_3 (1 : Fin 2) * 640 + 640; rw [(idx9 t0_3).2]; have hi : (i 1).val < 640 := (i 1).isLt; omega

/-- The result array after the run is what the last point left in the output block. -/
theorem final9 (c : Dev nD) : (dats m 0 c).arrAt 9 cfg0.N = outFinal m c :=
  (dats m 0 c).arrAt_eq_of_cover 9 (outFinal m c) (fun t hf => flushed9_eq m c t hf) cover9

/-- The run, read: the result array at the accumulation's last value, the argument arrays unchanged. -/
theorem run : θ_run defs (onTc (τ := τ) (main (F := F))) ⟨m, fun _ => 0, ρ⟩ (fun r => ∀ c : Dev nD,
      r.2.mem ((c.tc : Thread nD τ).loc main_v0) = outFinal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 9).trans (final9 m c), ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).1 2).trans (((dats m 0 c).arrAt_in 2 rfl _).trans ((A_eq m c 2).trans (V_main_arg5 m c)))⟩) (run_main m ρ)

end Cert.KernelIdeal.Fr

end
-- ==== Proof.KI.Pieces.lean ====
/-
  What the body's runs leave, as the body's own arithmetic.

  Each run's pieces are stores through the whole rectangle of a whole buffer, and every load reads a whole buffer: a
  load of an input reads the input's contents, a load of what one such store left reads that store's payload, and the
  last such store into a buffer leaves its payload whatever was stored before.  So the first point leaves in the
  scratch the product of the input matrix with the transposed adjacency, and in the output block the two streams'
  contributions added to the bias row it had just stored there; a later point leaves in the output block the two
  streams' contributions, computed from the scratch as it found it, added to what the block held.
-/
import proofs.«135998_g2000004315035959_pallasbulk_646_6_alg».proof.Proof.KI.Data
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets, however they are spelt. -/
theorem pieces_hz : (![0, 0] : Fin 2 → Nat) = fun _ => 0 := funext fun a => by fin_cases a <;> rfl

/-- THE SCRATCH after the first point: the product of the input matrix with the transposed adjacency. -/
theorem scrA_eq (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : cond0 i) (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) :
    scrA c i arg1 harg1 arg2 harg2 arg3 harg3 arg4 harg4 arg5 harg5 arg6 harg6 arg7 harg7 arg8 harg8 arg9 harg9 arg10 harg10 arg11 harg11 hc0 x0 x1 x2 x3 x4 x5 x6 x7 x8 = k0_pay1 x0 x1 := by
  unfold scrA
  rw [View.read_writes_eq_canon _ _ _ (coverAS c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun_A
  dsimp only
  sl_unfold_words
  rw [View.canon_unit_zero pieces_hz]
  simp only [View.readAt_eq_ld, harg1.read_unread, harg2.read_unread, View.ld_unit_zero (S := S512x128) pieces_hz,
    View.ld_unit_zero (S := S128x128) pieces_hz]

/-- THE OUTPUT BLOCK after the first point: the body stores the bias row repeated over the rows, reads it back, and
    stores over it that block plus the two streams' contributions, the streams' left operand being the scratch it has
    just filled. -/
theorem outA_eq (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : cond0 i) (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) :
    outA c i arg1 harg1 arg2 harg2 arg3 harg3 arg4 harg4 arg5 harg5 arg6 harg6 arg7 harg7 arg8 harg8 arg9 harg9 arg10 harg10 arg11 harg11 hc0 x0 x1 x2 x3 x4 x5 x6 x7 x8
      = k0_pay6 (BitVec.ofNat 32 (i 0).val) (iota .tc S128x1024 32 [0] iota_S128x1024_d0_w32) k0_pay3 k0_pay4 (k0_pay5 i x3)
          (k0_pay1 x0 x1) x4 x5 x6 (k0_pay1 x0 x1) x7 x8 (k0_pay2 x2) := by
  unfold outA
  rw [View.read_writes_eq_canon _ _ _ (coverA9 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun_A
  dsimp only
  sl_unfold_words
  rw [View.canon_cons_unit_zero (S := S512x640) pieces_hz,
    View.readCov_unit_zero (S := S512x128) _ pieces_hz, View.readCov_unit_zero (S := S512x640) _ pieces_hz]
  simp only [View.readAt_eq_ld, harg1.read_unread, harg2.read_unread, harg3.read_unread, harg4.read_unread, harg5.read_unread,
    harg6.read_unread, harg7.read_unread, harg8.read_unread, harg9.read_unread,
    View.ld_unit_zero (S := S512x128) pieces_hz, View.ld_unit_zero (S := S128x128) pieces_hz,
    View.ld_unit_zero (S := S1x640) pieces_hz, View.ld_unit_zero (S := S1x1024) pieces_hz,
    View.ld_unit_zero (S := S1024x640) pieces_hz]

/-- THE OUTPUT BLOCK after a later point: what the block held plus the two streams' contributions, the streams' left
    operand being the scratch as the point found it. -/
theorem outB_eq (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S1x640 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x640 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x640 .f32) (harg9 : arg9.IsWhole) (arg10 : Memref sig .tc .vmem S512x640 .f32) (harg10 : arg10.IsWhole) (arg11 : Memref sig .tc .vmem S512x128 .f32) (harg11 : arg11.IsWhole) (hc0 : ¬cond0 i) (x0 : Vec F S512x128 .f32) (x1 : Vec F S128x128 .f32) (x2 : Vec F S1x640 .f32) (x3 : Vec F S1x1024 .f32) (x4 : Vec F S1x1024 .f32) (x5 : Vec F S1024x640 .f32) (x6 : Vec F S1x1024 .f32) (x7 : Vec F S1x1024 .f32) (x8 : Vec F S1024x640 .f32) (xo : Vec F S512x640 .f32) (xs : Vec F S512x128 .f32) :
    outB c i arg1 harg1 arg2 harg2 arg3 harg3 arg4 harg4 arg5 harg5 arg6 harg6 arg7 harg7 arg8 harg8 arg9 harg9 arg10 harg10 arg11 harg11 hc0 x0 x1 x2 x3 x4 x5 x6 x7 x8 xo xs
      = k0_pay6 (BitVec.ofNat 32 (i 0).val) (iota .tc S128x1024 32 [0] iota_S128x1024_d0_w32) k0_pay3 k0_pay4 (k0_pay5 i x3)
          xs x4 x5 x6 xs x7 x8 xo := by
  unfold outB
  rw [View.read_writes_eq_canon _ _ _ (coverB9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo xs)]
  unfold kernelRun_B
  dsimp only
  sl_unfold_words
  rw [View.canon_unit_zero (S := S512x640) pieces_hz]
  simp only [View.readAt_eq_ld, harg4.read_unread, harg5.read_unread, harg6.read_unread, harg7.read_unread,
    harg8.read_unread, harg9.read_unread, harg10.read_unread, harg11.read_unread,
    View.ld_unit_zero (S := S512x128) pieces_hz, View.ld_unit_zero (S := S512x640) pieces_hz,
    View.ld_unit_zero (S := S1x1024) pieces_hz, View.ld_unit_zero (S := S1024x640) pieces_hz]

end Cert.KernelIdeal.Fr

end
-- ==== Proof.Spec.lean ====
/-
  The two closed forms of the network's output, as functions of the six argument arrays over the extended reals.

  Arguments: the normalized adjacency `a` (128 × 128), the node inputs `x` (512 graphs × 128 nodes × 1), the first
  layer's weight `w1` and bias `b1` (1 × 64 each), the second layer's weight `w2` (8192 × 640) and bias `b2` (1 × 640).
  A hidden index `J < 8192` is the row-major pair (node `J / 64`, feature `J % 64`).

  * `G`  — the folded form: the adjacency row scaled by the first-layer weight INSIDE the sum over neighbours,
            `h[b, J] = max (∑ j, x[b, j] · (a[J/64, j] · w1[J%64]) + b1[J%64]) 0`,
            `out[b, y] = (∑ J, h[b, J] · w2[J, y]) + b2[y]`.
  * `Gk` — the factored form: the neighbour sum `s[b, n] = ∑ m, x[b, m] · a[n, m]` taken first and scaled after,
            `h[b, J] = max (s[b, J/64] · w1[J%64] + b1[J%64]) 0`,
            `out[b, y] = b2[y] + ∑ J, h[b, J] · w2[J, y]`.
  The two agree when every entry is a real number (a factor moved across a finite sum).
-/
import Idealize.ShloMosaic.PureOps.Ideal
import Idealize.ShloMosaic.Lib.ValueIdx

noncomputable section

open scoped BigOperators

namespace Cert.GcnSpec

open Idealize.ShloMosaic Idealize.ShloMosaic.ValueIdx

/-- The node of a flattened hidden index. -/
def nodeOf (J : Fin 8192) : Fin 128 := ⟨J.val / 64, by have := J.isLt; omega⟩
/-- The feature of a flattened hidden index. -/
def featOf (J : Fin 8192) : Fin 64 := ⟨J.val % 64, by omega⟩

variable (a : (⟨2, ![128, 128]⟩ : Shape).Idx → EReal) (x : (⟨3, ![512, 128, 1]⟩ : Shape).Idx → EReal)
  (w1 b1 : (⟨2, ![1, 64]⟩ : Shape).Idx → EReal) (w2 : (⟨2, ![8192, 640]⟩ : Shape).Idx → EReal)
  (b2 : (⟨2, ![1, 640]⟩ : Shape).Idx → EReal)

/-- The folded hidden activation: the weight inside the neighbour sum. -/
def hidFolded (b : Fin 512) (J : Fin 8192) : EReal :=
  max ((∑ j : Fin 128, x (ix3 b j (0 : Fin 1)) * (a (ix2 (nodeOf J) j) * w1 (ix2 (0 : Fin 1) (featOf J))))
        + b1 (ix2 (0 : Fin 1) (featOf J))) 0

/-- The folded form of the output. -/
def G : (⟨2, ![512, 640]⟩ : Shape).Idx → EReal := fun i =>
  (∑ J : Fin 8192, hidFolded a x w1 b1 (i 0) J * w2 (ix2 J (i 1))) + b2 (ix2 (0 : Fin 1) (i 1))

/-- The neighbour sum of graph `b` at node `n`. -/
def agg (b : Fin 512) (n : Fin 128) : EReal := ∑ m : Fin 128, x (ix3 b m (0 : Fin 1)) * a (ix2 n m)

/-- The factored hidden activation: the neighbour sum scaled afterwards. -/
def hidFactored (b : Fin 512) (J : Fin 8192) : EReal :=
  max (agg a x b (nodeOf J) * w1 (ix2 (0 : Fin 1) (featOf J)) + b1 (ix2 (0 : Fin 1) (featOf J))) 0

/-- The factored form of the output. -/
def Gk : (⟨2, ![512, 640]⟩ : Shape).Idx → EReal := fun i =>
  b2 (ix2 (0 : Fin 1) (i 1)) + ∑ J : Fin 8192, hidFactored a x w1 b1 (i 0) J * w2 (ix2 J (i 1))

end Cert.GcnSpec

end
-- ==== Proof.KI.Blocks.lean ====
/-
  The idealized kernel's inputs as the body finds them: each input window's block at a grid point, read at an index,
  as an entry of one of the six argument arrays.

  Before the region the host transposes the adjacency, drops the node inputs' trailing unit axis, and repeats the
  first layer's weight row and bias row (64 entries each) 128 times into rows of 8192 entries, so that entry `J` of
  a repeated row is entry `J % 64` — the feature of the hidden index `J` — of the original.  The region then hands the
  body, at point `t` of four: the whole input matrix, the whole transposed adjacency, the whole output bias row, and
  for each of two streams `s = 0, 1` the slice `[(2t+s)·1024, (2t+s+1)·1024)` of the two repeated rows and of the rows
  of the second layer's weight.  A block's coordinate on an axis is always its block index times the block's extent
  plus the coordinate inside the block; the block indices are the printed index maps, decided over the four points.
-/
import proofs.«135998_g2000004315035959_pallasbulk_646_6_alg».proof.Proof.KI.Runs
import proofs.«135998_g2000004315035959_pallasbulk_646_6_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Blk

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Cert.GcnSpec (nodeOf featOf)

/-! ## Hidden indices of a stream's slice -/

/-- A point of the grid is below 4. -/
theorem point_lt (t : Fin cfg0.N) : t.val < 4 := lt_of_lt_of_eq t.isLt N_0

/-- Entry `j` of the first stream's slice at point `t` is a hidden index. -/
theorem hid_lt0 (t : Fin cfg0.N) (j : Fin 1024) : (2 * t.val) * 1024 + j.val < 8192 := by
  have := point_lt t; have := j.isLt; omega
/-- Entry `j` of the second stream's slice at point `t` is a hidden index. -/
theorem hid_lt1 (t : Fin cfg0.N) (j : Fin 1024) : (2 * t.val + 1) * 1024 + j.val < 8192 := by
  have := point_lt t; have := j.isLt; omega

/-- A slice of 1024 hidden indices is 16 whole nodes: the feature of entry `j` is `j % 64` … -/
theorem featOf_hid0 (t : Fin cfg0.N) (j : Fin 1024) :
    featOf (⟨(2 * t.val) * 1024 + j.val, hid_lt0 t j⟩ : Fin 8192) = ⟨j.val % 64, Nat.mod_lt _ (by decide)⟩ :=
  Fin.ext (by show ((2 * t.val) * 1024 + j.val) % 64 = j.val % 64; omega)
theorem featOf_hid1 (t : Fin cfg0.N) (j : Fin 1024) :
    featOf (⟨(2 * t.val + 1) * 1024 + j.val, hid_lt1 t j⟩ : Fin 8192) = ⟨j.val % 64, Nat.mod_lt _ (by decide)⟩ :=
  Fin.ext (by show ((2 * t.val + 1) * 1024 + j.val) % 64 = j.val % 64; omega)
/-- … and its node is the slice's first node plus `j / 64`. -/
theorem nodeOf_hid0 (t : Fin cfg0.N) (j : Fin 1024) :
    nodeOf (⟨(2 * t.val) * 1024 + j.val, hid_lt0 t j⟩ : Fin 8192)
      = ⟨(2 * t.val) * 16 + j.val / 64, by have := point_lt t; have := j.isLt; omega⟩ :=
  Fin.ext (by show ((2 * t.val) * 1024 + j.val) / 64 = (2 * t.val) * 16 + j.val / 64; omega)
theorem nodeOf_hid1 (t : Fin cfg0.N) (j : Fin 1024) :
    nodeOf (⟨(2 * t.val + 1) * 1024 + j.val, hid_lt1 t j⟩ : Fin 8192)
      = ⟨(2 * t.val + 1) * 16 + j.val / 64, by have := point_lt t; have := j.isLt; omega⟩ :=
  Fin.ext (by show ((2 * t.val + 1) * 1024 + j.val) / 64 = (2 * t.val + 1) * 16 + j.val / 64; omega)

/-! ## The host operations read at an index -/

/-- Dropping a trailing unit axis: entry `(b, j)` is entry `(b, j, 0)`. -/
theorem dropLast_apply (x : S512x128x1.Idx → EReal) (b : Fin 512) (j : Fin 128) :
    shapeCast S512x128 x shapeCasts_S512x128x1_S512x128 (ix2 b j) = x (ix3 b j (0 : Fin 1)) := by
  refine shapeCast_apply x _ (ix2 b j) (ix3 b j (0 : Fin 1)) ?_
  rw [Shape.rowMajor_val_three, Shape.rowMajor_val_two]
  show (b.val * 128 + j.val) * 1 + 0 = b.val * 128 + j.val
  omega

/-- The transpose: entry `(j, n)` is entry `(n, j)`. -/
theorem transposed_apply (x : S128x128.Idx → EReal) (j n : Fin 128) :
    transpose S128x128 [1, 0] x transposes_S128x128_S128x128_1_0 (ix2 j n) = x (ix2 n j) := by
  refine transpose_apply [1, 0] x _ (ix2 j n) (ix2 n j) fun b => ?_
  match b with
  | ⟨0, _⟩ => rfl
  | ⟨1, _⟩ => rfl

/-- A row of 64 entries repeated 128 times into a row of 8192: entry `J` is entry `J % 64`, the feature of `J`.
The row-major position of `(0, J)` in 1 × 8192 is that of `(0, 0, J / 64, J % 64)` in 1 × 1 × 128 × 64; the
broadcast forgets the third coordinate; `(0, 0, 0, f)` in 1 × 1 × 1 × 64 is `(0, f)` in 1 × 64. -/
theorem repeated_apply (x : S1x64.Idx → EReal) (J : Fin 8192) :
    shapeCast S1x8192 (broadcastInDim S1x1x128x64 ![0, 1, 2, 3] bcast_S1x1x1x64_S1x1x128x64_0_1_2_3
        (shapeCast S1x1x1x64 x shapeCasts_S1x64_S1x1x1x64)) shapeCasts_S1x1x128x64_S1x8192 (ix2 (0 : Fin 1) J)
      = x (ix2 (0 : Fin 1) (featOf J)) := by
  refine (shapeCast_apply _ _ (ix2 (0 : Fin 1) J)
    (ix4 (0 : Fin 1) (0 : Fin 1) (nodeOf J) (featOf J)) ?_).trans ?_
  · rw [Shape.rowMajor_val_four, Shape.rowMajor_val_two]
    show (((0 : ℕ) * 1 + 0) * 128 + J.val / 64) * 64 + J.val % 64 = 0 * 8192 + J.val
    omega
  refine (broadcastInDim_apply _ _ _ (ix4 (0 : Fin 1) (0 : Fin 1) (nodeOf J) (featOf J))
    (ix4 (0 : Fin 1) (0 : Fin 1) (0 : Fin 1) (featOf J)) ?_).trans ?_
  · intro a
    match a with
    | ⟨0, _⟩ => rfl
    | ⟨1, _⟩ => rfl
    | ⟨2, _⟩ => rfl
    | ⟨3, _⟩ => rfl
  refine shapeCast_apply x _ _ (ix2 (0 : Fin 1) (featOf J)) ?_
  rw [Shape.rowMajor_val_four, Shape.rowMajor_val_two]
  show (0 : ℕ) * 64 + J.val % 64 = (((0 : ℕ) * 1 + 0) * 1 + 0) * 64 + J.val % 64
  omega

variable (m : (ℓ : Loc nD τ sig) → Buf (Elt Ideal) ℓ)

/-! ## The arrays the host wrote, as terms of the argument arrays -/

/-- The input matrix: the node inputs with the unit axis dropped. -/
theorem V_main_call0_v7 (c : Dev nD) : (V m c main_call0_v7 : S512x128.Idx → EReal)
    = shapeCast S512x128 (m ((c : Thread nD τ).loc main_arg1) : S512x128x1.Idx → EReal) shapeCasts_S512x128x1_S512x128 := by
  dsimp only [V, hostOps0]; after_results; rfl

/-- The transposed adjacency. -/
theorem V_main_call0_v0 (c : Dev nD) : (V m c main_call0_v0 : S128x128.Idx → EReal)
    = transpose S128x128 [1, 0] (m ((c : Thread nD τ).loc main_arg0) : S128x128.Idx → EReal) transposes_S128x128_S128x128_1_0 := by
  dsimp only [V, hostOps0]; after_results; rfl

/-- The first layer's weight row, repeated. -/
theorem V_main_call0_v3 (c : Dev nD) : (V m c main_call0_v3 : S1x8192.Idx → EReal)
    = shapeCast S1x8192 (broadcastInDim S1x1x128x64 ![0, 1, 2, 3] bcast_S1x1x1x64_S1x1x128x64_0_1_2_3
        (shapeCast S1x1x1x64 (m ((c : Thread nD τ).loc main_arg2) : S1x64.Idx → EReal) shapeCasts_S1x64_S1x1x1x64))
        shapeCasts_S1x1x128x64_S1x8192 := by
  dsimp only [V, hostOps0]; after_results; rfl

/-- The first layer's bias row, repeated. -/
theorem V_main_call0_v6 (c : Dev nD) : (V m c main_call0_v6 : S1x8192.Idx → EReal)
    = shapeCast S1x8192 (broadcastInDim S1x1x128x64 ![0, 1, 2, 3] bcast_S1x1x1x64_S1x1x128x64_0_1_2_3
        (shapeCast S1x1x1x64 (m ((c : Thread nD τ).loc main_arg3) : S1x64.Idx → EReal) shapeCasts_S1x64_S1x1x1x64))
        shapeCasts_S1x1x128x64_S1x8192 := by
  dsimp only [V, hostOps0]; after_results; rfl

/-! ## The block indices, decided over the four points -/

theorem idx012 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 2 * t.val :=
  (by decide +kernel : ∀ t : Fin grid0.N, _)
theorem idx4 : ∀ t : Fin cfg0.N, win0_4.index t (0 : Fin 2) = 0 ∧ win0_4.index t (1 : Fin 2) = 2 * t.val :=
  (by decide +kernel : ∀ t : Fin grid0.N, _)
theorem idx5 : ∀ t : Fin cfg0.N, win0_5.index t (0 : Fin 2) = 2 * t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 2 * t.val + 1 :=
  (by decide +kernel : ∀ t : Fin grid0.N, _)
theorem idx7 : ∀ t : Fin cfg0.N, win0_7.index t (0 : Fin 2) = 0 ∧ win0_7.index t (1 : Fin 2) = 2 * t.val + 1 :=
  (by decide +kernel : ∀ t : Fin grid0.N, _)
theorem idx8 : ∀ t : Fin cfg0.N, win0_8.index t (0 : Fin 2) = 2 * t.val + 1 ∧ win0_8.index t (1 : Fin 2) = 0 :=
  (by decide +kernel : ∀ t : Fin grid0.N, _)

/-! ## The whole-array windows -/

/-- Window 0, at every point: the input matrix, entry `(b, j)` the input of graph `b` at node `j`. -/
theorem blk0 (c : Dev nD) (t : Fin cfg0.N) (b : Fin 512) (j : Fin 128) :
    iblk m c 0 t (ix2 b j) = m ((c : Thread nD τ).loc main_arg1) (ix3 b j (0 : Fin 1)) := by
  obtain ⟨e0, e1, -⟩ := idx012 t
  unfold iblk
  rw [View.read_apply]
  show V m c main_call0_v7 (((cfg0.win 0).blk t).view.emb (ix2 b j)) = _
  have hemb : ((cfg0.win 0).blk t).view.emb (ix2 b j) = (ix2 b j : S512x128.Idx) := by
    funext a; apply Fin.ext
    match a with
    | ⟨0, _⟩ => show win0_0.index t (0 : Fin 2) * 512 + 1 * b.val = b.val; omega
    | ⟨1, _⟩ => show win0_0.index t (1 : Fin 2) * 128 + 1 * j.val = j.val; omega
  rw [hemb, V_main_call0_v7, dropLast_apply]

/-- Window 1, at every point: the transposed adjacency, entry `(j, n)` the adjacency's `(n, j)`. -/
theorem blk1 (c : Dev nD) (t : Fin cfg0.N) (j n : Fin 128) :
    iblk m c 1 t (ix2 j n) = m ((c : Thread nD τ).loc main_arg0) (ix2 n j) := by
  obtain ⟨-, -, e0, e1, -⟩ := idx012 t
  unfold iblk
  rw [View.read_apply]
  show V m c main_call0_v0 (((cfg0.win 1).blk t).view.emb (ix2 j n)) = _
  have hemb : ((cfg0.win 1).blk t).view.emb (ix2 j n) = (ix2 j n : S128x128.Idx) := by
    funext a; apply Fin.ext
    match a with
    | ⟨0, _⟩ => show win0_1.index t (0 : Fin 2) * 128 + 1 * j.val = j.val; omega
    | ⟨1, _⟩ => show win0_1.index t (1 : Fin 2) * 128 + 1 * n.val = n.val; omega
  rw [hemb, V_main_call0_v0, transposed_apply]

/-- Window 2, at every point: the output bias row. -/
theorem blk2 (c : Dev nD) (t : Fin cfg0.N) (y : Fin 640) :
    iblk m c 2 t (ix2 (0 : Fin 1) y) = m ((c : Thread nD τ).loc main_arg5) (ix2 (0 : Fin 1) y) := by
  obtain ⟨-, -, -, -, e0, e1⟩ := idx012 t
  unfold iblk
  rw [View.read_apply]
  show V m c main_arg5 (((cfg0.win 2).blk t).view.emb (ix2 (0 : Fin 1) y)) = _
  have hemb : ((cfg0.win 2).blk t).view.emb (ix2 (0 : Fin 1) y) = (ix2 (0 : Fin 1) y : S1x640.Idx) := by
    funext a; apply Fin.ext
    match a with
    | ⟨0, _⟩ => show win0_2.index t (0 : Fin 2) * 1 + 1 * ((0 : Fin 1) : ℕ) = ((0 : Fin 1) : ℕ); omega
    | ⟨1, _⟩ => show win0_2.index t (1 : Fin 2) * 640 + 1 * y.val = y.val; omega
  rw [hemb, V_main_arg5]

/-! ## The first stream's slices (windows 3, 4, 5) and the second's (6, 7, 8) -/

/-- Window 3 at point `t`: entry `j` of the slice is the first layer's weight of the feature of hidden index `(2t)·1024 + j`. -/
theorem blk3 (c : Dev nD) (t : Fin cfg0.N) (j : Fin 1024) :
    iblk m c 3 t (ix2 (0 : Fin 1) j)
      = m ((c : Thread nD τ).loc main_arg2) (ix2 (0 : Fin 1) (featOf (⟨(2 * t.val) * 1024 + j.val, hid_lt0 t j⟩ : Fin 8192))) := by
  obtain ⟨e0, e1⟩ := idx3 t
  unfold iblk
  rw [View.read_apply]
  show V m c main_call0_v3 (((cfg0.win 3).blk t).view.emb (ix2 (0 : Fin 1) j)) = _
  have hemb : ((cfg0.win 3).blk t).view.emb (ix2 (0 : Fin 1) j)
      = (ix2 (0 : Fin 1) (⟨(2 * t.val) * 1024 + j.val, hid_lt0 t j⟩ : Fin 8192) : S1x8192.Idx) := by
    funext a; apply Fin.ext
    match a with
    | ⟨0, _⟩ => show win0_3.index t (0 : Fin 2) * 1 + 1 * ((0 : Fin 1) : ℕ) = ((0 : Fin 1) : ℕ); omega
    | ⟨1, _⟩ => show win0_3.index t (1 : Fin 2) * 1024 + 1 * j.val = (2 * t.val) * 1024 + j.val; omega
  rw [hemb, V_main_call0_v3, repeated_apply]

/-- Window 4 at point `t`: entry `j` of the slice is the first layer's bias of the feature of hidden index `(2t)·1024 + j`. -/
theorem blk4 (c : Dev nD) (t : Fin cfg0.N) (j : Fin 1024) :
    iblk m c 4 t (ix2 (0 : Fin 1) j)
      = m ((c : Thread nD τ).loc main_arg3) (ix2 (0 : Fin 1) (featOf (⟨(2 * t.val) * 1024 + j.val, hid_lt0 t j⟩ : Fin 8192))) := by
  obtain ⟨e0, e1⟩ := idx4 t
  unfold iblk
  rw [View.read_apply]
  show V m c main_call0_v6 (((cfg0.win 4).blk t).view.emb (ix2 (0 : Fin 1) j)) = _
  have hemb : ((cfg0.win 4).blk t).view.emb (ix2 (0 : Fin 1) j)
      = (ix2 (0 : Fin 1) (⟨(2 * t.val) * 1024 + j.val, hid_lt0 t j⟩ : Fin 8192) : S1x8192.Idx) := by
    funext a; apply Fin.ext
    match a with
    | ⟨0, _⟩ => show win0_4.index t (0 : Fin 2) * 1 + 1 * ((0 : Fin 1) : ℕ) = ((0 : Fin 1) : ℕ); omega
    | ⟨1, _⟩ => show win0_4.index t (1 : Fin 2) * 1024 + 1 * j.val = (2 * t.val) * 1024 + j.val; omega
  rw [hemb, V_main_call0_v6, repeated_apply]

/-- Window 5 at point `t`: row `j` of the slice is row `(2t)·1024 + j` of the second layer's weight. -/
theorem blk5 (c : Dev nD) (t : Fin cfg0.N) (j : Fin 1024) (y : Fin 640) :
    iblk m c 5 t (ix2 j y)
      = m ((c : Thread nD τ).loc main_arg4) (ix2 (⟨(2 * t.val) * 1024 + j.val, hid_lt0 t j⟩ : Fin 8192) y) := by
  obtain ⟨e0, e1⟩ := idx5 t
  unfold iblk
  rw [View.read_apply]
  show V m c main_arg4 (((cfg0.win 5).blk t).view.emb (ix2 j y)) = _
  have hemb : ((cfg0.win 5).blk t).view.emb (ix2 j y)
      = (ix2 (⟨(2 * t.val) * 1024 + j.val, hid_lt0 t j⟩ : Fin 8192) y : S8192x640.Idx) := by
    funext a; apply Fin.ext
    match a with
    | ⟨0, _⟩ => show win0_5.index t (0 : Fin 2) * 1024 + 1 * j.val = (2 * t.val) * 1024 + j.val; omega
    | ⟨1, _⟩ => show win0_5.index t (1 : Fin 2) * 640 + 1 * y.val = y.val; omega
  rw [hemb, V_main_arg4]

/-- Window 6 at point `t`: entry `j` of the slice is the first layer's weight of the feature of hidden index `(2t+1)·1024 + j`. -/
theorem blk6 (c : Dev nD) (t : Fin cfg0.N) (j : Fin 1024) :
    iblk m c 6 t (ix2 (0 : Fin 1) j)
      = m ((c : Thread nD τ).loc main_arg2) (ix2 (0 : Fin 1) (featOf (⟨(2 * t.val + 1) * 1024 + j.val, hid_lt1 t j⟩ : Fin 8192))) := by
  obtain ⟨e0, e1⟩ := idx6 t
  unfold iblk
  rw [View.read_apply]
  show V m c main_call0_v3 (((cfg0.win 6).blk t).view.emb (ix2 (0 : Fin 1) j)) = _
  have hemb : ((cfg0.win 6).blk t).view.emb (ix2 (0 : Fin 1) j)
      = (ix2 (0 : Fin 1) (⟨(2 * t.val + 1) * 1024 + j.val, hid_lt1 t j⟩ : Fin 8192) : S1x8192.Idx) := by
    funext a; apply Fin.ext
    match a with
    | ⟨0, _⟩ => show win0_6.index t (0 : Fin 2) * 1 + 1 * ((0 : Fin 1) : ℕ) = ((0 : Fin 1) : ℕ); omega
    | ⟨1, _⟩ => show win0_6.index t (1 : Fin 2) * 1024 + 1 * j.val = (2 * t.val + 1) * 1024 + j.val; omega
  rw [hemb, V_main_call0_v3, repeated_apply]

/-- Window 7 at point `t`: entry `j` of the slice is the first layer's bias of the feature of hidden index `(2t+1)·1024 + j`. -/
theorem blk7 (c : Dev nD) (t : Fin cfg0.N) (j : Fin 1024) :
    iblk m c 7 t (ix2 (0 : Fin 1) j)
      = m ((c : Thread nD τ).loc main_arg3) (ix2 (0 : Fin 1) (featOf (⟨(2 * t.val + 1) * 1024 + j.val, hid_lt1 t j⟩ : Fin 8192))) := by
  obtain ⟨e0, e1⟩ := idx7 t
  unfold iblk
  rw [View.read_apply]
  show V m c main_call0_v6 (((cfg0.win 7).blk t).view.emb (ix2 (0 : Fin 1) j)) = _
  have hemb : ((cfg0.win 7).blk t).view.emb (ix2 (0 : Fin 1) j)
      = (ix2 (0 : Fin 1) (⟨(2 * t.val + 1) * 1024 + j.val, hid_lt1 t j⟩ : Fin 8192) : S1x8192.Idx) := by
    funext a; apply Fin.ext
    match a with
    | ⟨0, _⟩ => show win0_7.index t (0 : Fin 2) * 1 + 1 * ((0 : Fin 1) : ℕ) = ((0 : Fin 1) : ℕ); omega
    | ⟨1, _⟩ => show win0_7.index t (1 : Fin 2) * 1024 + 1 * j.val = (2 * t.val + 1) * 1024 + j.val; omega
  rw [hemb, V_main_call0_v6, repeated_apply]

/-- Window 8 at point `t`: row `j` of the slice is row `(2t+1)·1024 + j` of the second layer's weight. -/
theorem blk8 (c : Dev nD) (t : Fin cfg0.N) (j : Fin 1024) (y : Fin 640) :
    iblk m c 8 t (ix2 j y)
      = m ((c : Thread nD τ).loc main_arg4) (ix2 (⟨(2 * t.val + 1) * 1024 + j.val, hid_lt1 t j⟩ : Fin 8192) y) := by
  obtain ⟨e0, e1⟩ := idx8 t
  unfold iblk
  rw [View.read_apply]
  show V m c main_arg4 (((cfg0.win 8).blk t).view.emb (ix2 j y)) = _
  have hemb : ((cfg0.win 8).blk t).view.emb (ix2 j y)
      = (ix2 (⟨(2 * t.val + 1) * 1024 + j.val, hid_lt1 t j⟩ : Fin 8192) y : S8192x640.Idx) := by
    funext a; apply Fin.ext
    match a with
    | ⟨0, _⟩ => show win0_8.index t (0 : Fin 2) * 1024 + 1 * j.val = (2 * t.val + 1) * 1024 + j.val; omega
    | ⟨1, _⟩ => show win0_8.index t (1 : Fin 2) * 640 + 1 * y.val = y.val; omega
  rw [hemb, V_main_arg4]

end Cert.KernelIdeal.Blk

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.KernelPay.lean ====
/-
  The body's first two stored values read at an index.

  At the first grid point the body stores the neighbour sums `s = x · aᵀ` (a 512 × 128 by 128 × 128 product into a
  zero accumulator) and the output bias row repeated over the 512 rows.  Read at a row and a column these are a plain
  sum over the contracted index and the bias row's entry.  The operand-coordinate facts of the three product records
  the body uses are stated here once, and the three products read at an index follow from them.
-/
import proofs.«135998_g2000004315035959_pallasbulk_646_6_alg».proof.Proof.Gen.KernelIdeal.Skeleton
import proofs.«135998_g2000004315035959_pallasbulk_646_6_alg».proof.Proof.LibMatmulRows
import Idealize.ShloMosaic.Lib.Pipeline.Value

noncomputable section

open scoped BigOperators

namespace Cert.KernelIdeal.Pay

open Idealize.ShloMosaic Idealize.ShloMosaic.ValueIdx Cert.KernelIdeal Cert.KernelIdeal.Gen

/-- The 512 × 128 by 128 × 128 product into zero, read at a row and a column. -/
theorem mm128_apply (l : FVec Ideal S512x128 .f32) (r : FVec Ideal S128x128 .f32) (b : Fin 512) (n : Fin 128) :
    matmul dot_S512x128_S128x128_S512x128_1_0_0_1_n_n none l r (constant (F := Ideal) S512x128 .f32 0x00000000#32) (ix2 b n)
      = ∑ m : Fin 128, l (ix2 b m) * r (ix2 m n) :=
  Cert.LibMatmulRows.matmul_zero_apply dot_S512x128_S128x128_S512x128_1_0_0_1_n_n rfl rfl
    (fun _ _ => rfl)
    (fun i q => DotDims.lhsIdx_val_of_single _ rfl i q)
    (fun i q => DotDims.rhsIdx_val_of_single _ rfl i q)
    (fun _ _ => rfl) none l r b n

/-- The 512 × 128 by 128 × 1024 product into zero, read at a row and a column. -/
theorem mm1024_apply (l : FVec Ideal S512x128 .f32) (r : FVec Ideal S128x1024 .f32) (b : Fin 512) (j : Fin 1024) :
    matmul dot_S512x128_S128x1024_S512x1024_1_0_0_1_n_n none l r (constant (F := Ideal) S512x1024 .f32 0x00000000#32) (ix2 b j)
      = ∑ n : Fin 128, l (ix2 b n) * r (ix2 n j) :=
  Cert.LibMatmulRows.matmul_zero_apply dot_S512x128_S128x1024_S512x1024_1_0_0_1_n_n rfl rfl
    (fun _ _ => rfl)
    (fun i q => DotDims.lhsIdx_val_of_single _ rfl i q)
    (fun i q => DotDims.rhsIdx_val_of_single _ rfl i q)
    (fun _ _ => rfl) none l r b j

/-- The 512 × 1024 by 1024 × 640 product into zero, read at a row and a column. -/
theorem mm640_apply (l : FVec Ideal S512x1024 .f32) (r : FVec Ideal S1024x640 .f32) (b : Fin 512) (y : Fin 640) :
    matmul dot_S512x1024_S1024x640_S512x640_1_0_0_1_n_n none l r (constant (F := Ideal) S512x640 .f32 0x00000000#32) (ix2 b y)
      = ∑ j : Fin 1024, l (ix2 b j) * r (ix2 j y) :=
  Cert.LibMatmulRows.matmul_zero_apply dot_S512x1024_S1024x640_S512x640_1_0_0_1_n_n rfl rfl
    (fun _ _ => rfl)
    (fun i q => DotDims.lhsIdx_val_of_single _ rfl i q)
    (fun i q => DotDims.rhsIdx_val_of_single _ rfl i q)
    (fun _ _ => rfl) none l r b y

/-- A one-row vector repeated over the rows reads, at row `b` and column `y`, the row's entry at `y`. -/
theorem rowBroadcast_apply {m n : Nat} {α : Type} (x : (⟨2, ![1, n]⟩ : Shape).Idx → α)
    (h : (⟨2, ![1, n]⟩ : Shape).Broadcasts ⟨2, ![m, n]⟩) (b : Fin m) (y : Fin n) :
    broadcastTo ⟨2, ![m, n]⟩ x h (ix2 b y) = x (ix2 (0 : Fin 1) y) := by
  refine broadcastTo_apply x h (ix2 b y) (ix2 (0 : Fin 1) y) fun a => ?_
  match a with
  | ⟨0, _⟩ => rfl
  | ⟨1, _⟩ =>
    show (y : Nat) = if n = 1 then 0 else (y : Nat)
    split
    · rename_i h1
      subst h1
      exact Nat.lt_one_iff.mp y.isLt
    · rfl

/-- The neighbour sums the body stores at the first grid point: `s[b, n] = ∑ m, x[b, m] · aᵀ[m, n]`. -/
theorem pay1_apply (v76 : Vec Ideal S512x128 .f32) (v78 : Vec Ideal S128x128 .f32) (b : Fin 512) (n : Fin 128) :
    k0_pay1 (F := Ideal) v76 v78 (ix2 b n) = ∑ m : Fin 128, v76 (ix2 b m) * v78 (ix2 m n) := by
  unfold k0_pay1
  simp only [shapeCast_self]
  exact mm128_apply v76 v78 b n

/-- The bias block the body stores at the first grid point: the bias row on every row. -/
theorem pay2_apply (v84 : Vec Ideal S1x640 .f32) (b : Fin 512) (y : Fin 640) :
    k0_pay2 (F := Ideal) v84 (ix2 b y) = v84 (ix2 (0 : Fin 1) y) := by
  unfold k0_pay2
  simp only [shapeCast_self]
  exact rowBroadcast_apply v84 _ b y

end Cert.KernelIdeal.Pay

end
-- ==== Proof.KernelPayInt.lean ====
/-
  The integer part of the body: the replication matrix's condition read at an index.

  For a stream `t` of grid point `k` the body builds the 128 × 1024 matrix whose entry at row `n` and lane `j` is the
  first-layer weight at lane `j` when `(2k + t) · 16 + ⌊j / 64⌋ = n` and zero otherwise.  The floor division of the lane
  index by 64 is spelt as a truncating signed division with a correction for operands of different signs; on a lane
  index (below 1024, so non-negative) the correction never applies: for a positive lane the two sign words agree, and
  for lane 0 the remainder is zero.  All words involved are far below 2³², so the 32-bit sums and products are the
  natural-number ones and the comparison of words is the comparison of the numbers.
-/
import proofs.«135998_g2000004315035959_pallasbulk_646_6_alg».proof.Proof.KernelPay

noncomputable section

namespace Cert.KernelIdeal.Pay

open Idealize.ShloMosaic Idealize.ShloMosaic.ValueIdx Cert.KernelIdeal Cert.KernelIdeal.Gen

/-- The word chain the body applies to a lane index `x`: the signed division by 64 rounded toward zero, less one when
    the operands' signs differ and the remainder is not zero. -/
def floorDivWord (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

/-- On a word below 1024 the chain is the natural-number quotient by 64. -/
theorem floorDivWord_eq (x : BitVec 32) (hx : x.toNat < 1024) : floorDivWord x = BitVec.ofNat 32 (x.toNat / 64) := by
  unfold floorDivWord
  -- the divisor 64 is neither zero nor minus one, so the division is the plain signed one
  have h64 : ¬ IntOp.SDivCorner x 64#32 := by
    rintro (h | ⟨_, h⟩) <;> exact absurd h (by decide)
  -- the dividend is non-negative, so the signed quotient is the unsigned one
  have hmsb : x.msb = false := by rw [BitVec.msb_eq_false_iff_two_mul_lt]; omega
  have hdiv : IntOp.divsi .vector x 64#32 = BitVec.ofNat 32 (x.toNat / 64) := by
    unfold IntOp.divsi
    have h64m : (64#32).msb = false := by decide
    have h64n : (64#32).toNat = 64 := by decide
    rw [if_neg h64, BitVec.sdiv_eq, hmsb, h64m]
    show x / 64#32 = _
    apply BitVec.eq_of_toNat_eq
    rw [BitVec.toNat_udiv, h64n, BitVec.toNat_ofNat]
    omega
  by_cases h0 : x = 0#32
  · -- lane 0: a closed computation (the remainder is zero, so no correction)
    subst h0; decide
  · -- a positive lane: the sign word of the dividend is 1 − 0, the divisor's too, so no correction
    have hpos : 0 < x.toNat := by
      rcases Nat.eq_zero_or_pos x.toNat with h | h
      · exact absurd (BitVec.eq_of_toNat_eq (by simpa using h)) h0
      · exact h
    have hint : x.toInt = (x.toNat : Int) := BitVec.toInt_eq_toNat_of_msb hmsb
    have hsgt : IntOp.cmpi .sgt x 0#32 = 1#1 := by
      show BitVec.ofBool ((0#32).slt x) = 1#1
      have : (0#32).slt x = true := by
        rw [BitVec.slt, hint]; simp; omega
      rw [this]; rfl
    have hslt : IntOp.cmpi .slt x 0#32 = 0#1 := by
      show BitVec.ofBool (x.slt 0#32) = 0#1
      have : x.slt 0#32 = false := by
        rw [BitVec.slt, hint]; simp
      rw [this]; rfl
    have hc : IntOp.cmpi .ne (IntOp.subi (BitVec.setWidth 32 1#1) (BitVec.setWidth 32 0#1))
        (Scalar.subi (Scalar.extui (Scalar.cmpi .sgt 64#32 0#32)) (Scalar.extui (Scalar.cmpi .slt 64#32 0#32))) = 0#1 := by
      decide
    rw [hsgt, hslt, hdiv, hc]
    show Scalar.select (0#1 &&& _) _ _ = _
    rw [BitVec.zero_and, select_zero]

/-- The comparison word: `(2k + t) · 16 + q` against `n`, all small, computed on 32-bit words. -/
theorem eqWord (k t q n : Nat) (hk : k < 4) (ht : t < 2) (hq : q < 16) (hn : n < 128) :
    IntOp.cmpi .eq (IntOp.addi (Scalar.muli (Scalar.addi (Scalar.muli (BitVec.ofNat 32 k) 2#32) (BitVec.ofNat 32 t)) 16#32)
        (BitVec.ofNat 32 q)) (BitVec.ofNat 32 n)
      = if (2 * k + t) * 16 + q = n then 1#1 else 0#1 := by
  have hw : IntOp.addi (Scalar.muli (Scalar.addi (Scalar.muli (BitVec.ofNat 32 k) 2#32) (BitVec.ofNat 32 t)) 16#32)
      (BitVec.ofNat 32 q) = BitVec.ofNat 32 ((2 * k + t) * 16 + q) := by
    show (BitVec.ofNat 32 k * 2#32 + BitVec.ofNat 32 t) * 16#32 + BitVec.ofNat 32 q = _
    apply BitVec.eq_of_toNat_eq
    simp only [BitVec.toNat_add, BitVec.toNat_mul, BitVec.toNat_ofNat]
    omega
  rw [hw]
  show BitVec.ofBool (BitVec.ofNat 32 ((2 * k + t) * 16 + q) == BitVec.ofNat 32 n) = _
  by_cases h : (2 * k + t) * 16 + q = n
  · rw [if_pos h, h, beq_self_eq_true]; rfl
  · rw [if_neg h]
    have : (BitVec.ofNat 32 ((2 * k + t) * 16 + q) == BitVec.ofNat 32 n) = false := by
      rw [beq_eq_false_iff_ne]
      intro he
      have h2 := congrArg BitVec.toNat he
      simp only [BitVec.toNat_ofNat] at h2
      omega
    rw [this]; rfl

/-- The lane's node offset the body computes once: `⌊j / 64⌋` at row `n` and lane `j`. -/
theorem pay3_apply (n : Fin 128) (j : Fin 1024) : k0_pay3 (ix2 n j) = BitVec.ofNat 32 (j.val / 64) := by
  have hi : iota .tc S128x1024 32 [1] iota_S128x1024_d1_w32 (ix2 n j) = BitVec.ofNat 32 j.val :=
    iota_single_apply .tc S128x1024 32 1 iota_S128x1024_d1_w32 (ix2 n j)
  have hj : (BitVec.ofNat 32 j.val).toNat = j.val := by
    rw [BitVec.toNat_ofNat]; have := j.isLt; omega
  have h := floorDivWord_eq (BitVec.ofNat 32 j.val) (by rw [hj]; exact j.isLt)
  rw [hj, ← hi] at h
  exact h

/-- The replication matrix of stream `t` at grid point `k`, read at row `n` and lane `j`: the weight row's entry at
    `j` when `(2k + t) · 16 + ⌊j / 64⌋ = n`, zero otherwise. -/
theorem selRow_apply (k t : Nat) (hk : k < 4) (ht : t < 2) (w : FVec Ideal S1x1024 .f32) (n : Fin 128) (j : Fin 1024) :
    select
        (cmpi .eq
          (addi (broadcast S128x1024 (Scalar.muli (Scalar.addi (Scalar.muli (BitVec.ofNat 32 k) 2#32) (BitVec.ofNat 32 t)) 16#32))
            k0_pay3)
          (iota .tc S128x1024 32 [0] iota_S128x1024_d0_w32))
        (broadcastTo S128x1024 (shapeCast S1x1024 w shapeCasts_S1x1024_S1x1024) broadcasts_S1x1024_S128x1024)
        (broadcast S128x1024 (Scalar.ofBits (F := Ideal) .f32 0x00000000#32)) (ix2 n j)
      = if (2 * k + t) * 16 + j.val / 64 = n.val then w (ix2 (0 : Fin 1) j) else 0 := by
  have hi : iota .tc S128x1024 32 [0] iota_S128x1024_d0_w32 (ix2 n j) = BitVec.ofNat 32 n.val :=
    iota_single_apply .tc S128x1024 32 0 iota_S128x1024_d0_w32 (ix2 n j)
  have hc : cmpi .eq
      (addi (broadcast S128x1024 (Scalar.muli (Scalar.addi (Scalar.muli (BitVec.ofNat 32 k) 2#32) (BitVec.ofNat 32 t)) 16#32))
        k0_pay3)
      (iota .tc S128x1024 32 [0] iota_S128x1024_d0_w32) (ix2 n j)
      = if (2 * k + t) * 16 + j.val / 64 = n.val then 1#1 else 0#1 := by
    show IntOp.cmpi .eq (IntOp.addi (Scalar.muli (Scalar.addi (Scalar.muli (BitVec.ofNat 32 k) 2#32) (BitVec.ofNat 32 t)) 16#32)
        (k0_pay3 (ix2 n j))) (iota .tc S128x1024 32 [0] iota_S128x1024_d0_w32 (ix2 n j)) = _
    rw [pay3_apply, hi]
    exact eqWord k t (j.val / 64) n.val hk ht (by have := j.isLt; omega) n.isLt
  rw [select_apply, hc, shapeCast_self, rowBroadcast_apply, broadcast_apply]
  have hz : Scalar.ofBits (F := Ideal) .f32 0x00000000#32 = (0 : EReal) := Ideal.ofBits_zero_f32
  rw [hz]
  by_cases h : (2 * k + t) * 16 + j.val / 64 = n.val
  · rw [if_pos h, if_pos h, select_one]
  · rw [if_neg h, if_neg h, select_zero]

/-- The first stream's replication matrix at grid point `i`. -/
theorem pay5_apply (i : grid0.Coords) (w : Vec Ideal S1x1024 .f32) (n : Fin 128) (j : Fin 1024) :
    k0_pay5 (F := Ideal) i w (ix2 n j)
      = if (2 * (i 0).val) * 16 + j.val / 64 = n.val then w (ix2 (0 : Fin 1) j) else 0 := by
  have hk : (i 0).val < 4 := (i 0).isLt
  exact selRow_apply (i 0).val 0 hk (by decide) w n j

end Cert.KernelIdeal.Pay

end
-- ==== Proof.KernelPay6.lean ====
/-
  The body's accumulated value read at an index.

  With the neighbour sums `s` in the scratch, stream `t` of grid point `k` handles the 1024 hidden lanes of global chunk
  `kg = 2k + t`.  Lane `j` of that chunk belongs to node `kg · 16 + ⌊j / 64⌋`; the product of `s` with the stream's
  replication matrix picks, in the sum over the 128 nodes, the one term of that node (every other term is a product
  with zero), so the hidden lane is `max (s[b, node] · w1[j] + b1[j]) 0`, and the body returns the output block plus
  the two streams' products of the hidden lanes with their rows of the second-layer weight.
-/
import proofs.«135998_g2000004315035959_pallasbulk_646_6_alg».proof.Proof.KernelPayInt

noncomputable section

open scoped BigOperators

namespace Cert.KernelIdeal.Pay

open Idealize.ShloMosaic Idealize.ShloMosaic.ValueIdx Cert.KernelIdeal Cert.KernelIdeal.Gen

/-- The node of lane `j` of global chunk `kg` (reduced modulo 128 so that it is defined for every `kg`; for the
    eight chunks there are it is `kg · 16 + ⌊j / 64⌋`, `node_val`). -/
def node (kg : Nat) (j : Fin 1024) : Fin 128 := ⟨(kg * 16 + j.val / 64) % 128, Nat.mod_lt _ (by decide)⟩

theorem node_val {kg : Nat} (hkg : kg < 8) (j : Fin 1024) : (node kg j).val = kg * 16 + j.val / 64 := by
  show (kg * 16 + j.val / 64) % 128 = _
  have := j.isLt
  omega

/-- A row of `s` against a replication matrix: the sum over the nodes has the one term of the lane's node. -/
theorem sum_sel (kg : Nat) (hkg : kg < 8) (s : FVec Ideal S512x128 .f32) (R : FVec Ideal S128x1024 .f32)
    (w : FVec Ideal S1x1024 .f32)
    (hR : ∀ (n : Fin 128) (j : Fin 1024),
      R (ix2 n j) = if kg * 16 + j.val / 64 = n.val then w (ix2 (0 : Fin 1) j) else 0)
    (b : Fin 512) (j : Fin 1024) :
    ∑ n : Fin 128, s (ix2 b n) * R (ix2 n j) = s (ix2 b (node kg j)) * w (ix2 (0 : Fin 1) j) := by
  rw [Finset.sum_eq_single (node kg j)]
  · rw [hR, if_pos (node_val hkg j).symm]
  · intro n _ hn
    rw [hR, if_neg, mul_zero]
    intro h
    exact hn (Fin.ext (by rw [node_val hkg j]; exact h.symm))
  · intro h
    exact absurd (Finset.mem_univ _) h

/-- One stream's hidden lane: `max (s[b, node] · w1[j] + b1[j]) 0`. -/
theorem hidden_apply (kg : Nat) (hkg : kg < 8) (s : FVec Ideal S512x128 .f32) (R : FVec Ideal S128x1024 .f32)
    (w b1 : FVec Ideal S1x1024 .f32)
    (hR : ∀ (n : Fin 128) (j : Fin 1024),
      R (ix2 n j) = if kg * 16 + j.val / 64 = n.val then w (ix2 (0 : Fin 1) j) else 0)
    (b : Fin 512) (j : Fin 1024) :
    maximumf
        (addf (matmul dot_S512x128_S128x1024_S512x1024_1_0_0_1_n_n none s R (constant (F := Ideal) S512x1024 .f32 0x00000000#32))
          (broadcastTo S512x1024 b1 broadcasts_S1x1024_S512x1024))
        (broadcast S512x1024 (Scalar.ofBits (F := Ideal) .f32 0x00000000#32)) (ix2 b j)
      = max (s (ix2 b (node kg j)) * w (ix2 (0 : Fin 1) j) + b1 (ix2 (0 : Fin 1) j)) 0 := by
  have hz : Scalar.ofBits (F := Ideal) .f32 0x00000000#32 = (0 : EReal) := Ideal.ofBits_zero_f32
  rw [maximumf_apply, addf_apply, mm1024_apply, rowBroadcast_apply, broadcast_apply, sum_sel kg hkg s R w hR b j, hz]

/-- The zero block the accumulation starts from. -/
theorem pay4_apply (b : Fin 512) (y : Fin 640) : k0_pay4 (F := Ideal) (ix2 b y) = 0 := by
  have hz : Scalar.ofBits (F := Ideal) .f32 0x00000000#32 = (0 : EReal) := Ideal.ofBits_zero_f32
  unfold k0_pay4
  rw [broadcast_apply, hz]

/-- The value the body stores back: the output block plus both streams' contributions. -/
theorem pay6_apply (i : grid0.Coords) (s : Vec Ideal S512x128 .f32) (w1a b1a : Vec Ideal S1x1024 .f32)
    (w2a : Vec Ideal S1024x640 .f32) (w1b b1b : Vec Ideal S1x1024 .f32) (w2b : Vec Ideal S1024x640 .f32)
    (o : Vec Ideal S512x640 .f32) (b : Fin 512) (y : Fin 640) :
    k0_pay6 (F := Ideal) (BitVec.ofNat 32 (i 0).val) (iota .tc S128x1024 32 [0] iota_S128x1024_d0_w32) k0_pay3
        (k0_pay4 (F := Ideal)) (k0_pay5 i w1a) s b1a w2a w1b s b1b w2b o (ix2 b y)
      = o (ix2 b y)
        + ((0 + ∑ j : Fin 1024,
                  max (s (ix2 b (node (2 * (i 0).val) j)) * w1a (ix2 (0 : Fin 1) j) + b1a (ix2 (0 : Fin 1) j)) 0
                    * w2a (ix2 j y))
            + ∑ j : Fin 1024,
                max (s (ix2 b (node (2 * (i 0).val + 1) j)) * w1b (ix2 (0 : Fin 1) j) + b1b (ix2 (0 : Fin 1) j)) 0
                  * w2b (ix2 j y)) := by
  have hk : (i 0).val < 4 := (i 0).isLt
  unfold k0_pay6
  rw [addf_apply, addf_apply, addf_apply, shapeCast_self, mm640_apply, mm640_apply, pay4_apply]
  refine congrArg₂ (· + ·) rfl (congrArg₂ (· + ·) (congrArg₂ (· + ·) rfl ?_) ?_)
  · refine Finset.sum_congr rfl fun j _ => ?_
    rw [hidden_apply (2 * (i 0).val) (by omega) s (k0_pay5 i w1a) w1a b1a (fun n j => pay5_apply i w1a n j) b j]
  · refine Finset.sum_congr rfl fun j _ => ?_
    rw [hidden_apply (2 * (i 0).val + 1) (by omega) s _ w1b b1b
      (fun n j => selRow_apply (i 0).val 1 hk (by decide) w1b n j) b j]

end Cert.KernelIdeal.Pay

end
-- ==== Proof.LibBlockSum.lean ====
/-
  Sums over a merged contraction axis.

  A contraction over `n * d` consecutive indices, that is `n` blocks of length `d` laid side by side, is the
  sum, block by block, of the `n` contractions over `d`.  Blocks whose terms all vanish may be left out.  A
  left-to-right accumulation from a starting value is that value plus the sum of what was added.  All of it is
  stated over an arbitrary commutative additive monoid: only commutativity and associativity of `+` are used,
  never cancellation or distributivity, so every statement holds on the extended reals as it stands, with no
  finiteness hypothesis.
-/
import Mathlib.Algebra.BigOperators.Fin
import Mathlib.Data.Fintype.BigOperators
import Mathlib.Logic.Equiv.Fin.Basic

namespace Cert.BlockSum

open Finset

variable {M : Type*} [AddCommMonoid M]

/-- Entry `c` of block `t` on the merged axis sits at position `c + d * t`. -/
def merged {n d : ℕ} (t : Fin n) (c : Fin d) : Fin (n * d) := finProdFinEquiv (t, c)

@[simp] theorem merged_val {n d : ℕ} (t : Fin n) (c : Fin d) : ((merged t c : Fin (n * d)) : ℕ) = c.val + d * t.val := rfl

/-- The block a merged position lies in. -/
theorem merged_div {n d : ℕ} (t : Fin n) (c : Fin d) : ((merged t c : Fin (n * d)) : ℕ) / d = t.val := by
  have hd : 0 < d := Nat.pos_of_ne_zero fun h => by subst h; exact c.elim0
  rw [merged_val, Nat.add_mul_div_left _ _ hd, Nat.div_eq_of_lt c.isLt, Nat.zero_add]

/-- The place of a merged position inside its block. -/
theorem merged_mod {n d : ℕ} (t : Fin n) (c : Fin d) : ((merged t c : Fin (n * d)) : ℕ) % d = c.val := by
  rw [merged_val, Nat.add_mul_mod_self_left, Nat.mod_eq_of_lt c.isLt]

/-- A sum over the merged axis is the sum over the blocks of the sums inside each block. -/
theorem sum_merged {n d : ℕ} (f : Fin (n * d) → M) :
    ∑ k, f k = ∑ t : Fin n, ∑ c : Fin d, f (merged t c) := by
  rw [← Equiv.sum_comp finProdFinEquiv f, Fintype.sum_prod_type]
  rfl

/-- The same when the merged term is known block by block. -/
theorem sum_merged_of {n d : ℕ} (f : Fin (n * d) → M) (g : Fin n → Fin d → M)
    (h : ∀ t c, f (merged t c) = g t c) : ∑ k, f k = ∑ t, ∑ c, g t c := by
  rw [sum_merged]
  exact Finset.sum_congr rfl fun t _ => Finset.sum_congr rfl fun c _ => h t c

/-- Terms that vanish outside `p` may be left out of a sum. -/
theorem sum_drop_zero {ι : Type*} [Fintype ι] (F : ι → M) (p : ι → Prop) [DecidablePred p]
    (h : ∀ t, ¬ p t → F t = 0) : ∑ t, F t = ∑ t ∈ univ.filter p, F t := by
  rw [Finset.sum_filter]
  refine Finset.sum_congr rfl fun t _ => ?_
  split_ifs with hp
  · rfl
  · exact h t hp

/-- Adding the entries of a list one after the other onto `z` gives `z` plus their sum. -/
theorem foldl_add_list (l : List M) (z : M) : l.foldl (· + ·) z = z + l.sum := by
  induction l generalizing z with
  | nil => simp
  | cons a l ih => rw [List.foldl_cons, ih, List.sum_cons, add_assoc]

/-- Accumulating `a 0, a 1, …` in order onto `z` gives `z` plus the sum of the `a t`. -/
theorem foldl_add_ofFn {n : ℕ} (a : Fin n → M) (z : M) : (List.ofFn a).foldl (· + ·) z = z + ∑ t, a t := by
  rw [foldl_add_list, List.sum_ofFn]

/-- Nine contributions added one after the other onto zero. -/
theorem acc_nine (a : Fin 9 → M) :
    0 + a 0 + a 1 + a 2 + a 3 + a 4 + a 5 + a 6 + a 7 + a 8 = ∑ t, a t := by
  simp only [Fin.sum_univ_succ, Fin.sum_univ_zero, zero_add, add_zero]
  simp only [add_assoc]
  rfl

/-- Four contributions added one after the other onto zero. -/
theorem acc_four (a : Fin 4 → M) : 0 + a 0 + a 1 + a 2 + a 3 = ∑ t, a t := by
  simp only [Fin.sum_univ_succ, Fin.sum_univ_zero, zero_add, add_zero]
  simp only [add_assoc]
  rfl

end Cert.BlockSum
-- ==== Proof.KernelAcc.lean ====
/-
  The accumulation over the grid.

  The 8192 hidden indices are eight chunks of 1024 lanes; lane `j` of chunk `kg` is the hidden index
  `kg · 1024 + j`, whose node is `kg · 16 + ⌊j / 64⌋` — the node the body's replication matrix selects.  So one
  stream's contribution is the chunk's part of the factored form's sum over the hidden indices, and the bias plus the
  eight chunks' contributions, added two by two onto the output block in grid order, is the factored form itself: a
  sum over `8 · 1024` indices is the sum over the chunks of the sums inside each chunk.  Only commutativity and
  associativity of `+` and `0 + z = z` are used, so everything holds on the extended reals as it stands.
-/
import proofs.«135998_g2000004315035959_pallasbulk_646_6_alg».proof.Proof.KernelPay6
import proofs.«135998_g2000004315035959_pallasbulk_646_6_alg».proof.Proof.Spec
import proofs.«135998_g2000004315035959_pallasbulk_646_6_alg».proof.Proof.LibBlockSum

noncomputable section

open scoped BigOperators

namespace Cert.KernelIdeal.Pay

open Idealize.ShloMosaic Idealize.ShloMosaic.ValueIdx Cert.KernelIdeal Cert.KernelIdeal.Gen Cert.GcnSpec

/-- The hidden index of lane `j` of chunk `kg`. -/
def Jof (kg : Nat) (hkg : kg < 8) (j : Fin 1024) : Fin 8192 := ⟨kg * 1024 + j.val, by have := j.isLt; omega⟩

@[simp] theorem Jof_val (kg : Nat) (hkg : kg < 8) (j : Fin 1024) : (Jof kg hkg j).val = kg * 1024 + j.val := rfl

/-- The node the replication matrix selects for a lane is the node of the lane's hidden index. -/
theorem node_eq_nodeOf (kg : Nat) (hkg : kg < 8) (j : Fin 1024) : node kg j = nodeOf (Jof kg hkg j) := by
  refine Fin.ext ?_
  rw [node_val hkg j]
  show kg * 16 + j.val / 64 = (kg * 1024 + j.val) / 64
  omega

variable (a : (⟨2, ![128, 128]⟩ : Shape).Idx → EReal) (x : (⟨3, ![512, 128, 1]⟩ : Shape).Idx → EReal)
  (w1 b1 : (⟨2, ![1, 64]⟩ : Shape).Idx → EReal) (w2 : (⟨2, ![8192, 640]⟩ : Shape).Idx → EReal)
  (b2 : (⟨2, ![1, 640]⟩ : Shape).Idx → EReal)

/-- One stream's contribution is its chunk's part of the factored form's sum. -/
theorem stream_term (b : Fin 512) (y : Fin 640) (kg : Nat) (hkg : kg < 8) (s : Vec Ideal S512x128 .f32)
    (hs : ∀ n : Fin 128, s (ix2 b n) = agg a x b n)
    (w1r b1r : Vec Ideal S1x1024 .f32) (w2r : Vec Ideal S1024x640 .f32)
    (hw1 : ∀ j : Fin 1024, w1r (ix2 (0 : Fin 1) j) = w1 (ix2 (0 : Fin 1) (featOf (Jof kg hkg j))))
    (hb1 : ∀ j : Fin 1024, b1r (ix2 (0 : Fin 1) j) = b1 (ix2 (0 : Fin 1) (featOf (Jof kg hkg j))))
    (hw2 : ∀ j : Fin 1024, w2r (ix2 j y) = w2 (ix2 (Jof kg hkg j) y)) :
    ∑ j : Fin 1024, max (s (ix2 b (node kg j)) * w1r (ix2 (0 : Fin 1) j) + b1r (ix2 (0 : Fin 1) j)) 0 * w2r (ix2 j y)
      = ∑ j : Fin 1024, hidFactored a x w1 b1 b (Jof kg hkg j) * w2 (ix2 (Jof kg hkg j) y) := by
  refine Finset.sum_congr rfl fun j _ => ?_
  rw [hs, hw1, hb1, hw2, node_eq_nodeOf kg hkg j]
  rfl

/-- The bias and the eight chunks' contributions, added in the order the grid adds them, are the factored form. -/
theorem acc_eq_Gk (b : Fin 512) (y : Fin 640) (C : Fin 8 → EReal)
    (hC : ∀ kg : Fin 8, C kg = ∑ j : Fin 1024,
      hidFactored a x w1 b1 b (Jof kg.val kg.isLt j) * w2 (ix2 (Jof kg.val kg.isLt j) y)) :
    (((b2 (ix2 (0 : Fin 1) y) + ((0 + C 0) + C 1)) + ((0 + C 2) + C 3)) + ((0 + C 4) + C 5)) + ((0 + C 6) + C 7)
      = Gk a x w1 b1 w2 b2 (ix2 b y) := by
  -- the sum over the hidden indices, chunk by chunk
  have hsum : (∑ J : Fin 8192, hidFactored a x w1 b1 b J * w2 (ix2 J y)) = ∑ kg : Fin 8, C kg := by
    have h := Cert.BlockSum.sum_merged_of (n := 8) (d := 1024)
      (fun J : Fin (8 * 1024) => hidFactored a x w1 b1 b J * w2 (ix2 J y))
      (fun kg j => hidFactored a x w1 b1 b (Jof kg.val kg.isLt j) * w2 (ix2 (Jof kg.val kg.isLt j) y))
      (fun kg j => by
        have e : (Cert.BlockSum.merged kg j : Fin (8 * 1024)) = Jof kg.val kg.isLt j := Fin.ext (by
          rw [Cert.BlockSum.merged_val, Jof_val]; omega)
        rw [e])
    exact h.trans (Finset.sum_congr rfl fun kg _ => (hC kg).symm)
  show _ = b2 (ix2 (0 : Fin 1) y) + ∑ J : Fin 8192, hidFactored a x w1 b1 b J * w2 (ix2 J y)
  rw [hsum, Fin.sum_univ_eight]
  simp only [zero_add, add_assoc]

end Cert.KernelIdeal.Pay

end
-- ==== Proof.KI.Final.lean ====
/-
  The idealized kernel's value: what the run leaves in the result array is the factored form of the network's output.

  The region has four points.  The first point multiplies the input matrix by the transposed adjacency and leaves
  the product — the neighbour sums `s[b, n] = ∑ m, x[b, m] · a[n, m]` — in the scratch, where every later point finds
  it unchanged; it starts the output block from the output bias row.  Point `t` then adds, for each of its two streams,
  the product of the 1024 hidden activations of chunk `2t` (resp. `2t + 1`) with their rows of the second layer's
  weight: lane `j` of chunk `kg` is the hidden index `kg · 1024 + j`, its activation is
  `max (s[b, node] · w1[feature] + b1[feature]) 0`, which is the factored hidden activation at that index.  After the
  fourth point the output block is the bias row plus the eight chunks' sums, added two by two in grid order, and the
  eight chunks exhaust the 8192 hidden indices.  No finiteness of the entries is used anywhere: every step is an
  equation between sums and products as written.
-/
import proofs.«135998_g2000004315035959_pallasbulk_646_6_alg».proof.Proof.KI.Launch
import proofs.«135998_g2000004315035959_pallasbulk_646_6_alg».proof.Proof.KI.Pieces
import proofs.«135998_g2000004315035959_pallasbulk_646_6_alg».proof.Proof.KI.Blocks
import proofs.«135998_g2000004315035959_pallasbulk_646_6_alg».proof.Proof.KernelAcc

set_option maxRecDepth 16384

noncomputable section

open scoped BigOperators

namespace Cert.KernelIdeal.Glue

open Cert.KernelIdeal Cert.KernelIdeal.Gen Cert.KernelIdeal.Fr Cert.KernelIdeal.Pay Cert.KernelIdeal.Blk
open Idealize.ShloMosaic Idealize.ShloMosaic.TcCoe Idealize.ShloMosaic.ValueIdx
open Idealize.SL.Sem
open Cert.GcnSpec

variable (m : (ℓ : Loc nD τ sig) → Buf (Elt Ideal) ℓ)

/-! ## The six argument arrays, at the specification's types -/

/-- The normalized adjacency. -/
abbrev adj (c : Dev nD) : (⟨2, ![128, 128]⟩ : Shape).Idx → EReal := m ((c : Thread nD τ).loc main_arg0)
/-- The node inputs. -/
abbrev inp (c : Dev nD) : (⟨3, ![512, 128, 1]⟩ : Shape).Idx → EReal := m ((c : Thread nD τ).loc main_arg1)
/-- The first layer's weight row. -/
abbrev wt1 (c : Dev nD) : (⟨2, ![1, 64]⟩ : Shape).Idx → EReal := m ((c : Thread nD τ).loc main_arg2)
/-- The first layer's bias row. -/
abbrev bs1 (c : Dev nD) : (⟨2, ![1, 64]⟩ : Shape).Idx → EReal := m ((c : Thread nD τ).loc main_arg3)
/-- The second layer's weight. -/
abbrev wt2 (c : Dev nD) : (⟨2, ![8192, 640]⟩ : Shape).Idx → EReal := m ((c : Thread nD τ).loc main_arg4)
/-- The second layer's bias row. -/
abbrev bs2 (c : Dev nD) : (⟨2, ![1, 640]⟩ : Shape).Idx → EReal := m ((c : Thread nD τ).loc main_arg5)

/-- The grid is one axis of four points: a point's coordinate is its position. -/
theorem coord_val : ∀ t : Fin cfg0.N, ((grid0.coords t) 0).val = t.val :=
  (by decide +kernel : ∀ t : Fin grid0.N, ((grid0.coords t) 0).val = t.val)

/-- Point `t` handles chunks `2t` and `2t + 1` of the eight. -/
theorem chunk_lt0 (t : Fin cfg0.N) : 2 * t.val < 8 := by have := point_lt t; omega
theorem chunk_lt1 (t : Fin cfg0.N) : 2 * t.val + 1 < 8 := by have := point_lt t; omega

/-- One chunk's part of the factored form's sum over the hidden indices, for graph `b` and output column `y`. -/
def chunk (c : Dev nD) (b : Fin 512) (y : Fin 640) (kg : ℕ) (hkg : kg < 8) : EReal :=
  ∑ j : Fin 1024, hidFactored (adj m c) (inp m c) (wt1 m c) (bs1 m c) b (Jof kg hkg j) * wt2 m c (ix2 (Jof kg hkg j) y)

/-! ## The scratch: the neighbour sums, from the first point on -/

/-- The product of the input matrix with the transposed adjacency is the neighbour sum. -/
theorem pay1_agg (c : Dev nD) (t : Fin cfg0.N) (b : Fin 512) (k : Fin 128) :
    k0_pay1 (F := Ideal) (iblk m c 0 t) (iblk m c 1 t) (ix2 b k) = agg (adj m c) (inp m c) b k := by
  refine (pay1_apply (iblk m c 0 t) (iblk m c 1 t) b k).trans ?_
  exact Finset.sum_congr rfl fun j _ => by rw [blk0 m c t b j, blk1 m c t j k]

/-- The first point leaves that product in the scratch … -/
theorem scr_first (c : Dev nD) (t : Fin cfg0.N) (h0 : t.val = 0) :
    (outsAt m c t.val t.isLt).2 = k0_pay1 (F := Ideal) (iblk m c 0 t) (iblk m c 1 t) := by
  rw [outsAt_first m c t h0]
  dsimp only
  exact scrA_eq (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr h0) (iblk m c 0 t) (iblk m c 1 t) (iblk m c 2 t) (iblk m c 3 t) (iblk m c 4 t) (iblk m c 5 t) (iblk m c 6 t) (iblk m c 7 t) (iblk m c 8 t)

/-- … and a later point leaves the scratch as it found it. -/
theorem scr_later (c : Dev nD) (t : Fin cfg0.N) (h0 : ¬t.val = 0) :
    (outsAt m c t.val t.isLt).2 = (outsAt m c (t.val - 1) (Nat.lt_of_le_of_lt (Nat.sub_le _ _) t.isLt)).2 := by
  rw [outsAt_later m c t h0]

/-- The scratch after every position is the first point's product. -/
theorem scr_all (c : Dev nD) (h0 : 0 < cfg0.N) : ∀ (n : ℕ) (hn : n < cfg0.N),
    (outsAt m c n hn).2 = k0_pay1 (F := Ideal) (iblk m c 0 ⟨0, h0⟩) (iblk m c 1 ⟨0, h0⟩)
  | 0, hn => scr_first m c ⟨0, hn⟩ rfl
  | n + 1, hn => (scr_later m c ⟨n + 1, hn⟩ (Nat.succ_ne_zero n)).trans (scr_all c h0 n (Nat.lt_of_succ_lt hn))

/-- So at every position the scratch holds the neighbour sums. -/
theorem scr_apply (c : Dev nD) (n : ℕ) (hn : n < cfg0.N) (b : Fin 512) (k : Fin 128) :
    (outsAt m c n hn).2 (ix2 b k) = agg (adj m c) (inp m c) b k := by
  have h0 : 0 < cfg0.N := Nat.lt_of_le_of_lt (Nat.zero_le _) hn
  rw [scr_all m c h0 n hn]
  exact pay1_agg m c ⟨0, h0⟩ b k

/-! ## The output block: what each point adds -/

/-- Over neighbour sums `s` and an output block `o`, the body's value at point `t` is `o` plus the chunks `2t` and
`2t + 1` of the factored form's sum. -/
theorem point_value (c : Dev nD) (t : Fin cfg0.N) (s : Vec Ideal S512x128 .f32) (o : Vec Ideal S512x640 .f32)
    (b : Fin 512) (y : Fin 640) (hs : ∀ k : Fin 128, s (ix2 b k) = agg (adj m c) (inp m c) b k) :
    k0_pay6 (F := Ideal) (BitVec.ofNat 32 ((grid0.coords t) 0).val) (iota .tc S128x1024 32 [0] iota_S128x1024_d0_w32) k0_pay3
        (k0_pay4 (F := Ideal)) (k0_pay5 (grid0.coords t) (iblk m c 3 t)) s (iblk m c 4 t) (iblk m c 5 t) (iblk m c 6 t) s
        (iblk m c 7 t) (iblk m c 8 t) o (ix2 b y)
      = o (ix2 b y) + ((0 + chunk m c b y (2 * t.val) (chunk_lt0 t)) + chunk m c b y (2 * t.val + 1) (chunk_lt1 t)) := by
  refine (pay6_apply (grid0.coords t) s (iblk m c 3 t) (iblk m c 4 t) (iblk m c 5 t) (iblk m c 6 t) (iblk m c 7 t)
    (iblk m c 8 t) o b y).trans ?_
  rw [coord_val t]
  refine congrArg₂ (· + ·) rfl (congrArg₂ (· + ·) (congrArg₂ (· + ·) rfl ?_) ?_)
  · exact stream_term (adj m c) (inp m c) (wt1 m c) (bs1 m c) (wt2 m c) b y (2 * t.val) (chunk_lt0 t) s hs
      (iblk m c 3 t) (iblk m c 4 t) (iblk m c 5 t)
      (fun j => blk3 m c t j) (fun j => blk4 m c t j) (fun j => blk5 m c t j y)
  · exact stream_term (adj m c) (inp m c) (wt1 m c) (bs1 m c) (wt2 m c) b y (2 * t.val + 1) (chunk_lt1 t) s hs
      (iblk m c 6 t) (iblk m c 7 t) (iblk m c 8 t)
      (fun j => blk6 m c t j) (fun j => blk7 m c t j) (fun j => blk8 m c t j y)

/-- After the first point: the bias row plus chunks 0 and 1. -/
theorem out_first (c : Dev nD) (t : Fin cfg0.N) (h0 : t.val = 0) (b : Fin 512) (y : Fin 640) :
    (outsAt m c t.val t.isLt).1 (ix2 b y)
      = bs2 m c (ix2 (0 : Fin 1) y)
        + ((0 + chunk m c b y (2 * t.val) (chunk_lt0 t)) + chunk m c b y (2 * t.val + 1) (chunk_lt1 t)) := by
  rw [outsAt_first m c t h0]
  dsimp only
  refine (congrFun (outA_eq (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr h0) (iblk m c 0 t) (iblk m c 1 t) (iblk m c 2 t) (iblk m c 3 t) (iblk m c 4 t) (iblk m c 5 t) (iblk m c 6 t) (iblk m c 7 t) (iblk m c 8 t)) (ix2 b y)).trans ?_
  refine (point_value m c t (k0_pay1 (F := Ideal) (iblk m c 0 t) (iblk m c 1 t)) (k0_pay2 (F := Ideal) (iblk m c 2 t)) b y
    (fun k => pay1_agg m c t b k)).trans ?_
  refine congrArg₂ (· + ·) ?_ rfl
  exact (pay2_apply (iblk m c 2 t) b y).trans (blk2 m c t y)

/-- After a later point: what the point before left plus chunks `2t` and `2t + 1`. -/
theorem out_later (c : Dev nD) (t : Fin cfg0.N) (h0 : ¬t.val = 0) (b : Fin 512) (y : Fin 640) :
    (outsAt m c t.val t.isLt).1 (ix2 b y)
      = (outsAt m c (t.val - 1) (Nat.lt_of_le_of_lt (Nat.sub_le _ _) t.isLt)).1 (ix2 b y)
        + ((0 + chunk m c b y (2 * t.val) (chunk_lt0 t)) + chunk m c b y (2 * t.val + 1) (chunk_lt1 t)) := by
  rw [outsAt_later m c t h0]
  dsimp only
  refine (congrFun (outB_eq (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun h => h0 ((hcond0 t).mp h)) (iblk m c 0 t) (iblk m c 1 t) (iblk m c 2 t) (iblk m c 3 t) (iblk m c 4 t) (iblk m c 5 t) (iblk m c 6 t) (iblk m c 7 t) (iblk m c 8 t) (outsAt m c (t.val - 1) (Nat.lt_of_le_of_lt (Nat.sub_le _ _) t.isLt)).1 (outsAt m c (t.val - 1) (Nat.lt_of_le_of_lt (Nat.sub_le _ _) t.isLt)).2) (ix2 b y)).trans ?_
  exact point_value m c t (outsAt m c (t.val - 1) (Nat.lt_of_le_of_lt (Nat.sub_le _ _) t.isLt)).2 (outsAt m c (t.val - 1) (Nat.lt_of_le_of_lt (Nat.sub_le _ _) t.isLt)).1 b y (fun k => scr_apply m c _ _ b k)

/-! ## The four points unrolled -/

/-- The last point leaves, at every index, the factored form of the output. -/
theorem outsAt_last_apply (c : Dev nD) (b : Fin 512) (y : Fin 640) :
    (outsAt m c t0_3.val t0_3.isLt).1 (ix2 b y)
      = Gk (adj m c) (inp m c) (wt1 m c) (bs1 m c) (wt2 m c) (bs2 m c) (ix2 b y) := by
  have h0 := out_first m c t0_0 rfl b y
  have h1 := out_later m c t0_1 (by decide) b y
  have h2 := out_later m c t0_2 (by decide) b y
  have h3 := out_later m c t0_3 (by decide) b y
  refine Eq.trans ?_ (acc_eq_Gk (adj m c) (inp m c) (wt1 m c) (bs1 m c) (wt2 m c) (bs2 m c) b y
    (fun kg => chunk m c b y kg.val kg.isLt) (fun kg => rfl))
  exact h3.trans (congrArg₂ (· + ·) (h2.trans (congrArg₂ (· + ·) (h1.trans (congrArg₂ (· + ·) h0 rfl)) rfl)) rfl)

/-- What the run leaves in the result array is the factored form of the network's output. -/
theorem outFinal_eq (c : Dev nD) :
    outFinal m c = Gk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨b, y, rfl⟩ : ∃ (b : Fin 512) (y : Fin 640), i = ix2 b y := ⟨i 0, i 1, eq_ix2 i⟩
  exact outsAt_last_apply m c b y

end Cert.KernelIdeal.Glue

end
-- ==== Proof.RefHost.lean ====
/-
  The arrays the reference hands to its one kernel region, read entry by entry.

  Before the region the reference reshapes and tiles its six arguments:
  * the node inputs `x` (512 × 128 × 1) lose their trailing unit axis: `X[b, j] = x[b, j, 0]`;
  * the adjacency `a` (128 × 128) is transposed, the first-layer weight `w1` (1 × 64) is spread along a new last
    axis, the two are multiplied entry by entry and the last two axes are merged into one of length 8192:
    `M[j, J] = a[J / 64, j] · w1[0, J % 64]` — column `J` is node `J / 64`, feature `J % 64`;
  * the first-layer bias `b1` (1 × 64) is repeated once per node and flattened: `B1[0, J] = b1[0, J % 64]`;
  * the second-layer weight and bias pass through a pad that adds nothing on any side, so they are unchanged.
  Each array is defined here as the composition of layout operations the program applies, as a function of the
  argument it is built from, and then read at an index given by coordinates: a reshape keeps the row-major
  position, a broadcast reads the operand at the coordinates it keeps, a transpose swaps the two coordinates, a pad
  of width zero is the identity.
-/
import proofs.«135998_g2000004315035959_pallasbulk_646_6_alg».proof.Proof.Gen.ReferenceIdeal
import proofs.«135998_g2000004315035959_pallasbulk_646_6_alg».proof.Proof.Spec
import Idealize.ShloMosaic.Lib.ValueLayout
import Idealize.ShloMosaic.Lib.KernelVsHost

noncomputable section

namespace Cert.ReferenceIdeal.RefValue

open Cert.ReferenceIdeal Cert.ReferenceIdeal.Gen Idealize.ShloMosaic
open Idealize.ShloMosaic.ValueIdx Cert.GcnSpec

/-- The padding scalar of the three zero-width pads: the integer zero converted. -/
def padZero : FVec Ideal S_ .f32 := sitofp .f32 (constantI S_ 32 0#32)

/-- The node inputs as the kernel receives them: the trailing unit axis dropped, then a pad of width zero. -/
def hostX (x : FVec Ideal S512x128x1 .f32) : FVec Ideal S512x128 .f32 :=
  pad S512x128 ![0, 0] ![0, 0] ![0, 0] (shapeCast S512x128 x shapeCasts_S512x128x1_S512x128)
    padZero pads_S512x128_S512x128_000_000 h_S_

/-- The first product's right operand as the host builds it: the transposed adjacency and the first-layer weight,
    each broadcast to nodes × nodes × features, multiplied, and the last two axes merged. -/
def hostM (a : FVec Ideal S128x128 .f32) (w1 : FVec Ideal S1x64 .f32) : FVec Ideal S128x8192 .f32 :=
  shapeCast S128x8192
    (mulf (F := Ideal)
      (broadcastInDim S128x128x64 ![0, 1, 2] bcast_S128x128x1_S128x128x64_0_1_2
        (broadcastInDim S128x128x1 ![0, 1] bcast_S128x128_S128x128x1_0_1
          (transpose S128x128 [1, 0] a transposes_S128x128_S128x128_1_0)))
      (broadcastInDim S128x128x64 ![0, 1, 2] bcast_S1x1x64_S128x128x64_0_1_2
        (broadcastInDim S1x1x64 ![2] bcast_S64_S1x1x64_2
          (shapeCast S64 w1 shapeCasts_S1x64_S64))) : FVec Ideal S128x128x64 .f32)
    shapeCasts_S128x128x64_S128x8192

/-- The first-layer bias tiled over the nodes and flattened. -/
def hostB1 (b1 : FVec Ideal S1x64 .f32) : FVec Ideal S1x8192 .f32 :=
  shapeCast S1x8192
    (broadcastInDim S1x1x128x64 ![0, 1, 2, 3] bcast_S1x1x1x64_S1x1x128x64_0_1_2_3
      (shapeCast S1x1x1x64 b1 shapeCasts_S1x64_S1x1x1x64))
    shapeCasts_S1x1x128x64_S1x8192

/-- The second-layer weight through its pad of width zero. -/
def hostW2 (w2 : FVec Ideal S8192x640 .f32) : FVec Ideal S8192x640 .f32 :=
  pad S8192x640 ![0, 0] ![0, 0] ![0, 0] w2 padZero pads_S8192x640_S8192x640_000_000 h_S_

/-- The second-layer bias through its pad of width zero. -/
def hostB2 (b2 : FVec Ideal S1x640 .f32) : FVec Ideal S1x640 .f32 :=
  pad S1x640 ![0, 0] ![0, 0] ![0, 0] b2 padZero pads_S1x640_S1x640_000_000 h_S_

/-- A pad that adds nothing on either side of either axis of a matrix is the identity. -/
theorem pad_zero_ix2 {n0 n1 : ℕ} (x : (⟨2, ![n0, n1]⟩ : Shape).Idx → EReal) {u : Shape} (v : u.Idx → EReal)
    (h : (⟨2, ![n0, n1]⟩ : Shape).Pads ![0, 0] ![0, 0] ![0, 0] ⟨2, ![n0, n1]⟩) (hu : 0 < u.numel) (p : Fin n0) (q : Fin n1) :
    pad ⟨2, ![n0, n1]⟩ ![0, 0] ![0, 0] ![0, 0] x v h hu (ix2 p q) = x (ix2 p q) :=
  pad_apply_of_inside _ _ _ x v h hu (ix2 p q) (ix2 p q) (fun a => by
    match a with
    | ⟨0, _⟩ => show p.val = 0 + p.val * (0 + 1); omega
    | ⟨1, _⟩ => show q.val = 0 + q.val * (0 + 1); omega)

/-- `X[b, j] = x[b, j, 0]`: dropping a trailing unit axis keeps the row-major position `b · 128 + j`. -/
theorem hostX_apply (x : FVec Ideal S512x128x1 .f32) (b : Fin 512) (j : Fin 128) :
    hostX x (ix2 b j) = x (ix3 b j (0 : Fin 1)) := by
  unfold hostX
  refine (pad_zero_ix2 _ _ _ _ b j).trans ?_
  refine shapeCast_apply x _ (ix2 b j) (ix3 b j (0 : Fin 1)) ?_
  rw [Shape.rowMajor_val_three, Shape.rowMajor_val_two]
  show (b.val * 128 + j.val) * 1 + 0 = b.val * 128 + j.val
  omega

/-- The second-layer weight is unchanged. -/
theorem hostW2_apply (w2 : FVec Ideal S8192x640 .f32) (J : Fin 8192) (y : Fin 640) :
    hostW2 w2 (ix2 J y) = w2 (ix2 J y) := by
  unfold hostW2
  exact pad_zero_ix2 _ _ _ _ J y

/-- The second-layer bias is unchanged. -/
theorem hostB2_apply (b2 : FVec Ideal S1x640 .f32) (u : Fin 1) (y : Fin 640) :
    hostB2 b2 (ix2 u y) = b2 (ix2 u y) := by
  unfold hostB2
  exact pad_zero_ix2 _ _ _ _ u y

/-- `B1[0, J] = b1[0, J % 64]`: position `J` of the flattened 128 × 64 tiling is node `J / 64`, feature `J % 64`,
    and every node's copy of the bias is the bias itself. -/
theorem hostB1_apply (b1 : FVec Ideal S1x64 .f32) (J : Fin 8192) :
    hostB1 b1 (ix2 (0 : Fin 1) J) = b1 (ix2 (0 : Fin 1) (featOf J)) := by
  unfold hostB1
  refine (shapeCast_apply _ _ (ix2 (0 : Fin 1) J) (ix4 (0 : Fin 1) (0 : Fin 1) (nodeOf J) (featOf J)) ?_).trans ?_
  · rw [Shape.rowMajor_val_four, Shape.rowMajor_val_two]
    show ((0 * 1 + 0) * 128 + J.val / 64) * 64 + J.val % 64 = 0 * 8192 + J.val
    omega
  refine (broadcastInDim_apply _ _ _ (ix4 (0 : Fin 1) (0 : Fin 1) (nodeOf J) (featOf J)) (ix4 (0 : Fin 1) (0 : Fin 1) (0 : Fin 1) (featOf J)) (fun a => by
    match a with
    | ⟨0, _⟩ => rfl
    | ⟨1, _⟩ => rfl
    | ⟨2, _⟩ => rfl
    | ⟨3, _⟩ => rfl)).trans ?_
  refine shapeCast_apply b1 _ (ix4 (0 : Fin 1) (0 : Fin 1) (0 : Fin 1) (featOf J)) (ix2 (0 : Fin 1) (featOf J)) ?_
  rw [Shape.rowMajor_val_four, Shape.rowMajor_val_two]
  show 0 * 64 + J.val % 64 = ((0 * 1 + 0) * 1 + 0) * 64 + J.val % 64
  omega

/-- `M[j, J] = a[J / 64, j] · w1[0, J % 64]`: the merged column `J` is the pair (node `J / 64`, feature `J % 64`)
    of the 128 × 128 × 64 product, whose first factor is the transposed adjacency (constant along the features) and
    whose second is the weight row (constant along both node axes). -/
theorem hostM_apply (a : FVec Ideal S128x128 .f32) (w1 : FVec Ideal S1x64 .f32) (j : Fin 128) (J : Fin 8192) :
    hostM a w1 (ix2 j J) = a (ix2 (nodeOf J) j) * w1 (ix2 (0 : Fin 1) (featOf J)) := by
  unfold hostM
  refine (shapeCast_apply _ _ (ix2 j J) (ix3 j (nodeOf J) (featOf J)) ?_).trans ?_
  · rw [Shape.rowMajor_val_three, Shape.rowMajor_val_two]
    show (j.val * 128 + J.val / 64) * 64 + J.val % 64 = j.val * 8192 + J.val
    omega
  rw [mulf_apply]
  congr 1
  · refine (broadcastInDim_apply _ _ _ (ix3 j (nodeOf J) (featOf J)) (ix3 j (nodeOf J) (0 : Fin 1)) (fun a => by
      match a with
      | ⟨0, _⟩ => rfl
      | ⟨1, _⟩ => rfl
      | ⟨2, _⟩ => rfl)).trans ?_
    refine (broadcastInDim_apply _ _ _ (ix3 j (nodeOf J) (0 : Fin 1)) (ix2 j (nodeOf J)) (fun a => by
      match a with
      | ⟨0, _⟩ => rfl
      | ⟨1, _⟩ => rfl)).trans ?_
    exact transpose_ix2_apply a _ j (nodeOf J)
  · refine (broadcastInDim_apply _ _ _ (ix3 j (nodeOf J) (featOf J)) (ix3 (0 : Fin 1) (0 : Fin 1) (featOf J)) (fun a => by
      match a with
      | ⟨0, _⟩ => rfl
      | ⟨1, _⟩ => rfl
      | ⟨2, _⟩ => rfl)).trans ?_
    refine (broadcastInDim_apply _ _ _ (ix3 (0 : Fin 1) (0 : Fin 1) (featOf J)) (ix1 (featOf J)) (fun a => by
      match a with
      | ⟨0, _⟩ => rfl)).trans ?_
    exact shapeCast_1a_a_apply w1 _ (featOf J)

end Cert.ReferenceIdeal.RefValue

end
-- ==== Proof.RefBody.lean ====
/-
  What the reference's kernel body stores, entry by entry.

  The body loads its five operands whole — the node inputs `X` (512 × 128), the folded adjacency `M` (128 × 8192),
  the tiled bias row `B1` (1 × 8192), the second weight `W2` (8192 × 640) and bias row `B2` (1 × 640) — and stores
      `out[b, y] = (∑ J, max ((∑ j, X[b, j] · M[j, J]) + B1[0, J]) 0 · W2[J, y]) + B2[0, y]`.
  Both products accumulate into zero, so at the exact values each is the plain sum over its one contracted axis of the
  operands' products; a bias row is added to every row of the product; the rectifier is the maximum with the zero
  word, which reads as the real number 0; the reshapes of an operand to its own shape change nothing.
-/
import proofs.«135998_g2000004315035959_pallasbulk_646_6_alg».proof.Proof.Gen.ReferenceIdeal.Skeleton
import proofs.«135998_g2000004315035959_pallasbulk_646_6_alg».proof.Proof.LibMatmulRows
import Idealize.ShloMosaic.Lib.ValueLayout

noncomputable section

open scoped BigOperators

namespace Cert.ReferenceIdeal.RefValue

open Cert.ReferenceIdeal Cert.ReferenceIdeal.Gen Idealize.ShloMosaic
open Idealize.ShloMosaic.ValueIdx

/-- The first product's dimension numbers: rows of the left operand against columns of the right. -/
abbrev D1 : DotDims S512x128 S128x8192 S512x8192 := dot_S512x128_S128x8192_S512x8192_1_0_0_1_n_n
/-- The second product's dimension numbers. -/
abbrev D2 : DotDims S512x8192 S8192x640 S512x640 := dot_S512x8192_S8192x640_S512x640_1_0_0_1_n_n

theorem D1_rank : D1.contr.rank = 1 := rfl
theorem D1_size : D1.contr.size ⟨0, by rw [D1_rank]; exact Nat.one_pos⟩ = 128 := rfl
theorem D1_l0 (i : S512x8192.Idx) (q : D1.contr.Idx) : (D1.lhsIdx i q 0).val = (i 0).val := by
  simp [DotDims.lhsIdx, D1, dot_S512x128_S128x8192_S512x8192_1_0_0_1_n_n]; rfl
theorem D1_l1 (i : S512x8192.Idx) (q : D1.contr.Idx) : (D1.lhsIdx i q 1).val = (q ⟨0, by rw [D1_rank]; exact Nat.one_pos⟩).val := by
  simp [DotDims.lhsIdx, D1, dot_S512x128_S128x8192_S512x8192_1_0_0_1_n_n]; rfl
theorem D1_r0 (i : S512x8192.Idx) (q : D1.contr.Idx) : (D1.rhsIdx i q 0).val = (q ⟨0, by rw [D1_rank]; exact Nat.one_pos⟩).val := by
  simp [DotDims.rhsIdx, D1, dot_S512x128_S128x8192_S512x8192_1_0_0_1_n_n]; rfl
theorem D1_r1 (i : S512x8192.Idx) (q : D1.contr.Idx) : (D1.rhsIdx i q 1).val = (i 1).val := by
  simp [DotDims.rhsIdx, D1, dot_S512x128_S128x8192_S512x8192_1_0_0_1_n_n]; rfl

theorem D2_rank : D2.contr.rank = 1 := rfl
theorem D2_size : D2.contr.size ⟨0, by rw [D2_rank]; exact Nat.one_pos⟩ = 8192 := rfl
theorem D2_l0 (i : S512x640.Idx) (q : D2.contr.Idx) : (D2.lhsIdx i q 0).val = (i 0).val := by
  simp [DotDims.lhsIdx, D2, dot_S512x8192_S8192x640_S512x640_1_0_0_1_n_n]; rfl
theorem D2_l1 (i : S512x640.Idx) (q : D2.contr.Idx) : (D2.lhsIdx i q 1).val = (q ⟨0, by rw [D2_rank]; exact Nat.one_pos⟩).val := by
  simp [DotDims.lhsIdx, D2, dot_S512x8192_S8192x640_S512x640_1_0_0_1_n_n]; rfl
theorem D2_r0 (i : S512x640.Idx) (q : D2.contr.Idx) : (D2.rhsIdx i q 0).val = (q ⟨0, by rw [D2_rank]; exact Nat.one_pos⟩).val := by
  simp [DotDims.rhsIdx, D2, dot_S512x8192_S8192x640_S512x640_1_0_0_1_n_n]; rfl
theorem D2_r1 (i : S512x640.Idx) (q : D2.contr.Idx) : (D2.rhsIdx i q 1).val = (i 1).val := by
  simp [DotDims.rhsIdx, D2, dot_S512x8192_S8192x640_S512x640_1_0_0_1_n_n]; rfl

variable (x0 : FVec Ideal S512x128 .f32) (x1 : FVec Ideal S128x8192 .f32) (x2 : FVec Ideal S1x8192 .f32)
  (x3 : FVec Ideal S8192x640 .f32) (x4 : FVec Ideal S1x640 .f32)

/-- The hidden layer the body computes: the first product, the bias row added to every row, the maximum with zero. -/
def hid : FVec Ideal S512x8192 .f32 :=
  maximumf
    (addf (matmul D1 none x0 x1 (constant (F := Ideal) S512x8192 .f32 0x00000000#32))
      (broadcastTo S512x8192 x2 broadcasts_S1x8192_S512x8192))
    (broadcast S512x8192 (Scalar.ofBits (F := Ideal) .f32 0x00000000#32))

theorem hid_apply (b : Fin 512) (J : Fin 8192) :
    hid x0 x1 x2 (ix2 b J) = max ((∑ j : Fin 128, x0 (ix2 b j) * x1 (ix2 j J)) + x2 (ix2 (0 : Fin 1) J)) 0 := by
  unfold hid
  rw [maximumf_apply, addf_apply, broadcast_apply,
    Cert.LibMatmulRows.matmul_zero_apply D1 D1_rank D1_size D1_l0 D1_l1 D1_r0 D1_r1 none x0 x1 b J,
    broadcastTo_1b_ab_apply x2 broadcasts_S1x8192_S512x8192 b J]
  show max _ (Ideal.ofBits .f32 0x00000000#32) = _
  rw [Ideal.ofBits_zero_f32]

/-- The body's payload is the second product of the hidden layer, with the second bias row added to every row. -/
theorem pay_eq : k0_pay1 (F := Ideal) x0 x1 x2 x3 x4
    = addf (matmul D2 none (hid x0 x1 x2) x3 (constant (F := Ideal) S512x640 .f32 0x00000000#32))
        (broadcastTo S512x640 x4 broadcasts_S1x640_S512x640) := by
  unfold k0_pay1 hid
  simp only [shapeCast_self]

theorem pay_apply (b : Fin 512) (y : Fin 640) :
    k0_pay1 (F := Ideal) x0 x1 x2 x3 x4 (ix2 b y)
      = (∑ J : Fin 8192, max ((∑ j : Fin 128, x0 (ix2 b j) * x1 (ix2 j J)) + x2 (ix2 (0 : Fin 1) J)) 0 * x3 (ix2 J y))
        + x4 (ix2 (0 : Fin 1) y) := by
  rw [pay_eq, addf_apply,
    Cert.LibMatmulRows.matmul_zero_apply D2 D2_rank D2_size D2_l0 D2_l1 D2_r0 D2_r1 none (hid x0 x1 x2) x3 b y,
    broadcastTo_1b_ab_apply x4 broadcasts_S1x640_S512x640 b y]
  simp only [hid_apply]

end Cert.ReferenceIdeal.RefValue
end
-- ==== Proof.RefValue.lean ====
/-
  The value of the reference program: its result array is the folded form `Cert.GcnSpec.G` of the six arguments.

  The reference builds five arrays from its arguments (the node inputs without their unit axis, the adjacency with the
  first-layer weight folded in, the tiled first bias, the second weight and bias: RefHost.lean) and runs one kernel
  region on a grid of a single point, whose body stores
      `out[b, y] = (∑ J, max ((∑ j, X[b, j] · M[j, J]) + B1[0, J]) 0 · W2[J, y]) + B2[0, y]`      (RefBody.lean).
  Each window's one block is its whole array, so the body reads exactly those five arrays and its one store fills the
  whole result. Substituting `X[b, j] = x[b, j, 0]`, `M[j, J] = a[J / 64, j] · w1[0, J % 64]`, `B1[0, J] = b1[0, J % 64]`
  and the unchanged second-layer arrays turns the stored value into
      `(∑ J, max ((∑ j, x[b, j, 0] · (a[J / 64, j] · w1[0, J % 64])) + b1[0, J % 64]) 0 · w2[J, y]) + b2[0, y]`,
  which is the folded form entry by entry: no arithmetic law is used, only the reading of each array at an index.
  Nothing after the region touches the result, and no operation writes an argument array.
-/
import proofs.«135998_g2000004315035959_pallasbulk_646_6_alg».proof.Proof.Gen.ReferenceIdeal.Frame
import proofs.«135998_g2000004315035959_pallasbulk_646_6_alg».proof.Proof.RefHost
import proofs.«135998_g2000004315035959_pallasbulk_646_6_alg».proof.Proof.RefBody

-- membership of an index in a block of these extents recurses once per coordinate of the long axes
set_option maxRecDepth 16384

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.Pipeline (Dat)
open Idealize.ShloMosaic.ValueIdx Cert.GcnSpec

variable (m : (ℓ : Loc nD τ sig) → Buf (Elt Ideal) ℓ) (ρ : Dev nD → PrngReg)

/-! ## The arrays the region finds -/

/-- When the region is entered, the array behind the first window is the node inputs without their unit axis. -/
theorem V_v14 (c : Dev nD) : (V m c main_call0_v14 : S512x128.Idx → EReal) = hostX (m ((c : Thread nD τ).loc main_arg1)) := by
  dsimp only [Gen.V, Gen.hostOps0]; after_results; rfl
/-- The array behind the second window is the folded adjacency built from the adjacency and the first-layer weight. -/
theorem V_v7 (c : Dev nD) : (V m c main_call0_v7 : S128x8192.Idx → EReal)
    = hostM (m ((c : Thread nD τ).loc main_arg0)) (m ((c : Thread nD τ).loc main_arg2)) := by
  dsimp only [Gen.V, Gen.hostOps0]; after_results; rfl
/-- The array behind the third window is the tiled first-layer bias. -/
theorem V_v10 (c : Dev nD) : (V m c main_call0_v10 : S1x8192.Idx → EReal) = hostB1 (m ((c : Thread nD τ).loc main_arg3)) := by
  dsimp only [Gen.V, Gen.hostOps0]; after_results; rfl
/-- The array behind the fourth window is the second-layer weight. -/
theorem V_v11 (c : Dev nD) : (V m c main_call0_v11 : S8192x640.Idx → EReal) = hostW2 (m ((c : Thread nD τ).loc main_arg4)) := by
  dsimp only [Gen.V, Gen.hostOps0]; after_results; rfl
/-- The array behind the fifth window is the second-layer bias. -/
theorem V_v12 (c : Dev nD) : (V m c main_call0_v12 : S1x640.Idx → EReal) = hostB2 (m ((c : Thread nD τ).loc main_arg5)) := by
  dsimp only [Gen.V, Gen.hostOps0]; after_results; rfl

/-- The zero offsets, however they are spelt. -/
theorem hz : (![0, 0] : Fin 2 → Nat) = fun _ => 0 := funext fun a => by fin_cases a <;> rfl

/-- The body loads each operand whole and stores once, whole: what it leaves in the result's buffer is its payload. -/
theorem out_eq (x0 : Vec Ideal S512x128 .f32) (x1 : Vec Ideal S128x8192 .f32) (x2 : Vec Ideal S1x8192 .f32)
    (x3 : Vec Ideal S8192x640 .f32) (x4 : Vec Ideal S1x640 .f32) :
    out0_5 x0 x1 x2 x3 x4 = k0_pay1 x0 x1 x2 x3 x4 := by
  unfold out0_5
  rw [View.canon_unit_zero hz]
  simp only [View.ld_unit_zero (S := S512x128) hz, View.ld_unit_zero (S := S128x8192) hz, View.ld_unit_zero (S := S1x8192) hz,
    View.ld_unit_zero (S := S8192x640) hz, View.ld_unit_zero (S := S1x640) hz]

/-- The body's payload on the arrays the host prefix builds is the folded form of the network's output. -/
theorem pay_G (a : FVec Ideal S128x128 .f32) (x : FVec Ideal S512x128x1 .f32) (w1 b1 : FVec Ideal S1x64 .f32)
    (w2 : FVec Ideal S8192x640 .f32) (b2 : FVec Ideal S1x640 .f32) (b : Fin 512) (y : Fin 640) :
    k0_pay1 (F := Ideal) (hostX x) (hostM a w1) (hostB1 b1) (hostW2 w2) (hostB2 b2) (ix2 b y)
      = G a x w1 b1 w2 b2 (ix2 b y) := by
  rw [pay_apply]
  simp only [hostX_apply, hostM_apply, hostB1_apply, hostW2_apply, hostB2_apply]
  rfl

/-- Every window's one block starts at the array's origin. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The grid has one point and each window's block is its whole array, so the block read at that point is the array
    itself; for the first window, the node inputs without their unit axis. -/
theorem iblk0 (c : Dev nD) (t : Fin cfg0.N) :
    (iblk m c 0 t : S512x128.Idx → EReal) = hostX (m ((c : Thread nD τ).loc main_arg1)) := by
  rw [← V_v14]
  funext j
  show V m c main_call0_v14 (((cfg0.win 0).blk t).view.emb j) = V m c main_call0_v14 j
  obtain ⟨e00, e01, -⟩ := idx_facts t
  have h : ((cfg0.win 0).blk t).view.emb j = j := by
    funext a; apply Fin.ext
    match a with
    | ⟨0, _⟩ => show win0_0.index t (0 : Fin 2) * 512 + 1 * (j 0).val = (j 0).val; omega
    | ⟨1, _⟩ => show win0_0.index t (1 : Fin 2) * 128 + 1 * (j 1).val = (j 1).val; omega
  rw [h]

/-- The second window's block is the folded adjacency. -/
theorem iblk1 (c : Dev nD) (t : Fin cfg0.N) :
    (iblk m c 1 t : S128x8192.Idx → EReal) = hostM (m ((c : Thread nD τ).loc main_arg0)) (m ((c : Thread nD τ).loc main_arg2)) := by
  rw [← V_v7]
  funext j
  show V m c main_call0_v7 (((cfg0.win 1).blk t).view.emb j) = V m c main_call0_v7 j
  obtain ⟨-, -, e0, e1, -⟩ := idx_facts t
  have h : ((cfg0.win 1).blk t).view.emb j = j := by
    funext a; apply Fin.ext
    match a with
    | ⟨0, _⟩ => show win0_1.index t (0 : Fin 2) * 128 + 1 * (j 0).val = (j 0).val; omega
    | ⟨1, _⟩ => show win0_1.index t (1 : Fin 2) * 8192 + 1 * (j 1).val = (j 1).val; omega
  rw [h]

/-- The third window's block is the tiled first-layer bias. -/
theorem iblk2 (c : Dev nD) (t : Fin cfg0.N) :
    (iblk m c 2 t : S1x8192.Idx → EReal) = hostB1 (m ((c : Thread nD τ).loc main_arg3)) := by
  rw [← V_v10]
  funext j
  show V m c main_call0_v10 (((cfg0.win 2).blk t).view.emb j) = V m c main_call0_v10 j
  obtain ⟨-, -, -, -, e0, e1, -⟩ := idx_facts t
  have h : ((cfg0.win 2).blk t).view.emb j = j := by
    funext a; apply Fin.ext
    match a with
    | ⟨0, _⟩ => show win0_2.index t (0 : Fin 2) * 1 + 1 * (j 0).val = (j 0).val; omega
    | ⟨1, _⟩ => show win0_2.index t (1 : Fin 2) * 8192 + 1 * (j 1).val = (j 1).val; omega
  rw [h]

/-- The fourth window's block is the second-layer weight. -/
theorem iblk3 (c : Dev nD) (t : Fin cfg0.N) :
    (iblk m c 3 t : S8192x640.Idx → EReal) = hostW2 (m ((c : Thread nD τ).loc main_arg4)) := by
  rw [← V_v11]
  funext j
  show V m c main_call0_v11 (((cfg0.win 3).blk t).view.emb j) = V m c main_call0_v11 j
  obtain ⟨-, -, -, -, -, -, e0, e1, -⟩ := idx_facts t
  have h : ((cfg0.win 3).blk t).view.emb j = j := by
    funext a; apply Fin.ext
    match a with
    | ⟨0, _⟩ => show win0_3.index t (0 : Fin 2) * 8192 + 1 * (j 0).val = (j 0).val; omega
    | ⟨1, _⟩ => show win0_3.index t (1 : Fin 2) * 640 + 1 * (j 1).val = (j 1).val; omega
  rw [h]

/-- The fifth window's block is the second-layer bias. -/
theorem iblk4 (c : Dev nD) (t : Fin cfg0.N) :
    (iblk m c 4 t : S1x640.Idx → EReal) = hostB2 (m ((c : Thread nD τ).loc main_arg5)) := by
  rw [← V_v12]
  funext j
  show V m c main_call0_v12 (((cfg0.win 4).blk t).view.emb j) = V m c main_call0_v12 j
  obtain ⟨-, -, -, -, -, -, -, -, e0, e1, -⟩ := idx_facts t
  have h : ((cfg0.win 4).blk t).view.emb j = j := by
    funext a; apply Fin.ext
    match a with
    | ⟨0, _⟩ => show win0_4.index t (0 : Fin 2) * 1 + 1 * (j 0).val = (j 0).val; omega
    | ⟨1, _⟩ => show win0_4.index t (1 : Fin 2) * 640 + 1 * (j 1).val = (j 1).val; omega
  rw [h]

/-- The reference's result: the folded form of the network's output at the six argument arrays as launched. -/
abbrev Gm (c : Dev nD) : S512x640.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What the one grid point writes back is the whole of the folded form. -/
theorem flushed5_eq (c : Dev nD) (t : Fin cfg0.N) :
    (dats m 0 c).flushed 5 t = ((cfg0.win 5).blk t).view.read (Elt Ideal) (Gm m c) := by
  show (cfg0.win 5).cut (grid0.coords t) ((dats m 0 c).after 5 t) = _
  rw [after0_5, out_eq (iblk m c 0 t) (iblk m c 1 t) (iblk m c 2 t) (iblk m c 3 t) (iblk m c 4 t),
    iblk0, iblk1, iblk2, iblk3, iblk4]
  funext j
  obtain ⟨b, y, rfl⟩ : ∃ (b : Fin 512) (y : Fin 640), j = ix2 b y := ⟨j 0, j 1, eq_ix2 j⟩
  show k0_pay1 (F := Ideal) (hostX (m ((c : Thread nD τ).loc main_arg1))) (hostM (m ((c : Thread nD τ).loc main_arg0)) (m ((c : Thread nD τ).loc main_arg2))) (hostB1 (m ((c : Thread nD τ).loc main_arg3)))
      (hostW2 (m ((c : Thread nD τ).loc main_arg4))) (hostB2 (m ((c : Thread nD τ).loc main_arg5))) (ix2 b y)
    = Gm m c (((cfg0.win 5).blk t).view.emb (ix2 b y))
  obtain ⟨-, -, -, -, -, -, -, -, -, -, e0, e1⟩ := idx_facts t
  have h : ((cfg0.win 5).blk t).view.emb (ix2 b y) = ix2 b y := by
    funext a; apply Fin.ext
    match a with
    | ⟨0, _⟩ => show win0_5.index t (0 : Fin 2) * 512 + 1 * b.val = b.val; omega
    | ⟨1, _⟩ => show win0_5.index t (1 : Fin 2) * 640 + 1 * y.val = y.val; omega
  rw [h]
  exact pay_G _ _ _ _ _ _ b y

/-- An index of the result array is in the point's block iff each coordinate is in the block's range on its axis. -/
theorem mem_blk5 (t : Fin cfg0.N) (i : S512x640.Idx) :
    i ∈ ((cfg0.win 5).blk t).view.set ↔ ∀ a : Fin 2, win0_5.index t a * S512x640.size a ≤ (i a).val ∧ (i a).val < win0_5.index t a * S512x640.size a + S512x640.size a := by
  show i ∈ ((View.whole main_v0).slice (win0_5.rect t)).set ↔ _
  rw [View.set_slice_whole, Rect.mem_set_unit]
  exact Iff.rfl

/-- The one block is the whole result array. -/
theorem cover5 (i : S512x640.Idx) : ∃ t : Fin cfg0.N, (cfg0.win 5).flush t = true ∧ i ∈ ((cfg0.win 5).blk t).view.set := by
  refine ⟨t0_0, flush0_5 t0_0, ?_⟩
  rw [mem_blk5]
  obtain ⟨-, -, -, -, -, -, -, -, -, -, e0, e1⟩ := idx_facts t0_0
  have hi0 : (i 0).val < 512 := (i 0).isLt
  have hi1 : (i 1).val < 640 := (i 1).isLt
  intro a
  match a with
  | ⟨0, _⟩ => show win0_5.index t0_0 (0 : Fin 2) * 512 ≤ (i 0).val ∧ (i 0).val < win0_5.index t0_0 (0 : Fin 2) * 512 + 512; omega
  | ⟨1, _⟩ => show win0_5.index t0_0 (1 : Fin 2) * 640 ≤ (i 1).val ∧ (i 1).val < win0_5.index t0_0 (1 : Fin 2) * 640 + 640; omega

/-- After the run the result array is the folded form. -/
theorem final5 (c : Dev nD) : (dats m 0 c).arrAt 5 cfg0.N = Gm m c :=
  (dats m 0 c).arrAt_eq_of_cover 5 (Gm m c) (fun t _ => flushed5_eq m c t) cover5

/-- THE REFERENCE'S RUN: from any memory, every fair execution terminates with the result array holding the folded form
    of the network's output at the argument arrays, and the argument arrays unchanged. -/
theorem run : θ_run (defs (F := Ideal)) (onTc (τ := τ) (main (F := Ideal))) ⟨m, fun _ => 0, ρ⟩ (fun r => ∀ c : Dev nD,
      r.2.mem ((c.tc : Thread nD τ).loc main_v0)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 5).trans (final5 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.ReferenceIdeal.RefValue
end
-- ==== Proof.SpecLaw.lean ====
/-
  The algebraic law between the two closed forms of the network's output: when every entry of the adjacency, of the
  node inputs and of the first-layer weight is a real number, the factored form `Gk` (neighbour sum first, scaled by
  the weight afterwards) equals the folded form `G` (weight inside the neighbour sum).

  The only mathematical content is a factor moved across a finite sum,
  `(∑ m, x[b,m] · a[n,m]) · w = ∑ j, x[b,j] · (a[n,j] · w)`,
  which holds in ℝ by distributivity and associativity; over the extended reals it needs the entries to be finite
  (multiplication does not distribute over addition there in general), so the real witnesses are chosen, the coercion
  is pushed outside the products and the sums, and the identity is proved in ℝ.
-/
import proofs.«135998_g2000004315035959_pallasbulk_646_6_alg».proof.Proof.Spec

noncomputable section

open scoped BigOperators

namespace Cert.GcnSpec

open Idealize.ShloMosaic Idealize.ShloMosaic.ValueIdx

/-- A finite sum of coerced reals is the coercion of the real sum. -/
theorem coe_finset_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

variable (a : (⟨2, ![128, 128]⟩ : Shape).Idx → EReal) (x : (⟨3, ![512, 128, 1]⟩ : Shape).Idx → EReal)
  (w1 b1 : (⟨2, ![1, 64]⟩ : Shape).Idx → EReal) (w2 : (⟨2, ![8192, 640]⟩ : Shape).Idx → EReal)
  (b2 : (⟨2, ![1, 640]⟩ : Shape).Idx → EReal)

/-- With real entries, scaling the neighbour sum by the weight is the sum of the scaled terms: the two hidden
activations agree. -/
theorem hidFactored_eq_hidFolded (ha : ∀ i, ∃ r : ℝ, a i = (r : EReal)) (hx : ∀ i, ∃ r : ℝ, x i = (r : EReal))
    (hw1 : ∀ i, ∃ r : ℝ, w1 i = (r : EReal)) (b : Fin 512) (J : Fin 8192) :
    hidFactored a x w1 b1 b J = hidFolded a x w1 b1 b J := by
  choose ar har using ha
  choose xr hxr using hx
  choose wr hwr using hw1
  -- the identity in ℝ: distribute the factor over the sum, then reassociate each term
  have key : (∑ m : Fin 128, xr (ix3 b m (0 : Fin 1)) * ar (ix2 (nodeOf J) m)) * wr (ix2 (0 : Fin 1) (featOf J))
      = ∑ j : Fin 128, xr (ix3 b j (0 : Fin 1)) * (ar (ix2 (nodeOf J) j) * wr (ix2 (0 : Fin 1) (featOf J))) := by
    rw [Finset.sum_mul]
    exact Finset.sum_congr rfl fun j _ => mul_assoc _ _ _
  unfold hidFactored hidFolded agg
  simp only [har, hxr, hwr, ← EReal.coe_mul, coe_finset_sum, key]

/-- The factored form of the output equals the folded form when the adjacency, the node inputs and the first-layer
weight have real entries. -/
theorem Gk_eq_G (ha : ∀ i, ∃ r : ℝ, a i = (r : EReal)) (hx : ∀ i, ∃ r : ℝ, x i = (r : EReal))
    (hw1 : ∀ i, ∃ r : ℝ, w1 i = (r : EReal)) :
    Gk a x w1 b1 w2 b2 = G a x w1 b1 w2 b2 := by
  have hhid : hidFactored a x w1 b1 = hidFolded a x w1 b1 :=
    funext fun b => funext fun J => hidFactored_eq_hidFolded a x w1 b1 ha hx hw1 b J
  funext i
  unfold Gk G
  rw [add_comm, hhid]

end Cert.GcnSpec

end
-- ==== Proof.Finite.lean ====
/-
  From the precondition to "every entry of every argument array is a real number".

  The precondition says that the conjunction, over the six argument arrays, of "every element `x` has `|x| < +∞`" is
  true. Over the extended reals `|x| = max x (-x)`, and the word `0x7F800000` denotes `⊤`; `max x (-x) < ⊤` excludes
  both `x = ⊤` and `x = ⊥` (for `⊥` the negation is `⊤`), so `x` is the coercion of a real.

  The steps: read the precondition at the scalar result's one index; a conjunction of one-bit words is `1` exactly when
  each word is; an all-axes reduction by `and` that is `1` had a `1` at every element; the element's comparison being
  `1` is the strict inequality; case analysis on the extended real.
-/
import proofs.«135998_g2000004315035959_pallasbulk_646_6_alg».proof.Defs
import proofs.«135998_g2000004315035959_pallasbulk_646_6_alg».proof.Proof.Gen.Pre_finite_inputs
import Idealize.ShloMosaic.Lib.ReduceAll
import Idealize.ShloMosaic.Lib.ValueIdx

noncomputable section

namespace Cert.Finite

open Idealize.ShloMosaic Idealize.SL.Sem Idealize.ShloMosaic.ValueIdx
open Cert.Pre_finite_inputs (S_)

/-- The scalar shape has exactly one index. -/
instance : Subsingleton S_.Idx := ⟨fun a b => funext fun d => d.elim0⟩

/-- An extended real whose absolute value `max x (-x)` is below `⊤` is a real: `⊤` fails directly, `⊥` fails because
its negation is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The positive-infinity word denotes `⊤`. -/
theorem inf_word : Ideal.ofBits .f32 0x7F800000#32 = (⊤ : EReal) := by simp [Ideal.ofBits, Ideal.ieee]

/-- One element: if the comparison `|x| < +∞` came out `1`, then `x` is a real. -/
theorem real_of_cmp (x : Ideal .f32)
    (h : FloatOps.cmpf .olt (FloatOps.hostAbsf x) (FloatOps.ofBits (F := Ideal) .f32 0x7F800000#32) = 1#1) :
    ∃ r : ℝ, x = (r : EReal) := by
  apply real_of_abs_lt_top
  change Ideal.cmp .olt (max x (-x)) (Ideal.ofBits .f32 0x7F800000#32) = 1#1 at h
  rw [inf_word] at h
  change BitVec.ofBool (decide (max x (-x) < (⊤ : EReal))) = 1#1 at h
  by_contra hlt
  rw [decide_eq_false hlt] at h
  exact absurd h (by decide)

/-- One array: if the reduction by `and`, over all axes, of the elementwise comparison `|x| < +∞` is `1`, then every
element of `x` is a real. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf x) (broadcastInDim s ![] hb (constant S_ .f32 0x7F800000#32))) init hr hu ix0 = 1#1)
    (i : s.Idx) : ∃ r : ℝ, x i = (r : EReal) :=
  real_of_cmp (x i) (Host.reduce_andi_all _ init hr hu ix0 e i)

variable [hPre_finite_inputs : Cert.Pre_finite_inputs.Facts]

/-- Under the precondition, on every device, every entry of each of the six argument arrays is a real. -/
theorem finite_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal)) := by
  -- the precondition at the scalar result's index, as a conjunction of six all-axes reductions
  have h0 := congrFun (h c) ix0
  dsimp only [Cert.Pre_finite_inputs.fn, Cert.Pre_finite_inputs.fn_part1] at h0
  simp only [andi, IntOp.andi_eq_one] at h0
  obtain ⟨⟨⟨⟨⟨e0, e1⟩, e2⟩, e3⟩, e4⟩, e5⟩ := h0
  exact ⟨real_of_all _ _ _ _ _ e0, real_of_all _ _ _ _ _ e1, real_of_all _ _ _ _ _ e2, real_of_all _ _ _ _ _ e3,
    real_of_all _ _ _ _ _ e4, real_of_all _ _ _ _ _ e5⟩

section PerArgument
variable (m : (ℓ : Loc Cert.KernelIdeal.nD Cert.KernelIdeal.τ Cert.KernelIdeal.sig) → Buf (Elt Ideal) ℓ)
  (h : Cert.Pre_KernelIdeal m) (c : Dev Cert.KernelIdeal.nD)
include h

/-- The adjacency's entries are reals. -/
theorem finite_arg0 :
    ∀ i, ∃ r : ℝ, m ((c.tc : Thread Cert.KernelIdeal.nD Cert.KernelIdeal.τ).loc Cert.KernelIdeal.main_arg0) i = (r : EReal) :=
  (finite_args m h c).1
/-- The node inputs' entries are reals. -/
theorem finite_arg1 :
    ∀ i, ∃ r : ℝ, m ((c.tc : Thread Cert.KernelIdeal.nD Cert.KernelIdeal.τ).loc Cert.KernelIdeal.main_arg1) i = (r : EReal) :=
  (finite_args m h c).2.1
/-- The first layer's weights are reals. -/
theorem finite_arg2 :
    ∀ i, ∃ r : ℝ, m ((c.tc : Thread Cert.KernelIdeal.nD Cert.KernelIdeal.τ).loc Cert.KernelIdeal.main_arg2) i = (r : EReal) :=
  (finite_args m h c).2.2.1
/-- The first layer's biases are reals. -/
theorem finite_arg3 :
    ∀ i, ∃ r : ℝ, m ((c.tc : Thread Cert.KernelIdeal.nD Cert.KernelIdeal.τ).loc Cert.KernelIdeal.main_arg3) i = (r : EReal) :=
  (finite_args m h c).2.2.2.1
/-- The second layer's weights are reals. -/
theorem finite_arg4 :
    ∀ i, ∃ r : ℝ, m ((c.tc : Thread Cert.KernelIdeal.nD Cert.KernelIdeal.τ).loc Cert.KernelIdeal.main_arg4) i = (r : EReal) :=
  (finite_args m h c).2.2.2.2.1
/-- The second layer's biases are reals. -/
theorem finite_arg5 :
    ∀ i, ∃ r : ℝ, m ((c.tc : Thread Cert.KernelIdeal.nD Cert.KernelIdeal.τ).loc Cert.KernelIdeal.main_arg5) i = (r : EReal) :=
  (finite_args m h c).2.2.2.2.2

end PerArgument

end Cert.Finite

end
-- ==== Proof.lean ====
/-
  A two-layer graph network, computed two ways, is one function of its six arguments on finite inputs.

  The arguments: a normalized adjacency `a` (128 × 128), node inputs `x` (512 graphs × 128 nodes × 1), a first layer
  `w1`, `b1` (1 × 64 each) and a second layer `w2` (8192 × 640), `b2` (1 × 640).  The hidden activation at graph `b`
  and hidden index `J` (node `J / 64`, feature `J % 64`) is `h[b, J] = max (s · w1[J % 64] + b1[J % 64]) 0` with
  `s = ∑ j, x[b, j] · a[J / 64, j]` the neighbour sum, and the output is `out[b, y] = ∑ J, h[b, J] · w2[J, y] + b2[y]`.

  * The reference folds the first layer's weight into the adjacency on the host — `M[j, J] = a[J / 64, j] · w1[J % 64]` —
    and runs one grid point: two matrix products, a rectified sum, a bias.  Its result is the folded form `G`
    (Spec.lean), read off its generated frame run (RefHost, RefBody, RefValue).
  * The kernel never builds `M`.  Over four grid points it keeps the neighbour sums `x · aᵀ` in a scratch (stored at
    the first point), and at point `k` takes, for each of two streams `t`, the 1024 hidden indices of chunk
    `2k + t`: a 128 × 1024 selection matrix holding `w1[J % 64]` in row `J / 64` of column `J` and zero elsewhere turns the
    neighbour sums into `s · w1` by one more matrix product (all but one term of each inner sum vanish), the bias and
    the rectification follow, and the chunk's product with its 1024 rows of `w2` is added to the output block, which
    starts at the bias row.  Its result is the factored form `Gk` (KernelPay*, KernelAcc, KI/Blocks, KI/Pieces,
    KI/Final), read off a frame run written against the launch theorem for windows that share arrays (KI/, and the
    same text at the word-level instance in KB/): the repeated weight row, the repeated bias row and `w2` are each read
    through two windows, one per stream, and each window holds its array at half the full share.
  * `Gk = G` when every entry of `a`, `x`, `w1` is a real number: `(∑ j, x[b,j] · a[n,j]) · w = ∑ j, x[b,j] · (a[n,j] · w)`
    moves a factor across a finite sum, which on the extended reals needs finiteness (SpecLaw); the precondition says
    every input is finite (Finite).  Everything else — the order of the 8192 terms, the bias added first or last — is
    commutativity and associativity of addition.
  The idealization rewrote nothing, so the fourth conjunct is trivial.
-/
import proofs.«135998_g2000004315035959_pallasbulk_646_6_alg».proof.Defs
import proofs.«135998_g2000004315035959_pallasbulk_646_6_alg».proof.Proof.Gen.Kernel
import proofs.«135998_g2000004315035959_pallasbulk_646_6_alg».proof.Proof.Gen.KernelIdeal
import proofs.«135998_g2000004315035959_pallasbulk_646_6_alg».proof.Proof.Gen.ReferenceIdeal
import proofs.«135998_g2000004315035959_pallasbulk_646_6_alg».proof.Proof.Gen.ReferenceIdeal.Frame
import proofs.«135998_g2000004315035959_pallasbulk_646_6_alg».proof.Proof.Gen.Pre_finite_inputs
import proofs.«135998_g2000004315035959_pallasbulk_646_6_alg».proof.Proof.KB.Launch
import proofs.«135998_g2000004315035959_pallasbulk_646_6_alg».proof.Proof.KI.Final
import proofs.«135998_g2000004315035959_pallasbulk_646_6_alg».proof.Proof.RefValue
import proofs.«135998_g2000004315035959_pallasbulk_646_6_alg».proof.Proof.SpecLaw
import proofs.«135998_g2000004315035959_pallasbulk_646_6_alg».proof.Proof.Finite
import Idealize.ShloMosaic.Adequacy
import Idealize.ShloMosaic.Init

noncomputable section

namespace Cert.Proof

open Idealize.ShloMosaic Idealize.SL.Sem

/-- The program as printed runs and leaves its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- So does the reference. -/
theorem frame_ri : Cert.frame_ReferenceIdeal := fun m ρ _ => Cert.ReferenceIdeal.Gen.frame m ρ

/-- The idealization rewrote no operation. -/
theorem preserves : Cert.preserves_Kernel_KernelIdeal := trivial

/-- On finite inputs the kernel's factored form and the reference's folded form are one function: both runs end with
    the result array at `G` of the arguments. -/
theorem algebraic : Cert.algebraic_KernelIdeal_ReferenceIdeal := by
  intro m ρ m' ρ' hpre hagree
  refine ⟨fun c => Cert.GcnSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩) (Cert.KernelIdeal.Fr.run (F := Ideal) m ρ)
    rw [Cert.KernelIdeal.Glue.outFinal_eq m c]
    exact Cert.GcnSpec.Gk_eq_G _ _ _ _ _ _ (Cert.Finite.finite_arg0 m hpre c) (Cert.Finite.finite_arg1 m hpre c) (Cert.Finite.finite_arg2 m hpre c)
  · exact (θ_run Cert.ReferenceIdeal.defs _ _).mono (fun r h c => ⟨by
      obtain ⟨e0, e1, e2, e3, e4, e5⟩ := hagree c
      rw [(h c).1, e0, e1, e2, e3, e4, e5], (h c).2⟩) (Cert.ReferenceIdeal.RefValue.run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
